-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S2048x1024 .f32) (main_arg5 : FVec F S2048 .f32) (main_arg6 : FVec F S1024x2048 .f32) (main_arg7 : FVec F S1024 .f32) (main_arg8 : FVec F S1024 .f32) (main_arg9 : FVec F S1024 .f32) (main_arg10 : FVec F S1024 .f32) (main_arg11 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8x2048x1024 .f32) (main_arg1 : FVec F S1024x1024 .f32) (main_arg2 : FVec F S1024x1024 .f32) (main_arg3 : FVec F S1024x1024 .f32) (main_arg4 : FVec F S2048x1024 .f32) (main_arg5 : FVec F S2048 .f32) (main_arg6 : FVec F S1024x2048 .f32) (main_arg7 : FVec F S1024 .f32) (main_arg8 : FVec F S1024 .f32) (main_arg9 : FVec F S1024 .f32) (main_arg10 : FVec F S1024 .f32) (main_arg11 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_v13 main_v16
-- ==== Kernel.lean ====
abbrev S8x2048x1024 : Shape := ⟨3, ![8, 2048, 1024]⟩
abbrev S1024x1024 : Shape := ⟨2, ![1024, 1024]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S1024x3072 : Shape := ⟨2, ![1024, 3072]⟩
abbrev S16384x1024 : Shape := ⟨2, ![16384, 1024]⟩
abbrev S512x1024 : Shape := ⟨2, ![512, 1024]⟩
abbrev S512x3072 : Shape := ⟨2, ![512, 3072]⟩
abbrev S1x512x1024 : Shape := ⟨3, ![1, 512, 1024]⟩
abbrev S1x2048x1024 : Shape := ⟨3, ![1, 2048, 1024]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩
abbrev S1x2048 : Shape := ⟨2, ![1, 2048]⟩
abbrev S1024x1 : Shape := ⟨2, ![1024, 1]⟩

abbrev nBuf : Space → Nat
  | .hbm => 32
  | .vmem => 31
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2048x1024, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x3072, .f32⟩
  | .hbm, ⟨16, _⟩ => ⟨S1024x3072, .bf16⟩
  | .hbm, ⟨17, _⟩ => ⟨S16384x1024, .f32⟩
  | .hbm, ⟨18, _⟩ => ⟨S16384x1024, .bf16⟩
  | .hbm, ⟨19, _⟩ => ⟨S16384x1024, .bf16⟩
  | .hbm, ⟨20, _⟩ => ⟨S16384x1024, .bf16⟩
  | .hbm, ⟨21, _⟩ => ⟨S8x2048x1024, .bf16⟩
  | .hbm, ⟨22, _⟩ => ⟨S8x2048x1024, .bf16⟩
  | .hbm, ⟨23, _⟩ => ⟨S8x2048x1024, .bf16⟩
  | .hbm, ⟨24, _⟩ => ⟨S8x2048x1024, .f32⟩
  | .hbm, ⟨25, _⟩ => ⟨S1024x2048, .f32⟩
  | .hbm, ⟨26, _⟩ => ⟨S1024x2048, .bf16⟩
  | .hbm, ⟨27, _⟩ => ⟨S2048x1024, .f32⟩
  | .hbm, ⟨28, _⟩ => ⟨S2048x1024, .bf16⟩
  | .hbm, ⟨29, _⟩ => ⟨S16384x1024, .f32⟩
  | .hbm, ⟨30, _⟩ => ⟨S16384x1024, .f32⟩
  | .hbm, ⟨31, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x512x1024, .f32⟩
  | .local _ .vmem, ⟨10, _⟩ => ⟨S1x512x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1024, .f32⟩
  | .local _ .vmem, ⟨18, _⟩ => ⟨S1024, .f32⟩
  | .local _ .vmem, ⟨19, _⟩ => ⟨S1x512x1024, .f32⟩
  | .local _ .vmem, ⟨20, _⟩ => ⟨S1x512x1024, .f32⟩
  | .local _ .vmem, ⟨21, _⟩ => ⟨S1024x1024, .f32⟩
  | .local _ .vmem, ⟨22, _⟩ => ⟨S1024x1024, .f32⟩
  | .local _ .vmem, ⟨23, _⟩ => ⟨S1024x2048, .bf16⟩
  | .local _ .vmem, ⟨24, _⟩ => ⟨S2048, .f32⟩
  | .local _ .vmem, ⟨25, _⟩ => ⟨S2048x1024, .bf16⟩
  | .local _ .vmem, ⟨26, _⟩ => ⟨S1024, .f32⟩
  | .local _ .vmem, ⟨27, _⟩ => ⟨S1024, .f32⟩
  | .local _ .vmem, ⟨28, _⟩ => ⟨S1024, .f32⟩
  | .local _ .vmem, ⟨29, _⟩ => ⟨S1024x1024, .f32⟩
  | .local _ .vmem, ⟨30, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S16384x1024_S8x2048x1024 : S16384x1024.ShapeCasts S8x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  reduces_S512x1024_S512 : S512x1024.Reduces [1] S512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  transposes_S2048x1024_S1024x2048_1_0 : S2048x1024.Transposes [1, 0] S1024x2048
  transposes_S1024x2048_S2048x1024_1_0 : S1024x2048.Transposes [1, 0] S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  dot_S512x1024_S1024x3072_S512x3072_1_0_0_1_n_n_wf : DotDims.WF S512x1024 S1024x3072 S512x3072 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  dot_S1024x1024_S1024x2048_S1024x2048_1_0_0_1_n_n_wf : DotDims.WF S1024x1024 S1024x2048 S1024x2048 [1] [0] [0] [1] [] []
  dot_S1024x2048_S2048x1024_S1024x1024_1_0_0_1_n_n_wf : DotDims.WF S1024x2048 S2048x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S16384x1024.size a
  hwx0_2 : ∀ i : grid0.Coords, EltTy.bits .bf16 = 32 ∨ (Rect.block (s := S16384x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .f32 = 32 ∨ (Rect.block (s := S8x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .bf16 = 32 ∨ (Rect.block (s := S8x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S8x2048x1024.size a
  hwx1_3 : ∀ i : grid1.Coords, EltTy.bits .bf16 = 32 ∨ (Rect.block (s := S8x2048x1024) S1x2048x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S8x2048x1024.size a
  hwx1_6 : ∀ i : grid1.Coords, EltTy.bits .f32 = 32 ∨ (Rect.block (s := S8x2048x1024) S1x512x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x1024.size a
  hwx2_0 : ∀ i : grid2.Coords, EltTy.bits .f32 = 32 ∨ (Rect.block (s := S16384x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S1024x2048.size a
  hwx2_1 : ∀ i : grid2.Coords, EltTy.bits .bf16 = 32 ∨ (Rect.block (s := S1024x2048) S1024x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S2048.size a
  hwx2_2 : ∀ i : grid2.Coords, EltTy.bits .f32 = 32 ∨ (Rect.block (s := S2048) S2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x1024.size a ≤ S2048x1024.size a
  hwx2_3 : ∀ i : grid2.Coords, EltTy.bits .bf16 = 32 ∨ (Rect.block (s := S2048x1024) S2048x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024.size a ≤ S1024.size a
  hwx2_5 : ∀ i : grid2.Coords, EltTy.bits .f32 = 32 ∨ (Rect.block (s := S1024) S1024.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1024.size a ≤ S1024.size a
  hwx2_6 : ∀ i : grid2.Coords, EltTy.bits .f32 = 32 ∨ (Rect.block (s := S1024) S1024.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x1024.size a ≤ S16384x1024.size a
  hwx2_7 : ∀ i : grid2.Coords, EltTy.bits .f32 = 32 ∨ (Rect.block (s := S16384x1024) S1024x1024.size (cc2_transform_7 i) (hinb2_7 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1024x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2048x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg11) S1024.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S1024x1024.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S2048x1024 : Shape := ⟨2, ![2048, 1024]⟩
abbrev S2048 : Shape := ⟨1, ![2048]⟩
abbrev S1024x2048 : Shape := ⟨2, ![1024, 2048]⟩
abbrev S1024 : Shape := ⟨1, ![1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1x2048 : Shape := ⟨3, ![1, 1, 2048]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S2048x1024, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x2048, .f32⟩
  | .hbm, ⟨16, _⟩ => ⟨S_, .f32⟩
  | .hbm, ⟨17, _⟩ => ⟨S_, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x1024, .f32⟩
  | .hbm, ⟨35, _⟩ => ⟨S8x2048x1024, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S_, .f32⟩
  | .hbm, ⟨40, _⟩ => ⟨S8x2048x1, .f32⟩
  | .hbm, ⟨41, _⟩ => ⟨S8x2048x1, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S_, .f32⟩
  | .hbm, ⟨46, _⟩ => ⟨S8x2048, .f32⟩
  | .hbm, ⟨47, _⟩ => ⟨S8x2048x1, .f32⟩
  | .hbm, ⟨48, _⟩ => ⟨S_, .f32⟩
  | .hbm, ⟨49, _⟩ => ⟨S8x2048x1, .f32⟩
  | .hbm, ⟨50, _⟩ => ⟨S8x2048x1, .f32⟩
  | .hbm, ⟨51, _⟩ => ⟨S8x2048x1024, .f32⟩
  | .hbm, ⟨52, _⟩ => ⟨S8x2048x1024, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S1x1x1024, .f32⟩
  | .hbm, ⟨60, _⟩ => ⟨S8x2048x1024, .f32⟩
  | .hbm, ⟨61, _⟩ => ⟨S8x2048x1024, .f32⟩
  | .hbm, ⟨62, _⟩ => ⟨S1x1x1024, .f32⟩
  | .hbm, ⟨63, _⟩ => ⟨S8x2048x1024, .f32⟩
  | .hbm, ⟨64, _⟩ => ⟨S8x2048x1024, .f32⟩
  | .hbm, ⟨65, _⟩ => ⟨S8x2048x2048, .f32⟩
  | .hbm, ⟨66, _⟩ => ⟨S1x1x2048, .f32⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048x2048, .f32⟩
  | .hbm, ⟨71, _⟩ => ⟨S8x2048x2048, .f32⟩
  | .hbm, ⟨72, _⟩ => ⟨S8x2048x1024, .f32⟩
  | .hbm, ⟨73, _⟩ => ⟨S1x1x1024, .f32⟩
  | .hbm, ⟨74, _⟩ => ⟨S8x2048x1024, .f32⟩
  | .hbm, ⟨75, _⟩ => ⟨S8x2048x1024, .f32⟩
  | .hbm, ⟨76, _⟩ => ⟨S8x2048x1024, .f32⟩
  | .hbm, ⟨77, _⟩ => ⟨S_, .f32⟩
  | .hbm, ⟨78, _⟩ => ⟨S8x2048, .f32⟩
  | .hbm, ⟨79, _⟩ => ⟨S8x2048x1, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S_, .f32⟩
  | .hbm, ⟨87, _⟩ => ⟨S8x2048, .f32⟩
  | .hbm, ⟨88, _⟩ => ⟨S8x2048x1, .f32⟩
  | .hbm, ⟨89, _⟩ => ⟨S_, .f32⟩
  | .hbm, ⟨90, _⟩ => ⟨S8x2048x1, .f32⟩
  | .hbm, ⟨91, _⟩ => ⟨S8x2048x1, .f32⟩
  | .hbm, ⟨92, _⟩ => ⟨S8x2048x1024, .f32⟩
  | .hbm, ⟨93, _⟩ => ⟨S8x2048x1024, .f32⟩
  | .hbm, ⟨94, _⟩ => ⟨S_, .f32⟩
  | .hbm, ⟨95, _⟩ => ⟨S8x2048x1, .f32⟩
  | .hbm, ⟨96, _⟩ => ⟨S8x2048x1, .f32⟩
  | .hbm, ⟨97, _⟩ => ⟨S8x2048x1, .f32⟩
  | .hbm, ⟨98, _⟩ => ⟨S8x2048x1024, .f32⟩
  | .hbm, ⟨99, _⟩ => ⟨S8x2048x1024, .f32⟩
  | .hbm, ⟨100, _⟩ => ⟨S1x1x1024, .f32⟩
  | .hbm, ⟨101, _⟩ => ⟨S8x2048x1024, .f32⟩
  | .hbm, ⟨102, _⟩ => ⟨S8x2048x1024, .f32⟩
  | .hbm, ⟨103, _⟩ => ⟨S1x1x1024, .f32⟩
  | .hbm, ⟨104, _⟩ => ⟨S8x2048x1024, .f32⟩
  | .hbm, ⟨105, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_12 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x1024_S8x2048_d2 : S8x2048x1024.ReducesTo [2] S8x2048
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x1024_S2048x1024_S8x2048x2048_2_1_01_0_n_n_wf : DotDims.WF S8x2048x1024 S2048x1024 S8x2048x2048 [2] [1] [0, 1] [0] [] []
  dot_S8x2048x2048_S1024x2048_S8x2048x1024_2_1_01_0_n_n_wf : DotDims.WF S8x2048x2048 S1024x2048 S8x2048x1024 [2] [1] [0, 1] [0] [] []

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x1024_S2048x1024_S8x2048x2048_2_1_01_0_n_n : DotDims S8x2048x1024 S2048x1024 S8x2048x2048 where
  lhsContracting := [2]
  rhsContracting := [1]
  lhsNonContracting := [0, 1]
  rhsNonContracting := [0]
  lhsBatch := []
  rhsBatch := []
  wf := dot_S8x2048x1024_S2048x1024_S8x2048x2048_2_1_01_0_n_n_wf
def dot_S8x2048x2048_S1024x2048_S8x2048x1024_2_1_01_0_n_n : DotDims S8x2048x2048 S1024x2048 S8x2048x1024 where
  lhsContracting := [2]
  rhsContracting := [1]
  lhsNonContracting := [0, 1]
  rhsNonContracting := [0]
  lhsBatch := []
  rhsBatch := []
  wf := dot_S8x2048x2048_S1024x2048_S8x2048x1024_2_1_01_0_n_n_wf

class Facts : Prop extends Facts₀ where

variable [Facts]
-- ==== Proof.FrDefsB.lean ====
import proofs.«175621_j3762391351596_2_alg».proof.Proof.Gen.Kernel.Launch
import proofs.«175621_j3762391351596_2_alg».proof.Proof.Gen.Kernel.Skeleton
import proofs.«175621_j3762391351596_2_alg».proof.Proof.Gen.Kernel.Points
import Idealize.ShloMosaic.Lib.Pipeline.FrameBody
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The three pipelined regions of the program, each at the contents its core's buffers hold on entry

`V c b` is what buffer `b` of core `c` holds when a region is entered. Everything below is a function of `V`:
the run instantiates it three times, once per region. -/

variable (V : (c : Dev nD) → (b : Ref sig .tc) → Buf (Elt F) ((c : Thread nD τ).loc b))

/-! ## The blocks the windows cut out of their arrays -/

/-- Region 0 (the fused Q/K/V projection; 32 row tiles): window `w`'s block at grid point `t`, read off the
    window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1 (attention, residual and layer norm; 8 batches by 4 query tiles): window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 2 (feed-forward, residual and layer norm; 16 row tiles): window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the bodies load and store through: every one is a whole staging buffer -/

abbrev r512x1024 : Rect S512x1024 := Rect.unit (s := S512x1024) ![0, 0] S512x1024.size inb_S512x1024_S512x1024_0_0
abbrev r1024x3072 : Rect S1024x3072 := Rect.unit (s := S1024x3072) ![0, 0] S1024x3072.size inb_S1024x3072_S1024x3072_0_0
abbrev r1x512x1024 : Rect S1x512x1024 := Rect.unit (s := S1x512x1024) ![0, 0, 0] S1x512x1024.size inb_S1x512x1024_S1x512x1024_0_0_0
abbrev r1x2048x1024 : Rect S1x2048x1024 := Rect.unit (s := S1x2048x1024) ![0, 0, 0] S1x2048x1024.size inb_S1x2048x1024_S1x2048x1024_0_0_0
abbrev r1024 : Rect S1024 := Rect.unit (s := S1024) ![0] S1024.size inb_S1024_S1024_0
abbrev r1024x1024 : Rect S1024x1024 := Rect.unit (s := S1024x1024) ![0, 0] S1024x1024.size inb_S1024x1024_S1024x1024_0_0
abbrev r1024x2048 : Rect S1024x2048 := Rect.unit (s := S1024x2048) ![0, 0] S1024x2048.size inb_S1024x2048_S1024x2048_0_0
abbrev r2048 : Rect S2048 := Rect.unit (s := S2048) ![0] S2048.size inb_S2048_S2048_0
abbrev r2048x1024 : Rect S2048x1024 := Rect.unit (s := S2048x1024) ![0, 0] S2048x1024.size inb_S2048x1024_S2048x1024_0_0

/-! ## What each body leaves in its output windows' staging buffers, from the input blocks at the point

Each output buffer receives exactly one store, of the whole buffer; its contents afterwards are that store's
payload laid over anything. -/

/-- Region 0, window 2 (the Q tile): columns 0..1023 of the row tile times the fused weight, rounded to bf16. -/
def out0_2 (x0 : Vec F S512x1024 .f32) (x1 : Vec F S1024x3072 .bf16) : Vec F S512x1024 .bf16 :=
  View.canon [⟨r512x1024, k0_pay2 (View.ld x0 r512x1024) (View.ld x1 r1024x3072)⟩]

/-- Region 0, window 3 (the K tile): columns 1024..2047. -/
def out0_3 (x0 : Vec F S512x1024 .f32) (x1 : Vec F S1024x3072 .bf16) : Vec F S512x1024 .bf16 :=
  View.canon [⟨r512x1024, k0_pay3 (View.ld x0 r512x1024) (View.ld x1 r1024x3072)⟩]

/-- Region 0, window 4 (the V tile): columns 2048..3071. -/
def out0_4 (x0 : Vec F S512x1024 .f32) (x1 : Vec F S1024x3072 .bf16) : Vec F S512x1024 .bf16 :=
  View.canon [⟨r512x1024, k0_pay4 (View.ld x0 r512x1024) (View.ld x1 r1024x3072)⟩]

/-- Region 1, window 6: the normalized residual of the query tile `x0` (queries `x1`, keys `x2`, values `x3`,
    scale `x4`, shift `x5`). -/
def out1_6 (x0 : Vec F S1x512x1024 .f32) (x1 : Vec F S1x512x1024 .bf16) (x2 x3 : Vec F S1x2048x1024 .bf16)
    (x4 x5 : Vec F S1024 .f32) : Vec F S1x512x1024 .f32 :=
  View.canon [⟨r1x512x1024,
    k1_pay1 (k1_pay4 (View.ld x0 r1x512x1024) (View.ld x1 r1x512x1024) (View.ld x2 r1x2048x1024) (View.ld x3 r1x2048x1024))
      (k1_pay5 (View.ld x0 r1x512x1024) (View.ld x1 r1x512x1024) (View.ld x2 r1x2048x1024) (View.ld x3 r1x2048x1024))
      (Scalar.ofBits .f32 0x3727C5AC#32) (View.ld x4 r1024) (View.ld x5 r1024)⟩]

/-- Region 2, window 7: the normalized residual of the row tile `x0` through the two-layer feed-forward
    (weights `x1`, `x3`, biases `x2`, `x4`, scale `x5`, shift `x6`). -/
def out2_7 (x0 : Vec F S1024x1024 .f32) (x1 : Vec F S1024x2048 .bf16) (x2 : Vec F S2048 .f32) (x3 : Vec F S2048x1024 .bf16)
    (x4 x5 x6 : Vec F S1024 .f32) : Vec F S1024x1024 .f32 :=
  View.canon [⟨r1024x1024,
    k2_pay1 (k2_pay2 (View.ld x0 r1024x1024) (View.ld x1 r1024x2048) (View.ld x2 r2048) (View.ld x3 r2048x1024) (View.ld x4 r1024))
      (k2_pay3 (View.ld x5 r1024)) (View.ld x6 r1024)⟩]

/-! ## One whole-buffer store covers the buffer -/

theorem cover0_2 (p0 : Vec F S512x1024 .bf16) (y : S512x1024.Idx) :
    ∃ pc ∈ ([⟨r512x1024, p0⟩] : List (View.Piece (Elt F) S512x1024 .bf16)), y ∈ pc.1.set :=
  View.cover_of_tiled [⟨r512x1024, p0⟩] S512x1024.size (by rfl) y
theorem cover0_3 (p0 : Vec F S512x1024 .bf16) (y : S512x1024.Idx) :
    ∃ pc ∈ ([⟨r512x1024, p0⟩] : List (View.Piece (Elt F) S512x1024 .bf16)), y ∈ pc.1.set := cover0_2 p0 y
theorem cover0_4 (p0 : Vec F S512x1024 .bf16) (y : S512x1024.Idx) :
    ∃ pc ∈ ([⟨r512x1024, p0⟩] : List (View.Piece (Elt F) S512x1024 .bf16)), y ∈ pc.1.set := cover0_2 p0 y
theorem cover1_6 (p0 : Vec F S1x512x1024 .f32) (y : S1x512x1024.Idx) :
    ∃ pc ∈ ([⟨r1x512x1024, p0⟩] : List (View.Piece (Elt F) S1x512x1024 .f32)), y ∈ pc.1.set :=
  View.cover_of_tiled [⟨r1x512x1024, p0⟩] S1x512x1024.size (by rfl) y
theorem cover2_7 (p0 : Vec F S1024x1024 .f32) (y : S1024x1024.Idx) :
    ∃ pc ∈ ([⟨r1024x1024, p0⟩] : List (View.Piece (Elt F) S1024x1024 .f32)), y ∈ pc.1.set :=
  View.cover_of_tiled [⟨r1024x1024, p0⟩] S1024x1024.size (by rfl) y

/-! ## The pipelines' proof data

Per region and core: the arrays as the region finds them; after the body at a point every input window's buffer
still at its block and every output window's at the body's result on the input blocks; the invariant that only
carries the scoped buffers of the other regions and the generator register; full shares; nothing owed. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-! ## The proof data projected -/

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by dsimp only [dat2]

end Cert.Kernel.Fr

end
-- ==== Proof.FrBody0B.lean ====
import proofs.«175621_j3762391351596_2_alg».proof.Proof.FrDefsB
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the fused Q/K/V projection, one 512-row tile per grid point

Windows: 0 the activations' row tile (f32, fetched at every point), 1 the fused weight (bf16, whole, fetched once),
2, 3, 4 the Q, K and V tiles (bf16, written back at every point). -/

/-! ## The body's triple -/

set_option maxHeartbeats 1000000 in
/-- On whole staging buffers, the two inputs reading `x0` and `x1` and the three outputs holding anything, the body runs
    to a state with the inputs as they were and the outputs at the three column thirds of the product, each rounded
    to bf16. The body loads each output buffer before storing into it; the value loaded is dropped. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_proj_kernel i arg1 harg1 arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

variable (V : (c : Dev nD) → (b : Ref sig .tc) → Buf (Elt F) ((c : Thread nD τ).loc b))

/-! ## An input window's current staging buffer holds its block at every point

fetched there or not: where the pipeline skips the fetch the block index has not moved, and the body left the
block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation at a grid point -/

/-- What the body is handed at point `t`: the invariant, the core's debts, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the two input buffers hold their blocks, so the triple applies; the invariant and the
    debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrBody1B.lean ====
import proofs.«175621_j3762391351596_2_alg».proof.Proof.FrDefsB
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: attention, residual and layer norm, one batch and one 512-query tile per grid point

Windows: 0 the activations' tile (f32) and 1 the queries' tile (bf16), fetched at every point; 2 the keys and 3 the
values of the batch (bf16), fetched when the batch changes; 4 the norm's scale and 5 its shift (f32), fetched once;
6 the normalized residual (f32), written back at every point. -/

/-! ## The body's triple -/

set_option maxHeartbeats 1000000 in
/-- On whole staging buffers, the six inputs reading `x0 … x5` and the output holding anything, the body runs to a
    state with the inputs as they were and the output at the normalized residual. The first part of the body loads
    the four large inputs and returns the centred residual and its variance; the rest loads scale and shift and
    stores. The output buffer is loaded before it is stored into; the value loaded is dropped. -/
theorem sound_kernel1 (c : Dev nD) (E : Set ℕ) (i : grid1.Coords)
    (arg2 : Memref sig .tc .vmem S1x512x1024 .f32) (harg2 : arg2.IsWhole) (arg3 : Memref sig .tc .vmem S1x512x1024 .bf16) (harg3 : arg3.IsWhole)
    (arg4 : Memref sig .tc .vmem S1x2048x1024 .bf16) (harg4 : arg4.IsWhole) (arg5 : Memref sig .tc .vmem S1x2048x1024 .bf16) (harg5 : arg5.IsWhole)
    (arg6 : Memref sig .tc .vmem S1024 .f32) (harg6 : arg6.IsWhole) (arg7 : Memref sig .tc .vmem S1024 .f32) (harg7 : arg7.IsWhole)
    (arg8 : Memref sig .tc .vmem S1x512x1024 .f32) (harg8 : arg8.IsWhole)
    (x0 : Vec F S1x512x1024 .f32) (x1 : Vec F S1x512x1024 .bf16) (x2 x3 : Vec F S1x2048x1024 .bf16) (x4 x5 : Vec F S1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E
          (cc1__attn_ln_kernel i arg2 harg2 arg3 harg3 arg4 harg4 arg5 harg5 arg6 harg6 arg7 harg7 arg8 harg8) K := by
  simp only [cc1__attn_ln_kernel_eq_skeleton]; unfold cc1__attn_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

variable (V : (c : Dev nD) → (b : Ref sig .tc) → Buf (Elt F) ((c : Thread nD τ).loc b))

/-! ## An input window's current staging buffer holds its block at every point

fetched there or not: keys and values are fetched only when the batch changes and scale and shift only once, but
where the fetch is skipped the block index has not moved, and the body left the block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation at a grid point -/

/-- What the body is handed at point `t`: the invariant, the core's debts, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six input buffers hold their blocks, so the triple applies; the invariant and the
    debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrBody2B.lean ====
import proofs.«175621_j3762391351596_2_alg».proof.Proof.FrDefsB
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: feed-forward, residual and layer norm, one 1024-row tile per grid point

Windows: 0 the row tile (f32), fetched at every point; 1 the first weight (bf16), 2 the first bias (f32), 3 the
second weight (bf16), 4 the second bias, 5 the norm's scale and 6 its shift (f32), each whole and fetched once;
7 the normalized residual (f32), written back at every point. -/

/-! ## The body's triple -/

set_option maxHeartbeats 1000000 in
/-- On whole staging buffers, the seven inputs reading `x0 … x6` and the output holding anything, the body runs to a
    state with the inputs as they were and the output at the normalized residual. The first part of the body loads
    the row tile, both weights, both biases and the scale, and returns the normalized rows and the scale broadcast;
    the rest loads the shift and stores. The output buffer is loaded before it is stored into; the value is dropped. -/
theorem sound_kernel2 (c : Dev nD) (E : Set ℕ) (i : grid2.Coords)
    (arg1 : Memref sig .tc .vmem S1024x1024 .f32) (harg1 : arg1.IsWhole) (arg2 : Memref sig .tc .vmem S1024x2048 .bf16) (harg2 : arg2.IsWhole)
    (arg3 : Memref sig .tc .vmem S2048 .f32) (harg3 : arg3.IsWhole) (arg4 : Memref sig .tc .vmem S2048x1024 .bf16) (harg4 : arg4.IsWhole)
    (arg5 : Memref sig .tc .vmem S1024 .f32) (harg5 : arg5.IsWhole) (arg6 : Memref sig .tc .vmem S1024 .f32) (harg6 : arg6.IsWhole)
    (arg7 : Memref sig .tc .vmem S1024 .f32) (harg7 : arg7.IsWhole) (arg8 : Memref sig .tc .vmem S1024x1024 .f32) (harg8 : arg8.IsWhole)
    (x0 : Vec F S1024x1024 .f32) (x1 : Vec F S1024x2048 .bf16) (x2 : Vec F S2048 .f32) (x3 : Vec F S2048x1024 .bf16)
    (x4 x5 x6 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E
          (cc2__ffn_ln_kernel i arg1 harg1 arg2 harg2 arg3 harg3 arg4 harg4 arg5 harg5 arg6 harg6 arg7 harg7 arg8 harg8) K := by
  simp only [cc2__ffn_ln_kernel_eq_skeleton]; unfold cc2__ffn_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

variable (V : (c : Dev nD) → (b : Ref sig .tc) → Buf (Elt F) ((c : Thread nD τ).loc b))

/-! ## An input window's current staging buffer holds its block at every point

fetched there or not: weights, biases, scale and shift are fetched once, at the first point; afterwards the block
index never moves, and the body left each block in place. -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-! ## The body obligation at a grid point -/

/-- What the body is handed at point `t`: the invariant, the core's debts, and each window's current staging buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the seven input buffers hold their blocks, so the triple applies; the invariant and the
    debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrFoldB.lean ====
import proofs.«175621_j3762391351596_2_alg».proof.Proof.FrDefsB
import proofs.«175621_j3762391351596_2_alg».proof.Proof.Gen.Kernel.Regions
import Idealize.ShloMosaic.Lib.Pipeline.FrameSuffix
import Idealize.ShloMosaic.Lib.Pipeline.RegionsLoop

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at every boundary of the program, folded from the launch memory

The program is: host stretch 0 (three transposes, the concatenation, the rounding to bf16, a reshape), region 0,
host stretch 1 (three reshapes), region 1, host stretch 2 (two transposes, two roundings, a reshape), region 2,
host stretch 3 (a reshape). A host stretch maps the contents by its operations' results; a region replaces its
windows' arrays by what its pipeline leaves and keeps everything else. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the first host stretch. -/
abbrev W1 : Dev nD → Valuation τ sig (Elt F) := fun c => StableHlo.after hostOps0 (W0 m ρ c)
/-- A buffer the stretch does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- The same contents read at the core's own references: what the next region's proof data are stated at. -/
abbrev V1 : (c : Dev nD) → (b : Ref sig .tc) → Buf (Elt F) ((c : Thread nD τ).loc b) := fun c b => W1 m ρ c b

/-- When region 0 is left: its arrays at what the pipeline's write-backs leave (the Q, K and V arrays), every other
    buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered: the pipeline only reads it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- The same contents read at the core's own references. -/
abbrev V2 : (c : Dev nD) → (b : Ref sig .tc) → Buf (Elt F) ((c : Thread nD τ).loc b) := fun c b => W2 m ρ c b
/-- The two facts the exit of region 0 needs: each of its arrays holds what the pipeline leaves, every other buffer
    what it held on entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after hostOps1 (W2 m ρ c)
/-- A buffer the stretch does not write keeps its contents. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- The same contents read at the core's own references: what the next region's proof data are stated at. -/
abbrev V3 : (c : Dev nD) → (b : Ref sig .tc) → Buf (Elt F) ((c : Thread nD τ).loc b) := fun c b => W3 m ρ c b

/-- When region 1 is left: its arrays at what the pipeline's write-backs leave (the normalized attention residual), every other
    buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered: the pipeline only reads it. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- The same contents read at the core's own references. -/
abbrev V4 : (c : Dev nD) → (b : Ref sig .tc) → Buf (Elt F) ((c : Thread nD τ).loc b) := fun c b => W4 m ρ c b
/-- The two facts the exit of region 1 needs: each of its arrays holds what the pipeline leaves, every other buffer
    what it held on entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch. -/
abbrev W5 : Dev nD → Valuation τ sig (Elt F) := fun c => StableHlo.after hostOps2 (W4 m ρ c)
/-- A buffer the stretch does not write keeps its contents. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- The same contents read at the core's own references: what the next region's proof data are stated at. -/
abbrev V5 : (c : Dev nD) → (b : Ref sig .tc) → Buf (Elt F) ((c : Thread nD τ).loc b) := fun c b => W5 m ρ c b

/-- When region 2 is left: its arrays at what the pipeline's write-backs leave (the normalized feed-forward residual), every other
    buffer as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered: the pipeline only reads it. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- The same contents read at the core's own references. -/
abbrev V6 : (c : Dev nD) → (b : Ref sig .tc) → Buf (Elt F) ((c : Thread nD τ).loc b) := fun c b => W6 m ρ c b
/-- The two facts the exit of region 2 needs: each of its arrays holds what the pipeline leaves, every other buffer
    what it held on entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch. -/
abbrev W7 : Dev nD → Valuation τ sig (Elt F) := fun c => StableHlo.after hostOps3 (W6 m ρ c)
/-- A buffer the stretch does not write keeps its contents. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## Every argument ends as launched

No host stretch writes an argument, and a region either bypasses it or reads it through an input window. -/

/-- Argument 0 (the activations: reshaped by the first host stretch and read by region 1 through its window 0) ends as launched. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_in m ρ c 0 rfl
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- Argument 1 (the query weight: only transposed by the first host stretch) ends as launched. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- Argument 2 (the key weight: only transposed by the first host stretch) ends as launched. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- Argument 3 (the value weight: only transposed by the first host stretch) ends as launched. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- Argument 4 (the first feed-forward weight: only transposed by the third host stretch) ends as launched. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- Argument 5 (the first feed-forward bias: read by region 2 through its window 2) ends as launched. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of m ρ c main_arg5 (by decide)
    _ = W5 m ρ c (Proc.devRef .tc main_arg5) := W6_in m ρ c 2 rfl
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- Argument 6 (the second feed-forward weight: only transposed by the third host stretch) ends as launched. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- Argument 7 (the second feed-forward bias: read by region 2 through its window 4) ends as launched. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of m ρ c main_arg7 (by decide)
    _ = W5 m ρ c (Proc.devRef .tc main_arg7) := W6_in m ρ c 4 rfl
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- Argument 8 (the first norm's scale: read by region 1 through its window 4) ends as launched. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_in m ρ c 4 rfl
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- Argument 9 (the first norm's shift: read by region 1 through its window 5) ends as launched. -/
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_in m ρ c 5 rfl
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-- Argument 10 (the second norm's scale: read by region 2 through its window 5) ends as launched. -/
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of m ρ c main_arg10 (by decide)
    _ = W5 m ρ c (Proc.devRef .tc main_arg10) := W6_in m ρ c 5 rfl
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-- Argument 11 (the second norm's shift: read by region 2 through its window 6) ends as launched. -/
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_of m ρ c main_arg11 (by decide)
    _ = W5 m ρ c (Proc.devRef .tc main_arg11) := W6_in m ρ c 6 rfl
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

end Cert.Kernel.Fr

end
-- ==== Proof.FrRunB.lean ====
import proofs.«175621_j3762391351596_2_alg».proof.Proof.FrBody0B
import proofs.«175621_j3762391351596_2_alg».proof.Proof.FrBody1B
import proofs.«175621_j3762391351596_2_alg».proof.Proof.FrBody2B
import proofs.«175621_j3762391351596_2_alg».proof.Proof.FrFoldB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the program's seven segments from the launch to the return

Four host stretches and three pipelined regions alternate. The thread state carried from segment to segment is
"every unscoped buffer of the core holds the contents of the last boundary; the generator register is at some
state; the core owes nothing". -/

variable (m : (ℓ : Loc nD τ sig) → Buf (Elt F) ℓ) (ρ : Dev nD → PrngReg)

/-! ## The proof data of the three pipelines, and what rides along -/

/-- No pipeline prefetches a table. -/
abbrev adm : (p : Fin 3) → (pcfgs (F := F) p).Adm := fun p => (cfgs p).toPCfg_adm
/-- Each pipeline's proof data at the contents its region is entered with: a literal case split on the pipeline's
    number, so that the pinned configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core ever owes another anything, so no level is assigned. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment over all unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-- What the last host stretch leaves is the last thread state beside the core owing nothing: the same three parts,
    grouped the other way. -/
theorem last_state (c : Dev nD) :
    iprop(StableHlo.held (c : Thread nD τ) (Pipeline.ucRefs τ sig) (W7 m ρ c) ∗ R c)
      ⊢ (iprop(Tₙ m ρ c ∗ ∃ W, owes (c : Thread nD τ) (0 : CellTallies nD τ sig Unit) W) : sProp 𝕄) := by
  iintro ⟨Hbufs, Hreg, Howes⟩
  isplitl [Hbufs Hreg]
  · isplitl [Hbufs]; · iexact Hbufs
    iexact Hreg
  iexact Howes

/-! ## The three regions as segments -/

set_option backward.isDefEq.respectTransparency.types false in
/-- REGION 0 (the fused Q/K/V projection) as a segment of the run: entered with every unscoped buffer at `W1`, left with every
    unscoped buffer at `W2`. On entry its windows' arrays are taken out of the unscoped buffers, on exit they are put
    back at what the pipeline left; the generator register goes into the pipeline's invariant and comes back; the
    core owes nothing throughout; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have htake := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at htake
    iintro ⟨⟨Hbufs, Hreg, Howes⟩, -, -⟩
    ihave Hsplit := htake $$ Hbufs
    icases Hsplit with ⟨Harr, Hbypass⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%Wr, Howes⟩; iexists Wr; isplitr; · ipureintro; exact fun _ _ => Or.inl trivial
      iexact Howes
    isplitl [Hreg]; · iexact Hreg
    iexact Hbypass
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hput := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hput
    iintro ⟨Harr, Howes, Hreg, Hbypass⟩
    imodintro
    isplitl [Harr Hbypass]
    · iapply hput; isplitl [Harr] <;> iassumption
    isplitl [Hreg]; · iexact Hreg
    unfold Pipeline.Dat.owesAt Pipeline.owesWithin
    icases Howes with ⟨%Wr, -, Howes⟩; iexists Wr; iexact Howes

set_option backward.isDefEq.respectTransparency.types false in
/-- REGION 1 (attention, residual and layer norm) as a segment of the run: entered with every unscoped buffer at `W3`, left with every
    unscoped buffer at `W4`. On entry its windows' arrays are taken out of the unscoped buffers, on exit they are put
    back at what the pipeline left; the generator register goes into the pipeline's invariant and comes back; the
    core owes nothing throughout; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have htake := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at htake
    iintro ⟨⟨Hbufs, Hreg, Howes⟩, -, -⟩
    ihave Hsplit := htake $$ Hbufs
    icases Hsplit with ⟨Harr, Hbypass⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%Wr, Howes⟩; iexists Wr; isplitr; · ipureintro; exact fun _ _ => Or.inl trivial
      iexact Howes
    isplitl [Hreg]; · iexact Hreg
    iexact Hbypass
  hin c := by
    rw [show (pdats m ρ 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m ρ 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hput := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hput
    iintro ⟨Harr, Howes, Hreg, Hbypass⟩
    imodintro
    isplitl [Harr Hbypass]
    · iapply hput; isplitl [Harr] <;> iassumption
    isplitl [Hreg]; · iexact Hreg
    unfold Pipeline.Dat.owesAt Pipeline.owesWithin
    icases Howes with ⟨%Wr, -, Howes⟩; iexists Wr; iexact Howes

set_option backward.isDefEq.respectTransparency.types false in
/-- REGION 2 (feed-forward, residual and layer norm) as a segment of the run: entered with every unscoped buffer at `W5`, left with every
    unscoped buffer at `W6`. On entry its windows' arrays are taken out of the unscoped buffers, on exit they are put
    back at what the pipeline left; the generator register goes into the pipeline's invariant and comes back; the
    core owes nothing throughout; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have htake := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at htake
    iintro ⟨⟨Hbufs, Hreg, Howes⟩, -, -⟩
    ihave Hsplit := htake $$ Hbufs
    icases Hsplit with ⟨Harr, Hbypass⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%Wr, Howes⟩; iexists Wr; isplitr; · ipureintro; exact fun _ _ => Or.inl trivial
      iexact Howes
    isplitl [Hreg]; · iexact Hreg
    iexact Hbypass
  hin c := by
    rw [show (pdats m ρ 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m ρ 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    have hput := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hput
    iintro ⟨Harr, Howes, Hreg, Hbypass⟩
    imodintro
    isplitl [Harr Hbypass]
    · iapply hput; isplitl [Harr] <;> iassumption
    isplitl [Hreg]; · iexact Hreg
    unfold Pipeline.Dat.owesAt Pipeline.owesWithin
    icases Howes with ⟨%Wr, -, Howes⟩; iexists Wr; iexact Howes

/-! ## The program as its segments, and the launch -/

/-- The seven segments in program order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The printed program is the run of these segments. -/
theorem main_run (c : Dev nD) : main (F := F) c = Pipeline.Seg.run (segs m ρ) := (main_chain c).trans (by chain_rfl)

set_option backward.isDefEq.respectTransparency.types false in
/-- From any memory with every counter at zero, every weakly fair execution of the program on the cores terminates
    without fault, and in every final state each unscoped buffer of each core holds the last boundary's contents. -/
theorem run_full : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W7 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W7 m ρ c) s')
      isplitl [Hbufs] <;> iassumption)
    (hQ := fun s h => h)

/-- The frame claim of the program at any float interpretation: it runs to the end, and every argument array ends
    as launched — each argument is an unscoped buffer, and the last boundary's contents at it are the launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := F))) ⟨m, fun _ => 0, ρ⟩).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩) (run_full m ρ)

end Cert.Kernel.Fr

end
-- ==== Proof.FrDefsI.lean ====
import proofs.«175621_j3762391351596_2_alg».proof.Proof.Gen.KernelIdeal.Launch
import proofs.«175621_j3762391351596_2_alg».proof.Proof.Gen.KernelIdeal.Skeleton
import proofs.«175621_j3762391351596_2_alg».proof.Proof.Gen.KernelIdeal.Points
import Idealize.ShloMosaic.Lib.Pipeline.FrameBody
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The three pipelined regions of the program, each at the contents its core's buffers hold on entry

`V c b` is what buffer `b` of core `c` holds when a region is entered. Everything below is a function of `V`:
the run instantiates it three times, once per region. -/

variable (V : (c : Dev nD) → (b : Ref sig .tc) → Buf (Elt F) ((c : Thread nD τ).loc b))

/-! ## The blocks the windows cut out of their arrays -/

/-- Region 0 (the fused Q/K/V projection; 32 row tiles): window `w`'s block at grid point `t`, read off the
    window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1 (attention, residual and layer norm; 8 batches by 4 query tiles): window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 2 (feed-forward, residual and layer norm; 16 row tiles): window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The rectangles the bodies load and store through: every one is a whole staging buffer -/

abbrev r512x1024 : Rect S512x1024 := Rect.unit (s := S512x1024) ![0, 0] S512x1024.size inb_S512x1024_S512x1024_0_0
abbrev r1024x3072 : Rect S1024x3072 := Rect.unit (s := S1024x3072) ![0, 0] S1024x3072.size inb_S1024x3072_S1024x3072_0_0
abbrev r1x512x1024 : Rect S1x512x1024 := Rect.unit (s := S1x512x1024) ![0, 0, 0] S1x512x1024.size inb_S1x512x1024_S1x512x1024_0_0_0
abbrev r1x2048x1024 : Rect S1x2048x1024 := Rect.unit (s := S1x2048x1024) ![0, 0, 0] S1x2048x1024.size inb_S1x2048x1024_S1x2048x1024_0_0_0
abbrev r1024 : Rect S1024 := Rect.unit (s := S1024) ![0] S1024.size inb_S1024_S1024_0
abbrev r1024x1024 : Rect S1024x1024 := Rect.unit (s := S1024x1024) ![0, 0] S1024x1024.size inb_S1024x1024_S1024x1024_0_0
abbrev r1024x2048 : Rect S1024x2048 := Rect.unit (s := S1024x2048) ![0, 0] S1024x2048.size inb_S1024x2048_S1024x2048_0_0
abbrev r2048 : Rect S2048 := Rect.unit (s := S2048) ![0] S2048.size inb_S2048_S2048_0
abbrev r2048x1024 : Rect S2048x1024 := Rect.unit (s := S2048x1024) ![0, 0] S2048x1024.size inb_S2048x1024_S2048x1024_0_0

/-! ## What each body leaves in its output windows' staging buffers, from the input blocks at the point

Each output buffer receives exactly one store, of the whole buffer; its contents afterwards are that store's
payload laid over anything. -/

/-- Region 0, window 2 (the Q tile): columns 0..1023 of the row tile times the fused weight, rounded to bf16. -/
def out0_2 (x0 : Vec F S512x1024 .f32) (x1 : Vec F S1024x3072 .bf16) : Vec F S512x1024 .bf16 :=
  View.canon [⟨r512x1024, k0_pay2 (View.ld x0 r512x1024) (View.ld x1 r1024x3072)⟩]

/-- Region 0, window 3 (the K tile): columns 1024..2047. -/
def out0_3 (x0 : Vec F S512x1024 .f32) (x1 : Vec F S1024x3072 .bf16) : Vec F S512x1024 .bf16 :=
  View.canon [⟨r512x1024, k0_pay3 (View.ld x0 r512x1024) (View.ld x1 r1024x3072)⟩]

/-- Region 0, window 4 (the V tile): columns 2048..3071. -/
def out0_4 (x0 : Vec F S512x1024 .f32) (x1 : Vec F S1024x3072 .bf16) : Vec F S512x1024 .bf16 :=
  View.canon [⟨r512x1024, k0_pay4 (View.ld x0 r512x1024) (View.ld x1 r1024x3072)⟩]

/-- Region 1, window 6: the normalized residual of the query tile `x0` (queries `x1`, keys `x2`, values `x3`,
    scale `x4`, shift `x5`). -/
def out1_6 (x0 : Vec F S1x512x1024 .f32) (x1 : Vec F S1x512x1024 .bf16) (x2 x3 : Vec F S1x2048x1024 .bf16)
    (x4 x5 : Vec F S1024 .f32) : Vec F S1x512x1024 .f32 :=
  View.canon [⟨r1x512x1024,
    k1_pay1 (k1_pay4 (View.ld x0 r1x512x1024) (View.ld x1 r1x512x1024) (View.ld x2 r1x2048x1024) (View.ld x3 r1x2048x1024))
      (k1_pay5 (View.ld x0 r1x512x1024) (View.ld x1 r1x512x1024) (View.ld x2 r1x2048x1024) (View.ld x3 r1x2048x1024))
      (Scalar.ofBits .f32 0x3727C5AC#32) (View.ld x4 r1024) (View.ld x5 r1024)⟩]

/-- Region 2, window 7: the normalized residual of the row tile `x0` through the two-layer feed-forward
    (weights `x1`, `x3`, biases `x2`, `x4`, scale `x5`, shift `x6`). -/
def out2_7 (x0 : Vec F S1024x1024 .f32) (x1 : Vec F S1024x2048 .bf16) (x2 : Vec F S2048 .f32) (x3 : Vec F S2048x1024 .bf16)
    (x4 x5 x6 : Vec F S1024 .f32) : Vec F S1024x1024 .f32 :=
  View.canon [⟨r1024x1024,
    k2_pay1 (k2_pay2 (View.ld x0 r1024x1024) (View.ld x1 r1024x2048) (View.ld x2 r2048) (View.ld x3 r2048x1024) (View.ld x4 r1024))
      (k2_pay3 (View.ld x5 r1024)) (View.ld x6 r1024)⟩]

/-! ## One whole-buffer store covers the buffer -/

theorem cover0_2 (p0 : Vec F S512x1024 .bf16) (y : S512x1024.Idx) :
    ∃ pc ∈ ([⟨r512x1024, p0⟩] : List (View.Piece (Elt F) S512x1024 .bf16)), y ∈ pc.1.set :=
  View.cover_of_tiled [⟨r512x1024, p0⟩] S512x1024.size (by rfl) y
theorem cover0_3 (p0 : Vec F S512x1024 .bf16) (y : S512x1024.Idx) :
    ∃ pc ∈ ([⟨r512x1024, p0⟩] : List (View.Piece (Elt F) S512x1024 .bf16)), y ∈ pc.1.set := cover0_2 p0 y
theorem cover0_4 (p0 : Vec F S512x1024 .bf16) (y : S512x1024.Idx) :
    ∃ pc ∈ ([⟨r512x1024, p0⟩] : List (View.Piece (Elt F) S512x1024 .bf16)), y ∈ pc.1.set := cover0_2 p0 y
theorem cover1_6 (p0 : Vec F S1x512x1024 .f32) (y : S1x512x1024.Idx) :
    ∃ pc ∈ ([⟨r1x512x1024, p0⟩] : List (View.Piece (Elt F) S1x512x1024 .f32)), y ∈ pc.1.set :=
  View.cover_of_tiled [⟨r1x512x1024, p0⟩] S1x512x1024.size (by rfl) y
theorem cover2_7 (p0 : Vec F S1024x1024 .f32) (y : S1024x1024.Idx) :
    ∃ pc ∈ ([⟨r1024x1024, p0⟩] : List (View.Piece (Elt F) S1024x1024 .f32)), y ∈ pc.1.set :=
  View.cover_of_tiled [⟨r1024x1024, p0⟩] S1024x1024.size (by rfl) y

/-! ## The pipelines' proof data

Per region and core: the arrays as the region finds them; after the body at a point every input window's buffer
still at its block and every output window's at the body's result on the input blocks; the invariant that only
carries the scoped buffers of the other regions and the generator register; full shares; nothing owed. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-! ## The proof data projected -/

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem A_eq2 (c : Dev nD) (w : Fin cfg2.W) : (dat2 V c).A w = V c (Pipeline.arrRef spec2 w) := by dsimp only [dat2]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t
    = out2_7 (iblk2 V c 0 t) (iblk2 V c 1 t) (iblk2 V c 2 t) (iblk2 V c 3 t) (iblk2 V c 4 t) (iblk2 V c 5 t) (iblk2 V c 6 t) := by dsimp only [dat2]

end Cert.KernelIdeal.Fr

end
-- ==== Proof.FrBody0I.lean ====
import proofs.«175621_j3762391351596_2_alg».proof.Proof.FrDefsI
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the fused Q/K/V projection, one 512-row tile per grid point

Windows: 0 the activations' row tile (f32, fetched at every point), 1 the fused weight (bf16, whole, fetched once),
2, 3, 4 the Q, K and V tiles (bf16, written back at every point). -/

/-! ## The body's triple -/

set_option maxHeartbeats 1000000 in
/-- On whole staging buffers, the two inputs reading `x0` and `x1` and the three outputs holding anything, the body runs
    to a state with the inputs as they were and the outputs at the three column thirds of the product, each rounded
    to bf16. The body loads each output buffer before storing into it; the value loaded is dropped. -/
theorem sound_kernel0 (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S512x1024 .bf16) (harg3 : arg3.IsWhole) (arg4 : Memref sig .tc .vmem S512x1024 .bf16) (harg4 : arg4.IsWhole)
    (arg5 : Memref sig .tc .vmem S512x1024 .bf16) (harg5 : arg5.IsWhole)
    (x0 : Vec F S512x1024 .f32) (x1 : Vec F S1024x3072 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0__qkv_proj_kernel i arg1 harg1 arg2 harg2 arg3 harg3 arg4 harg4 arg5 harg5) K := by
  simp only [cc0__qkv_proj_kernel_eq_skeleton]; unfold cc0__qkv_proj_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

variable (V : (c : Dev nD) → (b : Ref sig .tc) → Buf (Elt F) ((c : Thread nD τ).loc b))

/-! ## An input window's current staging buffer holds its block at every point

fetched there or not: where the pipeline skips the fetch the block index has not moved, and the body left the
block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body obligation at a grid point -/

/-- What the body is handed at point `t`: the invariant, the core's debts, and each window's current staging buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the two input buffers hold their blocks, so the triple applies; the invariant and the
    debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrBody1I.lean ====
import proofs.«175621_j3762391351596_2_alg».proof.Proof.FrDefsI
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: attention, residual and layer norm, one batch and one 512-query tile per grid point

Windows: 0 the activations' tile (f32) and 1 the queries' tile (bf16), fetched at every point; 2 the keys and 3 the
values of the batch (bf16), fetched when the batch changes; 4 the norm's scale and 5 its shift (f32), fetched once;
6 the normalized residual (f32), written back at every point. -/

/-! ## The body's triple -/

set_option maxHeartbeats 1000000 in
/-- On whole staging buffers, the six inputs reading `x0 … x5` and the output holding anything, the body runs to a
    state with the inputs as they were and the output at the normalized residual. The first part of the body loads
    the four large inputs and returns the centred residual and its variance; the rest loads scale and shift and
    stores. The output buffer is loaded before it is stored into; the value loaded is dropped. -/
theorem sound_kernel1 (c : Dev nD) (E : Set ℕ) (i : grid1.Coords)
    (arg2 : Memref sig .tc .vmem S1x512x1024 .f32) (harg2 : arg2.IsWhole) (arg3 : Memref sig .tc .vmem S1x512x1024 .bf16) (harg3 : arg3.IsWhole)
    (arg4 : Memref sig .tc .vmem S1x2048x1024 .bf16) (harg4 : arg4.IsWhole) (arg5 : Memref sig .tc .vmem S1x2048x1024 .bf16) (harg5 : arg5.IsWhole)
    (arg6 : Memref sig .tc .vmem S1024 .f32) (harg6 : arg6.IsWhole) (arg7 : Memref sig .tc .vmem S1024 .f32) (harg7 : arg7.IsWhole)
    (arg8 : Memref sig .tc .vmem S1x512x1024 .f32) (harg8 : arg8.IsWhole)
    (x0 : Vec F S1x512x1024 .f32) (x1 : Vec F S1x512x1024 .bf16) (x2 x3 : Vec F S1x2048x1024 .bf16) (x4 x5 : Vec F S1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E
          (cc1__attn_ln_kernel i arg2 harg2 arg3 harg3 arg4 harg4 arg5 harg5 arg6 harg6 arg7 harg7 arg8 harg8) K := by
  simp only [cc1__attn_ln_kernel_eq_skeleton]; unfold cc1__attn_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

variable (V : (c : Dev nD) → (b : Ref sig .tc) → Buf (Elt F) ((c : Thread nD τ).loc b))

/-! ## An input window's current staging buffer holds its block at every point

fetched there or not: keys and values are fetched only when the batch changes and scale and shift only once, but
where the fetch is skipped the block index has not moved, and the body left the block in place. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body obligation at a grid point -/

/-- What the body is handed at point `t`: the invariant, the core's debts, and each window's current staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the six input buffers hold their blocks, so the triple applies; the invariant and the
    debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.FrBody2I.lean ====
import proofs.«175621_j3762391351596_2_alg».proof.Proof.FrDefsI
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: feed-forward, residual and layer norm, one 1024-row tile per grid point

Windows: 0 the row tile (f32), fetched at every point; 1 the first weight (bf16), 2 the first bias (f32), 3 the
second weight (bf16), 4 the second bias, 5 the norm's scale and 6 its shift (f32), each whole and fetched once;
7 the normalized residual (f32), written back at every point. -/

/-! ## The body's triple -/

set_option maxHeartbeats 1000000 in
/-- On whole staging buffers, the seven inputs reading `x0 … x6` and the output holding anything, the body runs to a
    state with the inputs as they were and the output at the normalized residual. The first part of the body loads
    the row tile, both weights, both biases and the scale, and returns the normalized rows and the scale broadcast;
    the rest loads the shift and stores. The output buffer is loaded before it is stored into; the value is dropped. -/
theorem sound_kernel2 (c : Dev nD) (E : Set ℕ) (i : grid2.Coords)
    (arg1 : Memref sig .tc .vmem S1024x1024 .f32) (harg1 : arg1.IsWhole) (arg2 : Memref sig .tc .vmem S1024x2048 .bf16) (harg2 : arg2.IsWhole)
    (arg3 : Memref sig .tc .vmem S2048 .f32) (harg3 : arg3.IsWhole) (arg4 : Memref sig .tc .vmem S2048x1024 .bf16) (harg4 : arg4.IsWhole)
    (arg5 : Memref sig .tc .vmem S1024 .f32) (harg5 : arg5.IsWhole) (arg6 : Memref sig .tc .vmem S1024 .f32) (harg6 : arg6.IsWhole)
    (arg7 : Memref sig .tc .vmem S1024 .f32) (harg7 : arg7.IsWhole) (arg8 : Memref sig .tc .vmem S1024x1024 .f32) (harg8 : arg8.IsWhole)
    (x0 : Vec F S1024x1024 .f32) (x1 : Vec F S1024x2048 .bf16) (x2 : Vec F S2048 .f32) (x3 : Vec F S2048x1024 .bf16)
    (x4 x5 x6 : Vec F S1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E
          (cc2__ffn_ln_kernel i arg1 harg1 arg2 harg2 arg3 harg3 arg4 harg4 arg5 harg5 arg6 harg6 arg7 harg7 arg8 harg8) K := by
  simp only [cc2__ffn_ln_kernel_eq_skeleton]; unfold cc2__ffn_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

variable (V : (c : Dev nD) → (b : Ref sig .tc) → Buf (Elt F) ((c : Thread nD τ).loc b))

/-! ## An input window's current staging buffer holds its block at every point

fetched there or not: weights, biases, scale and shift are fetched once, at the first point; afterwards the block
index never moves, and the body left each block in place. -/

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-! ## The body obligation at a grid point -/

/-- What the body is handed at point `t`: the invariant, the core's debts, and each window's current staging buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the seven input buffers hold their blocks, so the triple applies; the invariant and the
    debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation for region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.FrFoldI.lean ====
import proofs.«175621_j3762391351596_2_alg».proof.Proof.FrDefsI
import proofs.«175621_j3762391351596_2_alg».proof.Proof.Gen.KernelIdeal.Regions
import Idealize.ShloMosaic.Lib.Pipeline.FrameSuffix
import Idealize.ShloMosaic.Lib.Pipeline.RegionsLoop

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The buffers' contents at every boundary of the program, folded from the launch memory

The program is: host stretch 0 (three transposes, the concatenation, the rounding to bf16, a reshape), region 0,
host stretch 1 (three reshapes), region 1, host stretch 2 (two transposes, two roundings, a reshape), region 2,
host stretch 3 (a reshape). A host stretch maps the contents by its operations' results; a region replaces its
windows' arrays by what its pipeline leaves and keeps everything else. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the first host stretch. -/
abbrev W1 : Dev nD → Valuation τ sig (Elt F) := fun c => StableHlo.after hostOps0 (W0 m ρ c)
/-- A buffer the stretch does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- The same contents read at the core's own references: what the next region's proof data are stated at. -/
abbrev V1 : (c : Dev nD) → (b : Ref sig .tc) → Buf (Elt F) ((c : Thread nD τ).loc b) := fun c b => W1 m ρ c b

/-- When region 0 is left: its arrays at what the pipeline's write-backs leave (the Q, K and V arrays), every other
    buffer as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered: the pipeline only reads it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- The same contents read at the core's own references. -/
abbrev V2 : (c : Dev nD) → (b : Ref sig .tc) → Buf (Elt F) ((c : Thread nD τ).loc b) := fun c b => W2 m ρ c b
/-- The two facts the exit of region 0 needs: each of its arrays holds what the pipeline leaves, every other buffer
    what it held on entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch. -/
abbrev W3 : Dev nD → Valuation τ sig (Elt F) := fun c => StableHlo.after hostOps1 (W2 m ρ c)
/-- A buffer the stretch does not write keeps its contents. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
/-- The same contents read at the core's own references: what the next region's proof data are stated at. -/
abbrev V3 : (c : Dev nD) → (b : Ref sig .tc) → Buf (Elt F) ((c : Thread nD τ).loc b) := fun c b => W3 m ρ c b

/-- When region 1 is left: its arrays at what the pipeline's write-backs leave (the normalized attention residual), every other
    buffer as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered: the pipeline only reads it. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- The same contents read at the core's own references. -/
abbrev V4 : (c : Dev nD) → (b : Ref sig .tc) → Buf (Elt F) ((c : Thread nD τ).loc b) := fun c b => W4 m ρ c b
/-- The two facts the exit of region 1 needs: each of its arrays holds what the pipeline leaves, every other buffer
    what it held on entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch. -/
abbrev W5 : Dev nD → Valuation τ sig (Elt F) := fun c => StableHlo.after hostOps2 (W4 m ρ c)
/-- A buffer the stretch does not write keeps its contents. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- The same contents read at the core's own references: what the next region's proof data are stated at. -/
abbrev V5 : (c : Dev nD) → (b : Ref sig .tc) → Buf (Elt F) ((c : Thread nD τ).loc b) := fun c b => W5 m ρ c b

/-- When region 2 is left: its arrays at what the pipeline's write-backs leave (the normalized feed-forward residual), every other
    buffer as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered: the pipeline only reads it. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- The same contents read at the core's own references. -/
abbrev V6 : (c : Dev nD) → (b : Ref sig .tc) → Buf (Elt F) ((c : Thread nD τ).loc b) := fun c b => W6 m ρ c b
/-- The two facts the exit of region 2 needs: each of its arrays holds what the pipeline leaves, every other buffer
    what it held on entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last host stretch. -/
abbrev W7 : Dev nD → Valuation τ sig (Elt F) := fun c => StableHlo.after hostOps3 (W6 m ρ c)
/-- A buffer the stretch does not write keeps its contents. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-! ## Every argument ends as launched

No host stretch writes an argument, and a region either bypasses it or reads it through an input window. -/

/-- Argument 0 (the activations: reshaped by the first host stretch and read by region 1 through its window 0) ends as launched. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of m ρ c main_arg0 (by decide)
    _ = W5 m ρ c (Proc.devRef .tc main_arg0) := W6_of_ne m ρ c main_arg0 (by decide)
    _ = W4 m ρ c (Proc.devRef .tc main_arg0) := W5_of m ρ c main_arg0 (by decide)
    _ = W3 m ρ c (Proc.devRef .tc main_arg0) := W4_in m ρ c 0 rfl
    _ = W2 m ρ c (Proc.devRef .tc main_arg0) := W3_of m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

/-- Argument 1 (the query weight: only transposed by the first host stretch) ends as launched. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of m ρ c main_arg1 (by decide)
    _ = W5 m ρ c (Proc.devRef .tc main_arg1) := W6_of_ne m ρ c main_arg1 (by decide)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

/-- Argument 2 (the key weight: only transposed by the first host stretch) ends as launched. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of m ρ c main_arg2 (by decide)
    _ = W5 m ρ c (Proc.devRef .tc main_arg2) := W6_of_ne m ρ c main_arg2 (by decide)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

/-- Argument 3 (the value weight: only transposed by the first host stretch) ends as launched. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of m ρ c main_arg3 (by decide)
    _ = W5 m ρ c (Proc.devRef .tc main_arg3) := W6_of_ne m ρ c main_arg3 (by decide)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

/-- Argument 4 (the first feed-forward weight: only transposed by the third host stretch) ends as launched. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of m ρ c main_arg4 (by decide)
    _ = W5 m ρ c (Proc.devRef .tc main_arg4) := W6_of_ne m ρ c main_arg4 (by decide)
    _ = W4 m ρ c (Proc.devRef .tc main_arg4) := W5_of m ρ c main_arg4 (by decide)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

/-- Argument 5 (the first feed-forward bias: read by region 2 through its window 2) ends as launched. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of m ρ c main_arg5 (by decide)
    _ = W5 m ρ c (Proc.devRef .tc main_arg5) := W6_in m ρ c 2 rfl
    _ = W4 m ρ c (Proc.devRef .tc main_arg5) := W5_of m ρ c main_arg5 (by decide)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

/-- Argument 6 (the second feed-forward weight: only transposed by the third host stretch) ends as launched. -/
theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := W7_of m ρ c main_arg6 (by decide)
    _ = W5 m ρ c (Proc.devRef .tc main_arg6) := W6_of_ne m ρ c main_arg6 (by decide)
    _ = W4 m ρ c (Proc.devRef .tc main_arg6) := W5_of m ρ c main_arg6 (by decide)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

/-- Argument 7 (the second feed-forward bias: read by region 2 through its window 4) ends as launched. -/
theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := W7_of m ρ c main_arg7 (by decide)
    _ = W5 m ρ c (Proc.devRef .tc main_arg7) := W6_in m ρ c 4 rfl
    _ = W4 m ρ c (Proc.devRef .tc main_arg7) := W5_of m ρ c main_arg7 (by decide)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

/-- Argument 8 (the first norm's scale: read by region 1 through its window 4) ends as launched. -/
theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := W7_of m ρ c main_arg8 (by decide)
    _ = W5 m ρ c (Proc.devRef .tc main_arg8) := W6_of_ne m ρ c main_arg8 (by decide)
    _ = W4 m ρ c (Proc.devRef .tc main_arg8) := W5_of m ρ c main_arg8 (by decide)
    _ = W3 m ρ c (Proc.devRef .tc main_arg8) := W4_in m ρ c 4 rfl
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-- Argument 9 (the first norm's shift: read by region 1 through its window 5) ends as launched. -/
theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := W7_of m ρ c main_arg9 (by decide)
    _ = W5 m ρ c (Proc.devRef .tc main_arg9) := W6_of_ne m ρ c main_arg9 (by decide)
    _ = W4 m ρ c (Proc.devRef .tc main_arg9) := W5_of m ρ c main_arg9 (by decide)
    _ = W3 m ρ c (Proc.devRef .tc main_arg9) := W4_in m ρ c 5 rfl
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl

/-- Argument 10 (the second norm's scale: read by region 2 through its window 5) ends as launched. -/
theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := W7_of m ρ c main_arg10 (by decide)
    _ = W5 m ρ c (Proc.devRef .tc main_arg10) := W6_in m ρ c 5 rfl
    _ = W4 m ρ c (Proc.devRef .tc main_arg10) := W5_of m ρ c main_arg10 (by decide)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-- Argument 11 (the second norm's shift: read by region 2 through its window 6) ends as launched. -/
theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := W7_of m ρ c main_arg11 (by decide)
    _ = W5 m ρ c (Proc.devRef .tc main_arg11) := W6_in m ρ c 6 rfl
    _ = W4 m ρ c (Proc.devRef .tc main_arg11) := W5_of m ρ c main_arg11 (by decide)
    _ = W3 m ρ c (Proc.devRef .tc main_arg11) := W4_of_ne m ρ c main_arg11 (by decide)
    _ = W2 m ρ c (Proc.devRef .tc main_arg11) := W3_of m ρ c main_arg11 (by decide)
    _ = W1 m ρ c (Proc.devRef .tc main_arg11) := W2_of_ne m ρ c main_arg11 (by decide)
    _ = W0 m ρ c (Proc.devRef .tc main_arg11) := W1_of m ρ c main_arg11 (by decide)
    _ = m ((c : Thread nD τ).loc main_arg11) := rfl

end Cert.KernelIdeal.Fr

end
-- ==== Proof.FrRunI.lean ====
import proofs.«175621_j3762391351596_2_alg».proof.Proof.FrBody0I
import proofs.«175621_j3762391351596_2_alg».proof.Proof.FrBody1I
import proofs.«175621_j3762391351596_2_alg».proof.Proof.FrBody2I
import proofs.«175621_j3762391351596_2_alg».proof.Proof.FrFoldI
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run: the program's seven segments from the launch to the return

Four host stretches and three pipelined regions alternate. The thread state carried from segment to segment is
"every unscoped buffer of the core holds the contents of the last boundary; the generator register is at some
state; the core owes nothing". -/

variable (m : (ℓ : Loc nD τ sig) → Buf (Elt F) ℓ) (ρ : Dev nD → PrngReg)

/-! ## The proof data of the three pipelines, and what rides along -/

/-- No pipeline prefetches a table. -/
abbrev adm : (p : Fin 3) → (pcfgs (F := F) p).Adm := fun p => (cfgs p).toPCfg_adm
/-- Each pipeline's proof data at the contents its region is entered with: a literal case split on the pipeline's
    number, so that the pinned configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core ever owes another anything, so no level is assigned. -/
abbrev L : GSem nD τ sig → Finset Unit := fun _ => ∅
abbrev lv : GSem nD τ sig → Unit → ℕ := fun _ _ => 0
/-- Beside the buffers: the generator register at some state, and the core owing nothing. -/
abbrev R (c : Dev nD) : sProp 𝕄 := iprop((∃ r, prngReg c r) ∗ ∃ W, owes (c : Thread nD τ) (0 : CellTallies nD τ sig Unit) W)
/-- A host stretch as a segment over all unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator
    register at some state. -/
abbrev Tₙ (c : Dev nD) : sProp 𝕄 := iprop(StableHlo.held (c : Thread nD τ) (Pipeline.ucRefs τ sig) (W7 m ρ c) ∗ ∃ r, prngReg c r)

/-- What the last host stretch leaves is the last thread state beside the core owing nothing: the same three parts,
    grouped the other way. -/
theorem last_state (c : Dev nD) :
    iprop(StableHlo.held (c : Thread nD τ) (Pipeline.ucRefs τ sig) (W7 m ρ c) ∗ R c)
      ⊢ (iprop(Tₙ m ρ c ∗ ∃ W, owes (c : Thread nD τ) (0 : CellTallies nD τ sig Unit) W) : sProp 𝕄) := by
  iintro ⟨Hbufs, Hreg, Howes⟩
  isplitl [Hbufs Hreg]
  · isplitl [Hbufs]; · iexact Hbufs
    iexact Hreg
  iexact Howes

/-! ## The three regions as segments -/

set_option backward.isDefEq.respectTransparency.types false in
/-- REGION 0 (the fused Q/K/V projection) as a segment of the run: entered with every unscoped buffer at `W1`, left with every
    unscoped buffer at `W2`. On entry its windows' arrays are taken out of the unscoped buffers, on exit they are put
    back at what the pipeline left; the generator register goes into the pipeline's invariant and comes back; the
    core owes nothing throughout; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have htake := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at htake
    iintro ⟨⟨Hbufs, Hreg, Howes⟩, -, -⟩
    ihave Hsplit := htake $$ Hbufs
    icases Hsplit with ⟨Harr, Hbypass⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%Wr, Howes⟩; iexists Wr; isplitr; · ipureintro; exact fun _ _ => Or.inl trivial
      iexact Howes
    isplitl [Hreg]; · iexact Hreg
    iexact Hbypass
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hput := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hput
    iintro ⟨Harr, Howes, Hreg, Hbypass⟩
    imodintro
    isplitl [Harr Hbypass]
    · iapply hput; isplitl [Harr] <;> iassumption
    isplitl [Hreg]; · iexact Hreg
    unfold Pipeline.Dat.owesAt Pipeline.owesWithin
    icases Howes with ⟨%Wr, -, Howes⟩; iexists Wr; iexact Howes

set_option backward.isDefEq.respectTransparency.types false in
/-- REGION 1 (attention, residual and layer norm) as a segment of the run: entered with every unscoped buffer at `W3`, left with every
    unscoped buffer at `W4`. On entry its windows' arrays are taken out of the unscoped buffers, on exit they are put
    back at what the pipeline left; the generator register goes into the pipeline's invariant and comes back; the
    core owes nothing throughout; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have htake := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at htake
    iintro ⟨⟨Hbufs, Hreg, Howes⟩, -, -⟩
    ihave Hsplit := htake $$ Hbufs
    icases Hsplit with ⟨Harr, Hbypass⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%Wr, Howes⟩; iexists Wr; isplitr; · ipureintro; exact fun _ _ => Or.inl trivial
      iexact Howes
    isplitl [Hreg]; · iexact Hreg
    iexact Hbypass
  hin c := by
    rw [show (pdats m ρ 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m ρ 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hput := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hput
    iintro ⟨Harr, Howes, Hreg, Hbypass⟩
    imodintro
    isplitl [Harr Hbypass]
    · iapply hput; isplitl [Harr] <;> iassumption
    isplitl [Hreg]; · iexact Hreg
    unfold Pipeline.Dat.owesAt Pipeline.owesWithin
    icases Howes with ⟨%Wr, -, Howes⟩; iexists Wr; iexact Howes

set_option backward.isDefEq.respectTransparency.types false in
/-- REGION 2 (feed-forward, residual and layer norm) as a segment of the run: entered with every unscoped buffer at `W5`, left with every
    unscoped buffer at `W6`. On entry its windows' arrays are taken out of the unscoped buffers, on exit they are put
    back at what the pipeline left; the generator register goes into the pipeline's invariant and comes back; the
    core owes nothing throughout; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have htake := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at htake
    iintro ⟨⟨Hbufs, Hreg, Howes⟩, -, -⟩
    ihave Hsplit := htake $$ Hbufs
    icases Hsplit with ⟨Harr, Hbypass⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%Wr, Howes⟩; iexists Wr; isplitr; · ipureintro; exact fun _ _ => Or.inl trivial
      iexact Howes
    isplitl [Hreg]; · iexact Hreg
    iexact Hbypass
  hin c := by
    rw [show (pdats m ρ 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m ρ 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    have hput := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hput
    iintro ⟨Harr, Howes, Hreg, Hbypass⟩
    imodintro
    isplitl [Harr Hbypass]
    · iapply hput; isplitl [Harr] <;> iassumption
    isplitl [Hreg]; · iexact Hreg
    unfold Pipeline.Dat.owesAt Pipeline.owesWithin
    icases Howes with ⟨%Wr, -, Howes⟩; iexists Wr; iexact Howes

/-! ## The program as its segments, and the launch -/

/-- The seven segments in program order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- The printed program is the run of these segments. -/
theorem main_run (c : Dev nD) : main (F := F) c = Pipeline.Seg.run (segs m ρ) := (main_chain c).trans (by chain_rfl)

set_option backward.isDefEq.respectTransparency.types false in
/-- From any memory with every counter at zero, every weakly fair execution of the program on the cores terminates
    without fault, and in every final state each unscoped buffer of each core holds the last boundary's contents. -/
theorem run_full : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W7 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W7 m ρ c) s')
      isplitl [Hbufs] <;> iassumption)
    (hQ := fun s h => h)

/-- The frame claim of the program at any float interpretation: it runs to the end, and every argument array ends
    as launched — each argument is an unscoped buffer, and the last boundary's contents at it are the launch's. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := F))) ⟨m, fun _ => 0, ρ⟩).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩) (run_full m ρ)

end Cert.KernelIdeal.Fr

end
-- ==== Proof.PayDots.lean ====
/-
  The five matrix products of the three kernel bodies, each read at an output coordinate (p, n) as a plain sum over the
  contracted axis: rows of the left operand against columns of the right one — or, for the query–key product, rows
  against rows. The accumulator each starts from is the zero word, which adds nothing.
-/
import proofs.«175621_j3762391351596_2_alg».proof.Proof.Gen.KernelIdeal
import Idealize.ShloMosaic.Lib.ValueIdx
import Idealize.ShloMosaic.PureOps.Ideal.Laws

noncomputable section

namespace Cert.KernelIdeal.Pay

open Cert.KernelIdeal Idealize.ShloMosaic Idealize.ShloMosaic.ValueIdx

theorem dot_proj_apply_lfree (i : S512x3072.Idx) (q : dot_S512x1024_S1024x3072_S512x3072_1_0_0_1_n_n.contr.Idx) :
    (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
theorem dot_proj_apply_rfree (i : S512x3072.Idx) (q : dot_S512x1024_S1024x3072_S512x3072_1_0_0_1_n_n.contr.Idx) :
    (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- The fused projection: a block of 512 input rows against the 3072 stacked weight columns. -/
theorem dot_proj_apply (l : FVec Ideal S512x1024 .bf16) (r : FVec Ideal S1024x3072 .bf16) (p : Fin 512) (n : Fin 3072) :
    matmul dot_S512x1024_S1024x3072_S512x3072_1_0_0_1_n_n none l r (constant S512x3072 .f32 0x00000000#32) (ix2 p n)
      = ∑ d : Fin 1024, l (ix2 p d) * r (ix2 d n) := by
  refine (Ideal.matmul_constant_zero_apply dot_S512x1024_S1024x3072_S512x3072_1_0_0_1_n_n none l r (ix2 p n)).trans ?_
  rw [← Equiv.sum_comp (contrEquiv1 dot_S512x1024_S1024x3072_S512x3072_1_0_0_1_n_n 1024 rfl rfl).symm]
  refine Finset.sum_congr rfl fun d _ => ?_
  have hk := contrEquiv1_symm_val dot_S512x1024_S1024x3072_S512x3072_1_0_0_1_n_n 1024 rfl rfl d
  have el : dot_S512x1024_S1024x3072_S512x3072_1_0_0_1_n_n.lhsIdx (ix2 p n) ((contrEquiv1 dot_S512x1024_S1024x3072_S512x3072_1_0_0_1_n_n 1024 rfl rfl).symm d) = ix2 p d := funext fun a => Fin.ext (by
    match a with
    | ⟨0, _⟩ => exact dot_proj_apply_lfree _ _
    | ⟨1, _⟩ => exact (dot_S512x1024_S1024x3072_S512x3072_1_0_0_1_n_n.lhsIdx_val_of_single rfl _ _).trans hk)
  have er : dot_S512x1024_S1024x3072_S512x3072_1_0_0_1_n_n.rhsIdx (ix2 p n) ((contrEquiv1 dot_S512x1024_S1024x3072_S512x3072_1_0_0_1_n_n 1024 rfl rfl).symm d) = ix2 d n := funext fun a => Fin.ext (by
    match a with
    | ⟨1, _⟩ => exact dot_proj_apply_rfree _ _
    | ⟨0, _⟩ => exact (dot_S512x1024_S1024x3072_S512x3072_1_0_0_1_n_n.rhsIdx_val_of_single rfl _ _).trans hk)
  rw [el, er]

theorem dot_qk_apply_lfree (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem dot_qk_apply_rfree (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl

/-- Scores before scaling: a query row against a key row (both contracted on their feature axis). -/
theorem dot_qk_apply (l : FVec Ideal S512x1024 .bf16) (r : FVec Ideal S2048x1024 .bf16) (p : Fin 512) (n : Fin 2048) :
    matmul dot_S512x1024_S2048x1024_S512x2048_1_1_0_0_n_n none l r (constant S512x2048 .f32 0x00000000#32) (ix2 p n)
      = ∑ d : Fin 1024, l (ix2 p d) * r (ix2 n d) := by
  refine (Ideal.matmul_constant_zero_apply dot_S512x1024_S2048x1024_S512x2048_1_1_0_0_n_n none l r (ix2 p n)).trans ?_
  rw [← Equiv.sum_comp (contrEquiv1 dot_S512x1024_S2048x1024_S512x2048_1_1_0_0_n_n 1024 rfl rfl).symm]
  refine Finset.sum_congr rfl fun d _ => ?_
  have hk := contrEquiv1_symm_val dot_S512x1024_S2048x1024_S512x2048_1_1_0_0_n_n 1024 rfl rfl d
  have el : dot_S512x1024_S2048x1024_S512x2048_1_1_0_0_n_n.lhsIdx (ix2 p n) ((contrEquiv1 dot_S512x1024_S2048x1024_S512x2048_1_1_0_0_n_n 1024 rfl rfl).symm d) = ix2 p d := funext fun a => Fin.ext (by
    match a with
    | ⟨0, _⟩ => exact dot_qk_apply_lfree _ _
    | ⟨1, _⟩ => exact (dot_S512x1024_S2048x1024_S512x2048_1_1_0_0_n_n.lhsIdx_val_of_single rfl _ _).trans hk)
  have er : dot_S512x1024_S2048x1024_S512x2048_1_1_0_0_n_n.rhsIdx (ix2 p n) ((contrEquiv1 dot_S512x1024_S2048x1024_S512x2048_1_1_0_0_n_n 1024 rfl rfl).symm d) = ix2 n d := funext fun a => Fin.ext (by
    match a with
    | ⟨0, _⟩ => exact dot_qk_apply_rfree _ _
    | ⟨1, _⟩ => exact (dot_S512x1024_S2048x1024_S512x2048_1_1_0_0_n_n.rhsIdx_val_of_single rfl _ _).trans hk)
  rw [el, er]

theorem dot_pv_apply_lfree (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem dot_pv_apply_rfree (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The weighted sum of value rows: a row of weights against a column of the value block. -/
theorem dot_pv_apply (l : FVec Ideal S512x2048 .bf16) (r : FVec Ideal S2048x1024 .bf16) (p : Fin 512) (n : Fin 1024) :
    matmul dot_S512x2048_S2048x1024_S512x1024_1_0_0_1_n_n none l r (constant S512x1024 .f32 0x00000000#32) (ix2 p n)
      = ∑ d : Fin 2048, l (ix2 p d) * r (ix2 d n) := by
  refine (Ideal.matmul_constant_zero_apply dot_S512x2048_S2048x1024_S512x1024_1_0_0_1_n_n none l r (ix2 p n)).trans ?_
  rw [← Equiv.sum_comp (contrEquiv1 dot_S512x2048_S2048x1024_S512x1024_1_0_0_1_n_n 2048 rfl rfl).symm]
  refine Finset.sum_congr rfl fun d _ => ?_
  have hk := contrEquiv1_symm_val dot_S512x2048_S2048x1024_S512x1024_1_0_0_1_n_n 2048 rfl rfl d
  have el : dot_S512x2048_S2048x1024_S512x1024_1_0_0_1_n_n.lhsIdx (ix2 p n) ((contrEquiv1 dot_S512x2048_S2048x1024_S512x1024_1_0_0_1_n_n 2048 rfl rfl).symm d) = ix2 p d := funext fun a => Fin.ext (by
    match a with
    | ⟨0, _⟩ => exact dot_pv_apply_lfree _ _
    | ⟨1, _⟩ => exact (dot_S512x2048_S2048x1024_S512x1024_1_0_0_1_n_n.lhsIdx_val_of_single rfl _ _).trans hk)
  have er : dot_S512x2048_S2048x1024_S512x1024_1_0_0_1_n_n.rhsIdx (ix2 p n) ((contrEquiv1 dot_S512x2048_S2048x1024_S512x1024_1_0_0_1_n_n 2048 rfl rfl).symm d) = ix2 d n := funext fun a => Fin.ext (by
    match a with
    | ⟨1, _⟩ => exact dot_pv_apply_rfree _ _
    | ⟨0, _⟩ => exact (dot_S512x2048_S2048x1024_S512x1024_1_0_0_1_n_n.rhsIdx_val_of_single rfl _ _).trans hk)
  rw [el, er]

theorem dot_hid_apply_lfree (i : S1024x2048.Idx) (q : dot_S1024x1024_S1024x2048_S1024x2048_1_0_0_1_n_n.contr.Idx) :
    (dot_S1024x1024_S1024x2048_S1024x2048_1_0_0_1_n_n.lhsIdx i q 0).val = (i 0).val := by
  unfold DotDims.lhsIdx
  rw [dif_neg (show ¬(0 : Fin S1024x1024.rank) ∈ dot_S1024x1024_S1024x2048_S1024x2048_1_0_0_1_n_n.lhsBatch by decide), dif_pos (show (0 : Fin S1024x1024.rank) ∈ dot_S1024x1024_S1024x2048_S1024x2048_1_0_0_1_n_n.lhsNonContracting by decide)]
  rfl
theorem dot_hid_apply_rfree (i : S1024x2048.Idx) (q : dot_S1024x1024_S1024x2048_S1024x2048_1_0_0_1_n_n.contr.Idx) :
    (dot_S1024x1024_S1024x2048_S1024x2048_1_0_0_1_n_n.rhsIdx i q 1).val = (i 1).val := by
  unfold DotDims.rhsIdx
  rw [dif_neg (show ¬(1 : Fin S1024x2048.rank) ∈ dot_S1024x1024_S1024x2048_S1024x2048_1_0_0_1_n_n.rhsBatch by decide), dif_pos (show (1 : Fin S1024x2048.rank) ∈ dot_S1024x1024_S1024x2048_S1024x2048_1_0_0_1_n_n.rhsNonContracting by decide)]
  rfl

/-- The hidden layer's linear part: a row of activations against a column of the transposed first weight matrix. -/
theorem dot_hid_apply (l : FVec Ideal S1024x1024 .bf16) (r : FVec Ideal S1024x2048 .bf16) (p : Fin 1024) (n : Fin 2048) :
    matmul dot_S1024x1024_S1024x2048_S1024x2048_1_0_0_1_n_n none l r (constant S1024x2048 .f32 0x00000000#32) (ix2 p n)
      = ∑ d : Fin 1024, l (ix2 p d) * r (ix2 d n) := by
  refine (Ideal.matmul_constant_zero_apply dot_S1024x1024_S1024x2048_S1024x2048_1_0_0_1_n_n none l r (ix2 p n)).trans ?_
  rw [← Equiv.sum_comp (contrEquiv1 dot_S1024x1024_S1024x2048_S1024x2048_1_0_0_1_n_n 1024 rfl rfl).symm]
  refine Finset.sum_congr rfl fun d _ => ?_
  have hk := contrEquiv1_symm_val dot_S1024x1024_S1024x2048_S1024x2048_1_0_0_1_n_n 1024 rfl rfl d
  have el : dot_S1024x1024_S1024x2048_S1024x2048_1_0_0_1_n_n.lhsIdx (ix2 p n) ((contrEquiv1 dot_S1024x1024_S1024x2048_S1024x2048_1_0_0_1_n_n 1024 rfl rfl).symm d) = ix2 p d := funext fun a => Fin.ext (by
    match a with
    | ⟨0, _⟩ => exact dot_hid_apply_lfree _ _
    | ⟨1, _⟩ => exact (dot_S1024x1024_S1024x2048_S1024x2048_1_0_0_1_n_n.lhsIdx_val_of_single rfl _ _).trans hk)
  have er : dot_S1024x1024_S1024x2048_S1024x2048_1_0_0_1_n_n.rhsIdx (ix2 p n) ((contrEquiv1 dot_S1024x1024_S1024x2048_S1024x2048_1_0_0_1_n_n 1024 rfl rfl).symm d) = ix2 d n := funext fun a => Fin.ext (by
    match a with
    | ⟨1, _⟩ => exact dot_hid_apply_rfree _ _
    | ⟨0, _⟩ => exact (dot_S1024x1024_S1024x2048_S1024x2048_1_0_0_1_n_n.rhsIdx_val_of_single rfl _ _).trans hk)
  rw [el, er]

theorem dot_out_apply_lfree (i : S1024x1024.Idx) (q : dot_S1024x2048_S2048x1024_S1024x1024_1_0_0_1_n_n.contr.Idx) :
    (dot_S1024x2048_S2048x1024_S1024x1024_1_0_0_1_n_n.lhsIdx i q 0).val = (i 0).val := by
  unfold DotDims.lhsIdx
  rw [dif_neg (show ¬(0 : Fin S1024x2048.rank) ∈ dot_S1024x2048_S2048x1024_S1024x1024_1_0_0_1_n_n.lhsBatch by decide), dif_pos (show (0 : Fin S1024x2048.rank) ∈ dot_S1024x2048_S2048x1024_S1024x1024_1_0_0_1_n_n.lhsNonContracting by decide)]
  rfl
theorem dot_out_apply_rfree (i : S1024x1024.Idx) (q : dot_S1024x2048_S2048x1024_S1024x1024_1_0_0_1_n_n.contr.Idx) :
    (dot_S1024x2048_S2048x1024_S1024x1024_1_0_0_1_n_n.rhsIdx i q 1).val = (i 1).val := by
  unfold DotDims.rhsIdx
  rw [dif_neg (show ¬(1 : Fin S2048x1024.rank) ∈ dot_S1024x2048_S2048x1024_S1024x1024_1_0_0_1_n_n.rhsBatch by decide), dif_pos (show (1 : Fin S2048x1024.rank) ∈ dot_S1024x2048_S2048x1024_S1024x1024_1_0_0_1_n_n.rhsNonContracting by decide)]
  rfl

/-- The output layer's linear part: a row of hidden activations against a column of the transposed second weight matrix. -/
theorem dot_out_apply (l : FVec Ideal S1024x2048 .bf16) (r : FVec Ideal S2048x1024 .bf16) (p : Fin 1024) (n : Fin 1024) :
    matmul dot_S1024x2048_S2048x1024_S1024x1024_1_0_0_1_n_n none l r (constant S1024x1024 .f32 0x00000000#32) (ix2 p n)
      = ∑ d : Fin 2048, l (ix2 p d) * r (ix2 d n) := by
  refine (Ideal.matmul_constant_zero_apply dot_S1024x2048_S2048x1024_S1024x1024_1_0_0_1_n_n none l r (ix2 p n)).trans ?_
  rw [← Equiv.sum_comp (contrEquiv1 dot_S1024x2048_S2048x1024_S1024x1024_1_0_0_1_n_n 2048 rfl rfl).symm]
  refine Finset.sum_congr rfl fun d _ => ?_
  have hk := contrEquiv1_symm_val dot_S1024x2048_S2048x1024_S1024x1024_1_0_0_1_n_n 2048 rfl rfl d
  have el : dot_S1024x2048_S2048x1024_S1024x1024_1_0_0_1_n_n.lhsIdx (ix2 p n) ((contrEquiv1 dot_S1024x2048_S2048x1024_S1024x1024_1_0_0_1_n_n 2048 rfl rfl).symm d) = ix2 p d := funext fun a => Fin.ext (by
    match a with
    | ⟨0, _⟩ => exact dot_out_apply_lfree _ _
    | ⟨1, _⟩ => exact (dot_S1024x2048_S2048x1024_S1024x1024_1_0_0_1_n_n.lhsIdx_val_of_single rfl _ _).trans hk)
  have er : dot_S1024x2048_S2048x1024_S1024x1024_1_0_0_1_n_n.rhsIdx (ix2 p n) ((contrEquiv1 dot_S1024x2048_S2048x1024_S1024x1024_1_0_0_1_n_n 2048 rfl rfl).symm d) = ix2 d n := funext fun a => Fin.ext (by
    match a with
    | ⟨1, _⟩ => exact dot_out_apply_rfree _ _
    | ⟨0, _⟩ => exact (dot_S1024x2048_S2048x1024_S1024x1024_1_0_0_1_n_n.rhsIdx_val_of_single rfl _ _).trans hk)
  rw [el, er]

end Cert.KernelIdeal.Pay

end
-- ==== Proof.PayQkv.lean ====
/-
  The first kernel's three stores, read at a coordinate. The body multiplies a block of 512 rows of x by the stacked
  weight matrix (1024 × 3072: the three transposed projection matrices side by side) and stores the three column
  thirds of the product. Entry (p, e) of the c-th third is therefore the inner product of row p of the block with
  column c·1024 + e of the stacked matrix; the changes of float format on the way are the identity here.
-/
import proofs.«175621_j3762391351596_2_alg».proof.Proof.Gen.KernelIdeal.Skeleton
import proofs.«175621_j3762391351596_2_alg».proof.Proof.PayDots
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The whole product at (p, n): row p of the block against column n of the stacked weights. -/
theorem proj_all_apply (x0 : Vec Ideal S512x1024 .f32) (w : Vec Ideal S1024x3072 .bf16) (p : Fin 512) (n : Fin 3072) :
    k0_pay1 (F := Ideal) x0 w (ix2 p n) = ∑ d : Fin 1024, x0 (ix2 p d) * w (ix2 d n) := by
  unfold k0_pay1
  refine (dot_proj_apply _ _ p n).trans ?_
  refine Finset.sum_congr rfl fun d _ => ?_
  exact congrArg₂ (· * ·) (congrFun (shapeCast_self x0 _) (ix2 p d)) (congrFun (shapeCast_self w _) (ix2 d n))

/-- The first third (the query block) at (p, e). -/
theorem proj_q_apply (x0 : Vec Ideal S512x1024 .f32) (w : Vec Ideal S1024x3072 .bf16) (p : Fin 512) (e : Fin 1024) :
    k0_pay2 (F := Ideal) x0 w (ix2 p e) = ∑ d : Fin 1024, x0 (ix2 p d) * w (ix2 d (⟨e.val, by omega⟩ : Fin 3072)) := by
  unfold k0_pay2
  show extractStridedSlice S512x1024 ![0, 0] (k0_pay1 x0 w) slices_S512x3072_o0_0_S512x1024 (ix2 p e) = _
  exact (slice2_axis1_apply 0 (k0_pay1 x0 w) _ p e (⟨e.val, by omega⟩ : Fin 3072) (Nat.zero_add _).symm).trans
    (proj_all_apply x0 w p _)

/-- The second third (the key block) at (p, e). -/
theorem proj_k_apply (x0 : Vec Ideal S512x1024 .f32) (w : Vec Ideal S1024x3072 .bf16) (p : Fin 512) (e : Fin 1024) :
    k0_pay3 (F := Ideal) x0 w (ix2 p e) = ∑ d : Fin 1024, x0 (ix2 p d) * w (ix2 d (⟨1024 + e.val, by omega⟩ : Fin 3072)) := by
  unfold k0_pay3
  show extractStridedSlice S512x1024 ![0, 1024] (k0_pay1 x0 w) slices_S512x3072_o0_1024_S512x1024 (ix2 p e) = _
  exact (slice2_axis1_apply 1024 (k0_pay1 x0 w) _ p e (⟨1024 + e.val, by omega⟩ : Fin 3072) rfl).trans
    (proj_all_apply x0 w p _)

/-- The last third (the value block) at (p, e). -/
theorem proj_v_apply (x0 : Vec Ideal S512x1024 .f32) (w : Vec Ideal S1024x3072 .bf16) (p : Fin 512) (e : Fin 1024) :
    k0_pay4 (F := Ideal) x0 w (ix2 p e) = ∑ d : Fin 1024, x0 (ix2 p d) * w (ix2 d (⟨2048 + e.val, by omega⟩ : Fin 3072)) := by
  unfold k0_pay4
  show extractStridedSlice S512x1024 ![0, 2048] (k0_pay1 x0 w) slices_S512x3072_o0_2048_S512x1024 (ix2 p e) = _
  exact (slice2_axis1_apply 2048 (k0_pay1 x0 w) _ p e (⟨2048 + e.val, by omega⟩ : Fin 3072) rfl).trans
    (proj_all_apply x0 w p _)

end Cert.KernelIdeal.Pay

end
-- ==== Proof.Spec.lean ====
/-
  The transformer block both programs compute, as one function of the twelve argument arrays over the
  extended reals, written over explicit coordinates (batch b : Fin 8, position s : Fin 2048, feature e : Fin 1024,
  hidden unit j : Fin 2048).

  q, k, v are three linear images of x (row (b, s) of x against row e of a weight matrix). A score is the inner
  product of a query row with a key row, scaled by 1/sqrt 1024 = 1/32. Each row of scores is shifted by its
  maximum and exponentiated (p); the attention output is the p-weighted average of the value rows. Then a residual
  sum, a layer normalisation over the feature axis, a two-layer perceptron with a positive-part nonlinearity, a
  second residual sum and a second layer normalisation.

  The two programs differ in exactly two places, and the specification keeps both spellings:
  * the scale: a product with the binary fraction 1/32 (`scaleK`) against a quotient by sqrt 1024 (`scaleR`);
  * the normalisation of p: the weighted SUM of value rows divided once by the row's total (`attnK`), against each
    weight divided by the total before the sum (`attnR`).
  Everything else is spelt once and shared.
-/
import Idealize.ShloMosaic.PureOps.Ideal
import Idealize.ShloMosaic.Lib.ValueIdx

noncomputable section

namespace Cert.Block

open Idealize.ShloMosaic

/-- Activations: batch, position, feature. -/
abbrev Act := Fin 8 → Fin 2048 → Fin 1024 → EReal
/-- Scores and hidden activations: batch, position, and a 2048-long last axis. -/
abbrev Wide := Fin 8 → Fin 2048 → Fin 2048 → EReal

/-- The float words that occur: zero, minus infinity, 1/32, 1024, and the variance offset. -/
abbrev w0 : EReal := Ideal.ofBits .f32 0x00000000#32
abbrev wNegInf : EReal := Ideal.ofBits .f32 0xFF800000#32
abbrev wInv32 : EReal := Ideal.ofBits .f32 0x3D000000#32
abbrev w1024 : EReal := Ideal.ofBits .f32 0x44800000#32
abbrev wEps : EReal := Ideal.ofBits .f32 0x3727C5AC#32

/-- A linear image: row (b, s) of `x` against row `e` of `W`. -/
def proj (x : Act) (W : Fin 1024 → Fin 1024 → EReal) : Act :=
  fun b s e => ∑ d : Fin 1024, x b s d * W e d

/-- Inner products of query rows with key rows, within a batch. -/
def qk (q k : Act) : Wide := fun b i j => ∑ d : Fin 1024, q b i d * k b j d

/-- The scale as a product with 1/32. -/
def scaleK (a : Wide) : Wide := fun b i j => a b i j * wInv32
/-- The scale as a quotient by the square root of 1024. -/
def scaleR (a : Wide) : Wide := fun b i j => Ideal.div (a b i j) (Ideal.sqrt w1024)

/-- The largest entry of a row (the fold of `max` from minus infinity). -/
def rowmax (r : Fin 2048 → EReal) : EReal := (Finset.univ : Finset (Fin 2048)).fold max wNegInf r
/-- A row shifted by its maximum and exponentiated. -/
def pexp (r : Fin 2048 → EReal) : Fin 2048 → EReal := fun j => Ideal.exp (r j - rowmax r)

/-- The weighted sum of value rows, divided once by the total weight. -/
def attnK (sc : Wide) (v : Act) : Act :=
  fun b i e => Ideal.div (∑ j : Fin 2048, pexp (sc b i) j * v b j e) (∑ j : Fin 2048, pexp (sc b i) j)
/-- Each weight divided by the total, then the weighted sum of value rows. -/
def attnR (sc : Wide) (v : Act) : Act :=
  fun b i e => ∑ j : Fin 2048, Ideal.div (pexp (sc b i) j) (∑ j' : Fin 2048, pexp (sc b i) j') * v b j e

/-- The mean of a feature row: its sum over 1024. -/
def mean (r : Fin 1024 → EReal) : EReal := Ideal.div (∑ e : Fin 1024, r e) w1024
/-- Layer normalisation of a feature row with gain `g` and offset `be`. -/
def ln (r g be : Fin 1024 → EReal) : Fin 1024 → EReal := fun e =>
  (r e - mean r) * Ideal.rsqrt (mean (fun e' => (r e' - mean r) * (r e' - mean r)) + wEps) * g e + be e

/-- The hidden layer: a linear image plus offset, positive part. -/
def hid (h : Act) (W1 : Fin 2048 → Fin 1024 → EReal) (b1 : Fin 2048 → EReal) : Wide :=
  fun b s j => max (∑ d : Fin 1024, h b s d * W1 j d + b1 j) w0
/-- The output layer: a linear image of the hidden activations plus offset. -/
def ffn (u : Wide) (W2 : Fin 1024 → Fin 2048 → EReal) (b2 : Fin 1024 → EReal) : Act :=
  fun b s e => ∑ j : Fin 2048, u b s j * W2 e j + b2 e

/-- The whole block, over a choice of the two spellings. -/
def blockOf (attn : Wide → Act → Act) (scale : Wide → Wide)
    (x : Act) (Wq Wk Wv : Fin 1024 → Fin 1024 → EReal) (W1 : Fin 2048 → Fin 1024 → EReal) (b1 : Fin 2048 → EReal)
    (W2 : Fin 1024 → Fin 2048 → EReal) (b2 g1 be1 g2 be2 : Fin 1024 → EReal) : Act :=
  let a : Act := attn (scale (qk (proj x Wq) (proj x Wk))) (proj x Wv)
  let h : Act := fun b s => ln (fun e => x b s e + a b s e) g1 be1
  let f : Act := ffn (hid h W1 b1) W2 b2
  fun b s => ln (fun e => h b s e + f b s e) g2 be2

/-- The block as the kernel spells it. -/
def outK := blockOf attnK scaleK
/-- The block as the reference spells it. -/
def outR := blockOf attnR scaleR

/-- Arrays as functions of coordinates. -/
abbrev cur3 {n0 n1 n2 : Nat} (a : (⟨3, ![n0, n1, n2]⟩ : Shape).Idx → EReal) : Fin n0 → Fin n1 → Fin n2 → EReal :=
  fun p q r => a (ValueIdx.ix3 p q r)
abbrev cur2 {n0 n1 : Nat} (a : (⟨2, ![n0, n1]⟩ : Shape).Idx → EReal) : Fin n0 → Fin n1 → EReal :=
  fun p q => a (ValueIdx.ix2 p q)
abbrev cur1 {n0 : Nat} (a : (⟨1, ![n0]⟩ : Shape).Idx → EReal) : Fin n0 → EReal :=
  fun p => a (ValueIdx.ix1 p)
/-- A function of three coordinates as an array. -/
abbrev unc3 {n0 n1 n2 : Nat} (f : Fin n0 → Fin n1 → Fin n2 → EReal) : (⟨3, ![n0, n1, n2]⟩ : Shape).Idx → EReal :=
  fun i => f (i 0) (i 1) (i 2)

end Cert.Block

end
-- ==== Proof.ValSpec.lean ====
/-
  The arrays the first and third regions leave, as functions of the arrays they find.

  First region: the 16384 rows of x (batch and position flattened) against the columns of the stacked weight
  matrix; the three outputs are the three column thirds, so output `o` at (r, e) is row r against column o + e.
  Third region: each of the 16384 rows through the two-layer perceptron, added back, and normalised.
-/
import proofs.«175621_j3762391351596_2_alg».proof.KernelIdeal
import proofs.«175621_j3762391351596_2_alg».proof.Proof.Spec

noncomputable section

namespace Cert.KernelIdeal.Val

open Cert.KernelIdeal Idealize.ShloMosaic Idealize.ShloMosaic.ValueIdx

/-- Row r of the flattened input against column o + e of the stacked weights. -/
def Gproj (X : S16384x1024.Idx → EReal) (Wst : S1024x3072.Idx → EReal) (o : Nat) (ho : o + 1024 ≤ 3072) : S16384x1024.Idx → EReal :=
  fun i => ∑ d : Fin 1024, X (ix2 (⟨(i 0).val, (i 0).isLt⟩ : Fin 16384) d)
    * Wst (ix2 d (⟨o + (i 1).val, by have := (i 1).isLt; simp only [Matrix.cons_val_one, Matrix.cons_val_zero] at this; omega⟩ : Fin 3072))

/-- Row r through the perceptron (weights given already transposed), added back, and normalised. -/
def Gffn (H : S16384x1024.Idx → EReal) (W1t : S1024x2048.Idx → EReal) (b1 : S2048.Idx → EReal) (W2t : S2048x1024.Idx → EReal)
    (b2 g be : S1024.Idx → EReal) : S16384x1024.Idx → EReal :=
  fun i => Cert.Block.ln (fun e' => H (ix2 (⟨(i 0).val, (i 0).isLt⟩ : Fin 16384) e')
      + (∑ j : Fin 2048, max (∑ d : Fin 1024, H (ix2 (⟨(i 0).val, (i 0).isLt⟩ : Fin 16384) d) * W1t (ix2 d j) + b1 (ix1 j)) Cert.Block.w0
            * W2t (ix2 j e') + b2 (ix1 e')))
    (fun e' => g (ix1 e')) (fun e' => be (ix1 e')) (⟨(i 1).val, (i 1).isLt⟩ : Fin 1024)

end Cert.KernelIdeal.Val

end
-- ==== Proof.ValQkv.lean ====
/-
  What the first region leaves in its three output arrays, index by index.

  The region runs over 32 points; at point t the body sees rows 512 t … 512 t + 511 of the flattened input and the whole
  stacked weight matrix, and stores three blocks of 512 rows: the products of those rows with the three bands of 1024
  columns. Entry (p, e) of a stored block is row 512 t + p against column o + e of the stacked matrix (o = 0, 1024,
  2048), so the block written back at point t is block t of one function of the two arrays, and since the 32 blocks tile
  the 16384 rows, each output array ends as that function.
-/
import proofs.«175621_j3762391351596_2_alg».proof.Proof.FrDefsI
import proofs.«175621_j3762391351596_2_alg».proof.Proof.PayQkv
import proofs.«175621_j3762391351596_2_alg».proof.Proof.ValSpec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem qkv_zero2 : (![0, 0] : Fin 2 → Nat) = fun _ => 0 := funext fun a => by fin_cases a <;> rfl

/-- The block indices of the five windows at every point: the row-tiled windows are at block (t, 0), the weights' window
    at block (0, 0). -/
theorem qkv_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The x window's block at point t is rows 512 t … 512 t + 511 of x. -/
theorem iblk0_0_apply (c : Dev nD) (t : Fin cfg0.N) (p : Fin 512) (d : Fin 1024) (k : S16384x1024.Idx)
    (hk0 : (k 0).val = 512 * t.val + p.val) (hk1 : (k 1).val = d.val) :
    (iblk0 V c 0 t : Vec Ideal S512x1024 .f32) (ix2 p d) = (V c main_v5 : S16384x1024.Idx → EReal) k := by
  obtain ⟨e0, e1, -⟩ := qkv_idx t
  unfold iblk0
  rw [View.read_apply]
  show V c main_v5 _ = V c main_v5 _
  congr 1
  funext a
  apply Fin.ext
  match a with
  | ⟨0, _⟩ => show win0_0.index t 0 * 512 + 1 * p.val = (k 0).val; rw [e0, hk0]; omega
  | ⟨1, _⟩ => show win0_0.index t 1 * 1024 + 1 * d.val = (k 1).val; rw [e1, hk1]; omega

/-- The weights' window's block at every point is the whole stacked matrix. -/
theorem iblk0_1_apply (c : Dev nD) (t : Fin cfg0.N) (d : Fin 1024) (n : Fin 3072) :
    (iblk0 V c 1 t : Vec Ideal S1024x3072 .bf16) (ix2 d n) = (V c main_v4 : S1024x3072.Idx → EReal) (ix2 d n) := by
  obtain ⟨-, -, e0, e1, -⟩ := qkv_idx t
  unfold iblk0
  rw [View.read_apply]
  show V c main_v4 _ = V c main_v4 _
  congr 1
  funext a
  apply Fin.ext
  match a with
  | ⟨0, _⟩ => show win0_1.index t 0 * 1024 + 1 * d.val = d.val; rw [e0]; omega
  | ⟨1, _⟩ => show win0_1.index t 1 * 3072 + 1 * n.val = n.val; rw [e1]; omega

/-- One stored block of band 0 at a local index is the band's function at the global index, once the body's two loads
    are rows r … r + 511 of x and the whole stacked matrix. -/
theorem pay0_2_at (x0 : Vec Ideal S512x1024 .f32) (w : Vec Ideal S1024x3072 .bf16) (X : S16384x1024.Idx → EReal)
    (Wst : S1024x3072.Idx → EReal) (r : Nat)
    (hx : ∀ (p : Fin 512) (d : Fin 1024) (k : S16384x1024.Idx), (k 0).val = r + p.val → (k 1).val = d.val → x0 (ix2 p d) = X k)
    (hw : ∀ (d : Fin 1024) (n : Fin 3072), w (ix2 d n) = Wst (ix2 d n))
    (j : S512x1024.Idx) (i : S16384x1024.Idx) (hi0 : (i 0).val = r + (j 0).val) (hi1 : (i 1).val = (j 1).val) :
    k0_pay2 (F := Ideal) x0 w j = Gproj X Wst 0 (by omega) i := by
  obtain ⟨p, e, rfl⟩ : ∃ (p : Fin 512) (e : Fin 1024), j = ix2 p e := ⟨j 0, j 1, eq_ix2 j⟩
  rw [Cert.KernelIdeal.Pay.proj_q_apply]
  unfold Gproj
  refine Finset.sum_congr rfl fun d _ => ?_
  rw [hx p d (ix2 (⟨(i 0).val, (i 0).isLt⟩ : Fin 16384) d) hi0 rfl, hw]
  refine congrArg (fun n => X _ * Wst (ix2 d n)) (Fin.ext ?_)
  show e.val = 0 + (i 1).val
  rw [hi1]
  exact (Nat.zero_add _).symm

/-- What point t writes back through window 2 is block t of the band's function of the arrays the region finds. -/
theorem flushed0_2 (c : Dev nD) (t : Fin cfg0.N) :
    (dat0 V c).flushed 2 t
      = ((cfg0.win 2).blk t).view.read (Elt Ideal) (Gproj (V c main_v5) (V c main_v4) 0 (by omega)) := by
  show (cfg0.win 2).cut (grid0.coords t) ((dat0 V c).after 2 t) = _
  rw [after0_2]
  unfold out0_2
  rw [View.canon_unit_zero qkv_zero2]
  simp only [View.ld_unit_zero (S := S512x1024) qkv_zero2, View.ld_unit_zero (S := S1024x3072) qkv_zero2]
  have ei := qkv_idx t
  funext j
  refine pay0_2_at (iblk0 V c 0 t) (iblk0 V c 1 t) (V c main_v5) (V c main_v4) (512 * t.val)
    (fun p d k h0 h1 => iblk0_0_apply V c t p d k h0 h1) (fun d n => iblk0_1_apply V c t d n) j _ ?_ ?_
  · show win0_2.index t (0 : Fin 2) * 512 + 1 * (j 0).val = 512 * t.val + (j 0).val
    rw [ei.2.2.2.2.1]; omega
  · show win0_2.index t (1 : Fin 2) * 1024 + 1 * (j 1).val = (j 1).val
    rw [ei.2.2.2.2.2.1]; omega

/-- Every index of the output lies in the block of the point its row falls in. -/
theorem cover0_2_all (i : S16384x1024.Idx) :
    ∃ t : Fin cfg0.N, (cfg0.win 2).flush t = true ∧ i ∈ ((cfg0.win 2).blk t).view.set := by
  have h0 : (i 0).val < 16384 := (i 0).isLt
  have h1 : (i 1).val < 1024 := (i 1).isLt
  let t : Fin cfg0.N := ⟨(i 0).val / 512, by rw [show cfg0.N = 32 from N_0]; omega⟩
  have ei := qkv_idx t
  refine ⟨t, flush0_2 t, ?_⟩
  show i ∈ ((View.whole main_v6_0).slice (win0_2.rect t)).set
  rw [View.set_slice_whole, Rect.mem_set_unit]
  intro a
  match a with
  | ⟨0, _⟩ =>
    show win0_2.index t (0 : Fin 2) * 512 ≤ (i 0).val ∧ (i 0).val < win0_2.index t (0 : Fin 2) * 512 + 512
    rw [ei.2.2.2.2.1]
    show (i 0).val / 512 * 512 ≤ (i 0).val ∧ (i 0).val < (i 0).val / 512 * 512 + 512
    omega
  | ⟨1, _⟩ =>
    show win0_2.index t (1 : Fin 2) * 1024 ≤ (i 1).val ∧ (i 1).val < win0_2.index t (1 : Fin 2) * 1024 + 1024
    rw [ei.2.2.2.2.2.1]
    omega

/-- The array window 2 writes ends as the band's function of the arrays the region finds. -/
theorem final0_2 (c : Dev nD) :
    (dat0 V c).arrAt 2 cfg0.N = Gproj (V c main_v5) (V c main_v4) 0 (by omega) :=
  (dat0 V c).arrAt_eq_of_cover 2 (Gproj (V c main_v5) (V c main_v4) 0 (by omega)) (fun t _ => flushed0_2 V c t) cover0_2_all

/-- One stored block of band 1024 at a local index is the band's function at the global index, once the body's two loads
    are rows r … r + 511 of x and the whole stacked matrix. -/
theorem pay0_3_at (x0 : Vec Ideal S512x1024 .f32) (w : Vec Ideal S1024x3072 .bf16) (X : S16384x1024.Idx → EReal)
    (Wst : S1024x3072.Idx → EReal) (r : Nat)
    (hx : ∀ (p : Fin 512) (d : Fin 1024) (k : S16384x1024.Idx), (k 0).val = r + p.val → (k 1).val = d.val → x0 (ix2 p d) = X k)
    (hw : ∀ (d : Fin 1024) (n : Fin 3072), w (ix2 d n) = Wst (ix2 d n))
    (j : S512x1024.Idx) (i : S16384x1024.Idx) (hi0 : (i 0).val = r + (j 0).val) (hi1 : (i 1).val = (j 1).val) :
    k0_pay3 (F := Ideal) x0 w j = Gproj X Wst 1024 (by omega) i := by
  obtain ⟨p, e, rfl⟩ : ∃ (p : Fin 512) (e : Fin 1024), j = ix2 p e := ⟨j 0, j 1, eq_ix2 j⟩
  rw [Cert.KernelIdeal.Pay.proj_k_apply]
  unfold Gproj
  refine Finset.sum_congr rfl fun d _ => ?_
  rw [hx p d (ix2 (⟨(i 0).val, (i 0).isLt⟩ : Fin 16384) d) hi0 rfl, hw]
  refine congrArg (fun n => X _ * Wst (ix2 d n)) (Fin.ext ?_)
  show 1024 + e.val = 1024 + (i 1).val
  rw [hi1]

/-- What point t writes back through window 3 is block t of the band's function of the arrays the region finds. -/
theorem flushed0_3 (c : Dev nD) (t : Fin cfg0.N) :
    (dat0 V c).flushed 3 t
      = ((cfg0.win 3).blk t).view.read (Elt Ideal) (Gproj (V c main_v5) (V c main_v4) 1024 (by omega)) := by
  show (cfg0.win 3).cut (grid0.coords t) ((dat0 V c).after 3 t) = _
  rw [after0_3]
  unfold out0_3
  rw [View.canon_unit_zero qkv_zero2]
  simp only [View.ld_unit_zero (S := S512x1024) qkv_zero2, View.ld_unit_zero (S := S1024x3072) qkv_zero2]
  have ei := qkv_idx t
  funext j
  refine pay0_3_at (iblk0 V c 0 t) (iblk0 V c 1 t) (V c main_v5) (V c main_v4) (512 * t.val)
    (fun p d k h0 h1 => iblk0_0_apply V c t p d k h0 h1) (fun d n => iblk0_1_apply V c t d n) j _ ?_ ?_
  · show win0_3.index t (0 : Fin 2) * 512 + 1 * (j 0).val = 512 * t.val + (j 0).val
    rw [ei.2.2.2.2.2.2.1]; omega
  · show win0_3.index t (1 : Fin 2) * 1024 + 1 * (j 1).val = (j 1).val
    rw [ei.2.2.2.2.2.2.2.1]; omega

/-- Every index of the output lies in the block of the point its row falls in. -/
theorem cover0_3_all (i : S16384x1024.Idx) :
    ∃ t : Fin cfg0.N, (cfg0.win 3).flush t = true ∧ i ∈ ((cfg0.win 3).blk t).view.set := by
  have h0 : (i 0).val < 16384 := (i 0).isLt
  have h1 : (i 1).val < 1024 := (i 1).isLt
  let t : Fin cfg0.N := ⟨(i 0).val / 512, by rw [show cfg0.N = 32 from N_0]; omega⟩
  have ei := qkv_idx t
  refine ⟨t, flush0_3 t, ?_⟩
  show i ∈ ((View.whole main_v6_1).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [ei.2.2.2.2.2.2.1]
    show (i 0).val / 512 * 512 ≤ (i 0).val ∧ (i 0).val < (i 0).val / 512 * 512 + 512
    omega
  | ⟨1, _⟩ =>
    show win0_3.index t (1 : Fin 2) * 1024 ≤ (i 1).val ∧ (i 1).val < win0_3.index t (1 : Fin 2) * 1024 + 1024
    rw [ei.2.2.2.2.2.2.2.1]
    omega

/-- The array window 3 writes ends as the band's function of the arrays the region finds. -/
theorem final0_3 (c : Dev nD) :
    (dat0 V c).arrAt 3 cfg0.N = Gproj (V c main_v5) (V c main_v4) 1024 (by omega) :=
  (dat0 V c).arrAt_eq_of_cover 3 (Gproj (V c main_v5) (V c main_v4) 1024 (by omega)) (fun t _ => flushed0_3 V c t) cover0_3_all

/-- One stored block of band 2048 at a local index is the band's function at the global index, once the body's two loads
    are rows r … r + 511 of x and the whole stacked matrix. -/
theorem pay0_4_at (x0 : Vec Ideal S512x1024 .f32) (w : Vec Ideal S1024x3072 .bf16) (X : S16384x1024.Idx → EReal)
    (Wst : S1024x3072.Idx → EReal) (r : Nat)
    (hx : ∀ (p : Fin 512) (d : Fin 1024) (k : S16384x1024.Idx), (k 0).val = r + p.val → (k 1).val = d.val → x0 (ix2 p d) = X k)
    (hw : ∀ (d : Fin 1024) (n : Fin 3072), w (ix2 d n) = Wst (ix2 d n))
    (j : S512x1024.Idx) (i : S16384x1024.Idx) (hi0 : (i 0).val = r + (j 0).val) (hi1 : (i 1).val = (j 1).val) :
    k0_pay4 (F := Ideal) x0 w j = Gproj X Wst 2048 (by omega) i := by
  obtain ⟨p, e, rfl⟩ : ∃ (p : Fin 512) (e : Fin 1024), j = ix2 p e := ⟨j 0, j 1, eq_ix2 j⟩
  rw [Cert.KernelIdeal.Pay.proj_v_apply]
  unfold Gproj
  refine Finset.sum_congr rfl fun d _ => ?_
  rw [hx p d (ix2 (⟨(i 0).val, (i 0).isLt⟩ : Fin 16384) d) hi0 rfl, hw]
  refine congrArg (fun n => X _ * Wst (ix2 d n)) (Fin.ext ?_)
  show 2048 + e.val = 2048 + (i 1).val
  rw [hi1]

/-- What point t writes back through window 4 is block t of the band's function of the arrays the region finds. -/
theorem flushed0_4 (c : Dev nD) (t : Fin cfg0.N) :
    (dat0 V c).flushed 4 t
      = ((cfg0.win 4).blk t).view.read (Elt Ideal) (Gproj (V c main_v5) (V c main_v4) 2048 (by omega)) := by
  show (cfg0.win 4).cut (grid0.coords t) ((dat0 V c).after 4 t) = _
  rw [after0_4]
  unfold out0_4
  rw [View.canon_unit_zero qkv_zero2]
  simp only [View.ld_unit_zero (S := S512x1024) qkv_zero2, View.ld_unit_zero (S := S1024x3072) qkv_zero2]
  have ei := qkv_idx t
  funext j
  refine pay0_4_at (iblk0 V c 0 t) (iblk0 V c 1 t) (V c main_v5) (V c main_v4) (512 * t.val)
    (fun p d k h0 h1 => iblk0_0_apply V c t p d k h0 h1) (fun d n => iblk0_1_apply V c t d n) j _ ?_ ?_
  · show win0_4.index t (0 : Fin 2) * 512 + 1 * (j 0).val = 512 * t.val + (j 0).val
    rw [ei.2.2.2.2.2.2.2.2.1]; omega
  · show win0_4.index t (1 : Fin 2) * 1024 + 1 * (j 1).val = (j 1).val
    rw [ei.2.2.2.2.2.2.2.2.2]; omega

/-- Every index of the output lies in the block of the point its row falls in. -/
theorem cover0_4_all (i : S16384x1024.Idx) :
    ∃ t : Fin cfg0.N, (cfg0.win 4).flush t = true ∧ i ∈ ((cfg0.win 4).blk t).view.set := by
  have h0 : (i 0).val < 16384 := (i 0).isLt
  have h1 : (i 1).val < 1024 := (i 1).isLt
  let t : Fin cfg0.N := ⟨(i 0).val / 512, by rw [show cfg0.N = 32 from N_0]; omega⟩
  have ei := qkv_idx t
  refine ⟨t, flush0_4 t, ?_⟩
  show i ∈ ((View.whole main_v6_2).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [ei.2.2.2.2.2.2.2.2.1]
    show (i 0).val / 512 * 512 ≤ (i 0).val ∧ (i 0).val < (i 0).val / 512 * 512 + 512
    omega
  | ⟨1, _⟩ =>
    show win0_4.index t (1 : Fin 2) * 1024 ≤ (i 1).val ∧ (i 1).val < win0_4.index t (1 : Fin 2) * 1024 + 1024
    rw [ei.2.2.2.2.2.2.2.2.2]
    omega

/-- The array window 4 writes ends as the band's function of the arrays the region finds. -/
theorem final0_4 (c : Dev nD) :
    (dat0 V c).arrAt 4 cfg0.N = Gproj (V c main_v5) (V c main_v4) 2048 (by omega) :=
  (dat0 V c).arrAt_eq_of_cover 4 (Gproj (V c main_v5) (V c main_v4) 2048 (by omega)) (fun t _ => flushed0_4 V c t) cover0_4_all

end Cert.KernelIdeal.Val

end
-- ==== Proof.PayLayout.lean ====
/-
  Small facts about arrays of literal shape read at a coordinate, used by the readings of the kernel bodies:
  a vector made a one-column matrix, a one-column matrix spread over columns, and a sum or a maximum along the
  rows of a matrix (the index of the reduced array with the column coordinate put back is the pair).
-/
import Idealize.ShloMosaic.Lib.ValueIdx
import Idealize.ShloMosaic.Lib.ValueLayout
import Idealize.ShloMosaic.Lib.Pipeline.Value
import Idealize.ShloMosaic.PureOps.Ideal.Laws

noncomputable section

namespace Cert.Block.Lay

open Idealize.ShloMosaic Idealize.ShloMosaic.ValueIdx

variable {α : Type}

/-- A length-`a` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a row-reduced matrix with column `k` put back is the pair `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of a matrix, from the zero word, at row `p`: the plain sum of the row. -/
theorem rowsum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- A maximum along the rows of a matrix, from minus infinity, at row `p`: the fold of `max` over the row. -/
theorem rowmax_apply {a b : ℕ} (src : FVec Ideal ⟨2, ![a, b]⟩ .f32) (h : (⟨2, ![a, b]⟩ : Shape).Reduces [1] (⟨1, ![a]⟩ : Shape))
    (hφ : FKind.Formats .f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32))
      (funext fun k => congrArg src (lift_row h p k)))

end Cert.Block.Lay

end
-- ==== Proof.PayNorm.lean ====
/-
  The pieces of a layer normalisation over the 1024 features of each row of an `[a, 1024]` block, read at a
  coordinate: the row mean kept as a one-entry column, a block minus its row-mean column, and the final
  "centred × inverse deviation × gain + offset" with the gain and offset vectors spread over the rows.
  Stated for any number of rows `a`, so the attention kernel (512 rows) and the perceptron kernel (1024 rows)
  share them.
-/
import proofs.«175621_j3762391351596_2_alg».proof.Proof.Spec
import proofs.«175621_j3762391351596_2_alg».proof.Proof.PayLayout

noncomputable section

namespace Cert.Block.Lay

open Idealize.ShloMosaic Idealize.ShloMosaic.ValueIdx

variable {a : ℕ}

/-- The sum of each row, kept as a column and divided by 1024, at row `p`: the mean of that row. -/
theorem meanCol_apply (X : FVec Ideal ⟨2, ![a, 1024]⟩ .f32)
    (hr : (⟨2, ![a, 1024]⟩ : Shape).Reduces [1] (⟨1, ![a]⟩ : Shape)) (hφ : FKind.Formats .f32)
    (hacc : (0x00000000#32 : BitVec FTy.f32.bits) = FKind.add.neutral .f32 hφ)
    (hc : (⟨1, ![a]⟩ : Shape).ShapeCasts ⟨2, ![a, 1]⟩) (p : Fin a) (u : Fin 1) :
    divf (shapeCast ⟨2, ![a, 1]⟩ (multiReduction .add [1] ⟨1, ![a]⟩ X 0x00000000#32 hr hφ hacc) hc)
        (broadcast ⟨2, ![a, 1]⟩ (Scalar.ofBits (F := Ideal) .f32 0x44800000#32)) (ix2 p u)
      = Cert.Block.mean (fun e => X (ix2 p e)) :=
  congrArg (fun z => Ideal.div z Cert.Block.w1024)
    ((shapeCast_a_a1_apply _ hc p u).trans (rowsum_apply X hr hφ hacc p))

/-- A block minus a column spread over its columns, at (p, e). -/
theorem subCol_apply (X : FVec Ideal ⟨2, ![a, 1024]⟩ .f32) (c : FVec Ideal ⟨2, ![a, 1]⟩ .f32)
    (hb : (⟨2, ![a, 1]⟩ : Shape).Broadcasts ⟨2, ![a, 1024]⟩) (p : Fin a) (e : Fin 1024) :
    subf X (broadcastTo ⟨2, ![a, 1024]⟩ c hb) (ix2 p e) = X (ix2 p e) - c (ix2 p (0 : Fin 1)) :=
  congrArg (fun z => X (ix2 p e) - z) (broadcastTo_a1_ab_apply c hb p e)

/-- A length-`b` vector made a row and spread over `a` rows, at (p, e): the vector at `e`. -/
theorem rowVec_apply {b : ℕ} (g : Vec Ideal ⟨1, ![b]⟩ .f32) (hc : (⟨1, ![b]⟩ : Shape).ShapeCasts ⟨2, ![1, b]⟩)
    (hb : (⟨2, ![1, b]⟩ : Shape).Broadcasts ⟨2, ![a, b]⟩) (p : Fin a) (e : Fin b) :
    broadcastTo ⟨2, ![a, b]⟩ (shapeCast ⟨2, ![1, b]⟩ g hc) hb (ix2 p e) = g (ix1 e) :=
  (broadcastTo_1b_ab_apply _ hb p e).trans (shapeCast_a_1a_apply g hc (0 : Fin 1) e)

/-- The last step of the normalisation at (p, e): the centred entry times the inverse square root of the row's
    variance plus the offset word, times the gain, plus the offset. -/
theorem scaleShift_apply (cen : FVec Ideal ⟨2, ![a, 1024]⟩ .f32) (var : FVec Ideal ⟨2, ![a, 1]⟩ .f32) (eps : Ideal .f32)
    (g be : Vec Ideal ⟨1, ![1024]⟩ .f32)
    (hb : (⟨2, ![a, 1]⟩ : Shape).Broadcasts ⟨2, ![a, 1024]⟩)
    (hc : (⟨1, ![1024]⟩ : Shape).ShapeCasts ⟨2, ![1, 1024]⟩) (hb1 : (⟨2, ![1, 1024]⟩ : Shape).Broadcasts ⟨2, ![a, 1024]⟩)
    (p : Fin a) (e : Fin 1024) :
    addf (mulf (mulf cen (broadcastTo ⟨2, ![a, 1024]⟩ (rsqrt (addf var (broadcast ⟨2, ![a, 1]⟩ eps))) hb))
          (broadcastTo ⟨2, ![a, 1024]⟩ (shapeCast ⟨2, ![1, 1024]⟩ g hc) hb1))
        (broadcastTo ⟨2, ![a, 1024]⟩ (shapeCast ⟨2, ![1, 1024]⟩ be hc) hb1) (ix2 p e)
      = cen (ix2 p e) * Ideal.rsqrt (var (ix2 p (0 : Fin 1)) + eps) * g (ix1 e) + be (ix1 e) := by
  show cen (ix2 p e) * (broadcastTo ⟨2, ![a, 1024]⟩ (rsqrt (addf var (broadcast ⟨2, ![a, 1]⟩ eps))) hb) (ix2 p e)
        * (broadcastTo ⟨2, ![a, 1024]⟩ (shapeCast ⟨2, ![1, 1024]⟩ g hc) hb1) (ix2 p e)
      + (broadcastTo ⟨2, ![a, 1024]⟩ (shapeCast ⟨2, ![1, 1024]⟩ be hc) hb1) (ix2 p e) = _
  rw [broadcastTo_a1_ab_apply _ hb p e, rowVec_apply g hc hb1 p e, rowVec_apply be hc hb1 p e]
  rfl

/-- The whole normalisation of row `p` assembled from its pieces: given the row `r`, its mean column and its
    variance column in the forms the bodies compute them, the result at (p, e) is the specification's `ln`. -/
theorem ln_of_pieces (r : Fin 1024 → EReal) (g be : Fin 1024 → EReal) (cenv : EReal) (varv : EReal) (e : Fin 1024)
    (hcen : cenv = r e - Cert.Block.mean r)
    (hvar : varv = Cert.Block.mean (fun e' => (r e' - Cert.Block.mean r) * (r e' - Cert.Block.mean r))) :
    cenv * Ideal.rsqrt (varv + Cert.Block.wEps) * g e + be e = Cert.Block.ln r g be e := by
  subst hcen hvar; rfl

end Cert.Block.Lay

end
-- ==== Proof.PayFfn.lean ====
/-
  The third kernel's store, read at a coordinate. For row p of a block of 1024 rows of h: the hidden layer is the
  positive part of (row p against the columns of the transposed first weight matrix, plus the first offset); the
  output layer is that hidden row against the columns of the transposed second weight matrix, plus the second offset;
  h's row is added; the result is layer-normalised over its 1024 features with the second gain and offset.
-/
import proofs.«175621_j3762391351596_2_alg».proof.Proof.Gen.KernelIdeal.Skeleton
import proofs.«175621_j3762391351596_2_alg».proof.Proof.PayDots
import proofs.«175621_j3762391351596_2_alg».proof.Proof.PayNorm

noncomputable section

namespace Cert.KernelIdeal.Pay

open Cert.KernelIdeal Cert.KernelIdeal.Gen Idealize.ShloMosaic Idealize.ShloMosaic.ValueIdx Cert.Block Cert.Block.Lay

/-- The residual sum h + perceptron(h) of a block, as the body builds it from its five loads. -/
def ffnResid (v0 : Vec Ideal S1024x1024 .f32) (v3 : Vec Ideal S1024x2048 .bf16) (v6 : Vec Ideal S2048 .f32)
    (v13 : Vec Ideal S2048x1024 .bf16) (v16 : Vec Ideal S1024 .f32) : FVec Ideal S1024x1024 .f32 :=
  addf (shapeCast S1024x1024 v0 shapeCasts_S1024x1024_S1024x1024 : FVec Ideal S1024x1024 .f32)
    (addf (matmul dot_S1024x2048_S2048x1024_S1024x1024_1_0_0_1_n_n none
        (truncf .bf16 (maximumf
          (addf (matmul dot_S1024x1024_S1024x2048_S1024x2048_1_0_0_1_n_n none
              (truncf .bf16 (shapeCast S1024x1024 v0 shapeCasts_S1024x1024_S1024x1024 : FVec Ideal S1024x1024 .f32) bitsLt_bf16_f32)
              (shapeCast S1024x2048 v3 shapeCasts_S1024x2048_S1024x2048 : FVec Ideal S1024x2048 .bf16) (constant S1024x2048 .f32 0x00000000#32))
            (broadcastTo S1024x2048 (shapeCast S1x2048 v6 shapeCasts_S2048_S1x2048 : FVec Ideal S1x2048 .f32) broadcasts_S1x2048_S1024x2048))
          (broadcast S1024x2048 (Scalar.ofBits (F := Ideal) .f32 0x00000000#32))) bitsLt_bf16_f32)
        (shapeCast S2048x1024 v13 shapeCasts_S2048x1024_S2048x1024 : FVec Ideal S2048x1024 .bf16) (constant S1024x1024 .f32 0x00000000#32))
      (broadcastTo S1024x1024 (shapeCast S1x1024 v16 shapeCasts_S1024_S1x1024 : FVec Ideal S1x1024 .f32) broadcasts_S1x1024_S1024x1024))

/-- Centre each row of a block and scale it by the inverse square root of its variance plus the offset word. -/
def normCore (X : FVec Ideal S1024x1024 .f32) : FVec Ideal S1024x1024 .f32 :=
  mulf (subf X (broadcastTo S1024x1024
      (divf (shapeCast S1024x1 (multiReduction .add [1] S1024 X 0x00000000#32 reduces_S1024x1024_S1024 (.inl rfl) rfl) shapeCasts_S1024_S1024x1)
        (broadcast S1024x1 (Scalar.ofBits (F := Ideal) .f32 0x44800000#32))) broadcasts_S1024x1_S1024x1024))
    (broadcastTo S1024x1024 (rsqrt (addf
      (divf (shapeCast S1024x1 (multiReduction .add [1] S1024
          (mulf (subf X (broadcastTo S1024x1024
              (divf (shapeCast S1024x1 (multiReduction .add [1] S1024 X 0x00000000#32 reduces_S1024x1024_S1024 (.inl rfl) rfl) shapeCasts_S1024_S1024x1)
                (broadcast S1024x1 (Scalar.ofBits (F := Ideal) .f32 0x44800000#32))) broadcasts_S1024x1_S1024x1024))
            (subf X (broadcastTo S1024x1024
              (divf (shapeCast S1024x1 (multiReduction .add [1] S1024 X 0x00000000#32 reduces_S1024x1024_S1024 (.inl rfl) rfl) shapeCasts_S1024_S1024x1)
                (broadcast S1024x1 (Scalar.ofBits (F := Ideal) .f32 0x44800000#32))) broadcasts_S1024x1_S1024x1024)))
          0x00000000#32 reduces_S1024x1024_S1024 (.inl rfl) rfl) shapeCasts_S1024_S1024x1)
        (broadcast S1024x1 (Scalar.ofBits (F := Ideal) .f32 0x44800000#32)))
      (broadcast S1024x1 (Scalar.ofBits (F := Ideal) .f32 0x3727C5AC#32)))) broadcasts_S1024x1_S1024x1024)

set_option maxRecDepth 65536 in
set_option maxHeartbeats 2000000 in
/-- The body's long payload is the normalisation core of the residual sum. -/
theorem pay2_eq (v0 : Vec Ideal S1024x1024 .f32) (v3 : Vec Ideal S1024x2048 .bf16) (v6 : Vec Ideal S2048 .f32)
    (v13 : Vec Ideal S2048x1024 .bf16) (v16 : Vec Ideal S1024 .f32) :
    k2_pay2 (F := Ideal) v0 v3 v6 v13 v16 = normCore (ffnResid v0 v3 v6 v13 v16) := rfl

/-- One hidden activation: the positive part of row p against column j, plus the offset. -/
def hidRow (v0 : Vec Ideal S1024x1024 .f32) (v3 : Vec Ideal S1024x2048 .bf16) (v6 : Vec Ideal S2048 .f32) (p : Fin 1024) : Fin 2048 → EReal :=
  fun j => max (∑ d : Fin 1024, v0 (ix2 p d) * v3 (ix2 d j) + v6 (ix1 j)) w0

/-- The residual sum at (p, e). -/
theorem ffnResid_apply (v0 : Vec Ideal S1024x1024 .f32) (v3 : Vec Ideal S1024x2048 .bf16) (v6 : Vec Ideal S2048 .f32)
    (v13 : Vec Ideal S2048x1024 .bf16) (v16 : Vec Ideal S1024 .f32) (p e : Fin 1024) :
    ffnResid v0 v3 v6 v13 v16 (ix2 p e)
      = v0 (ix2 p e) + (∑ j : Fin 2048, hidRow v0 v3 v6 p j * v13 (ix2 j e) + v16 (ix1 e)) := by
  unfold ffnResid
  refine congrArg₂ (· + ·) (congrFun (shapeCast_self v0 _) (ix2 p e)) ?_
  refine congrArg₂ (· + ·) ?_ (rowVec_apply v16 _ _ p e)
  refine (dot_out_apply _ _ p e).trans (Finset.sum_congr rfl fun j _ => ?_)
  refine congrArg₂ (· * ·) ?_ (congrFun (shapeCast_self v13 _) (ix2 j e))
  unfold hidRow
  refine congrArg (fun z => max z w0) ?_
  refine congrArg₂ (· + ·) ?_ (rowVec_apply v6 _ _ p j)
  refine (dot_hid_apply _ _ p j).trans (Finset.sum_congr rfl fun d _ => ?_)
  exact congrArg₂ (· * ·) (congrFun (shapeCast_self v0 _) (ix2 p d)) (congrFun (shapeCast_self v3 _) (ix2 d j))

/-- The normalisation core at (p, e): the centred entry times the inverse deviation of its row. -/
theorem normCore_apply (X : FVec Ideal S1024x1024 .f32) (p e : Fin 1024) :
    normCore X (ix2 p e)
      = (X (ix2 p e) - mean (fun e' => X (ix2 p e')))
        * Ideal.rsqrt (mean (fun e' => (X (ix2 p e') - mean (fun e'' => X (ix2 p e''))) * (X (ix2 p e') - mean (fun e'' => X (ix2 p e'')))) + wEps) := by
  unfold normCore
  have hmu : ∀ u : Fin 1, divf (shapeCast S1024x1 (multiReduction .add [1] S1024 X 0x00000000#32 reduces_S1024x1024_S1024 (.inl rfl) rfl) shapeCasts_S1024_S1024x1)
        (broadcast S1024x1 (Scalar.ofBits (F := Ideal) .f32 0x44800000#32)) (ix2 p u) = mean (fun e' => X (ix2 p e')) :=
    fun u => meanCol_apply X _ _ _ _ p u
  have hcen : ∀ e' : Fin 1024, subf X (broadcastTo S1024x1024
        (divf (shapeCast S1024x1 (multiReduction .add [1] S1024 X 0x00000000#32 reduces_S1024x1024_S1024 (.inl rfl) rfl) shapeCasts_S1024_S1024x1)
          (broadcast S1024x1 (Scalar.ofBits (F := Ideal) .f32 0x44800000#32))) broadcasts_S1024x1_S1024x1024) (ix2 p e')
        = X (ix2 p e') - mean (fun e'' => X (ix2 p e'')) :=
    fun e' => (subCol_apply X _ _ p e').trans (congrArg (fun z => X (ix2 p e') - z) (hmu 0))
  refine congrArg₂ (· * ·) (hcen e) ?_
  refine (broadcastTo_a1_ab_apply _ _ p e).trans ?_
  show Ideal.rsqrt (_ + wEps) = _
  refine congrArg (fun z => Ideal.rsqrt (z + wEps)) ?_
  refine (meanCol_apply _ _ _ _ _ p 0).trans (congrArg mean (funext fun e' => ?_))
  exact congrArg₂ (· * ·) (hcen e') (hcen e')

/-- The stored block at (p, e): the layer normalisation of row p of the residual sum. -/
theorem ffn_store_apply (v0 : Vec Ideal S1024x1024 .f32) (v3 : Vec Ideal S1024x2048 .bf16) (v6 : Vec Ideal S2048 .f32)
    (v13 : Vec Ideal S2048x1024 .bf16) (v16 v39 v43 : Vec Ideal S1024 .f32) (p e : Fin 1024) :
    k2_pay1 (F := Ideal) (k2_pay2 v0 v3 v6 v13 v16) (k2_pay3 v39) v43 (ix2 p e)
      = ln (fun e' => v0 (ix2 p e') + (∑ j : Fin 2048, hidRow v0 v3 v6 p j * v13 (ix2 j e') + v16 (ix1 e')))
          (fun e' => v39 (ix1 e')) (fun e' => v43 (ix1 e')) e := by
  unfold k2_pay1 k2_pay3
  dsimp only
  show k2_pay2 (F := Ideal) v0 v3 v6 v13 v16 (ix2 p e) * (broadcastTo S1024x1024 (shapeCast S1x1024 v39 shapeCasts_S1024_S1x1024) broadcasts_S1x1024_S1024x1024) (ix2 p e)
      + (broadcastTo S1024x1024 (shapeCast S1x1024 v43 shapeCasts_S1024_S1x1024) broadcasts_S1x1024_S1024x1024) (ix2 p e) = _
  rw [rowVec_apply v39 _ _ p e, rowVec_apply v43 _ _ p e, pay2_eq, normCore_apply]
  have hrow : (fun e' => ffnResid v0 v3 v6 v13 v16 (ix2 p e'))
      = fun e' => v0 (ix2 p e') + (∑ j : Fin 2048, hidRow v0 v3 v6 p j * v13 (ix2 j e') + v16 (ix1 e')) :=
    funext fun e' => ffnResid_apply v0 v3 v6 v13 v16 p e'
  rw [← hrow]
  rfl

end Cert.KernelIdeal.Pay

end
-- ==== Proof.ValFfn.lean ====
/-
  What the third region leaves in its output array, index by index.

  The region runs over 16 points; at point t the body sees rows 1024 t … 1024 t + 1023 of h and the six parameter arrays
  whole, and stores a block of 1024 rows: each row through the two-layer perceptron, added back, and normalised over its
  1024 features. Entry (p, e) of the stored block is that row function of row 1024 t + p at feature e, so the block
  written back at point t is block t of one function of the seven arrays, and since the 16 blocks tile the 16384 rows
  the output array ends as that function.
-/
import proofs.«175621_j3762391351596_2_alg».proof.Proof.FrDefsI
import proofs.«175621_j3762391351596_2_alg».proof.Proof.PayFfn
import proofs.«175621_j3762391351596_2_alg».proof.Proof.ValSpec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem ffn_zero2 : (![0, 0] : Fin 2 → Nat) = fun _ => 0 := funext fun a => by fin_cases a <;> rfl
theorem ffn_zero1 : (![0] : Fin 1 → Nat) = fun _ => 0 := funext fun a => by fin_cases a; rfl

/-- The block indices of the eight windows at a point. -/
structure FfnIdx (t : Fin cfg2.N) : Prop where
  w0 : win2_0.index t (0 : Fin 2) = t.val ∧ win2_0.index t (1 : Fin 2) = 0
  w1 : win2_1.index t (0 : Fin 2) = 0 ∧ win2_1.index t (1 : Fin 2) = 0
  w2 : win2_2.index t (0 : Fin 1) = 0
  w3 : win2_3.index t (0 : Fin 2) = 0 ∧ win2_3.index t (1 : Fin 2) = 0
  w4 : win2_4.index t (0 : Fin 1) = 0
  w5 : win2_5.index t (0 : Fin 1) = 0
  w6 : win2_6.index t (0 : Fin 1) = 0
  w7 : win2_7.index t (0 : Fin 2) = t.val ∧ win2_7.index t (1 : Fin 2) = 0

/-- Decided over the sixteen points: the two row-tiled windows are at block (t, 0), every other window at block zero. -/
theorem ffn_idx_all : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ win2_2.index t (0 : Fin 1) = 0
    ∧ (win2_3.index t (0 : Fin 2) = 0 ∧ win2_3.index t (1 : Fin 2) = 0)
    ∧ win2_4.index t (0 : Fin 1) = 0
    ∧ win2_5.index t (0 : Fin 1) = 0
    ∧ win2_6.index t (0 : Fin 1) = 0
    ∧ (win2_7.index t (0 : Fin 2) = t.val ∧ win2_7.index t (1 : Fin 2) = 0) :=
  (by decide +kernel : ∀ t : Fin grid2.N, _)

theorem ffn_idx (t : Fin cfg2.N) : FfnIdx t := by
  obtain ⟨h0, h1, h2, h3, h4, h5, h6, h7⟩ := ffn_idx_all t
  exact ⟨h0, h1, h2, h3, h4, h5, h6, h7⟩

/-- The row window's block at point t is rows 1024 t … 1024 t + 1023 of h. -/
theorem iblk2_0_apply (c : Dev nD) (t : Fin cfg2.N) (p : Fin 1024) (d : Fin 1024) (k : S16384x1024.Idx)
    (hk0 : (k 0).val = 1024 * t.val + p.val) (hk1 : (k 1).val = d.val) :
    (iblk2 V c 0 t : Vec Ideal S1024x1024 .f32) (ix2 p d) = (V c main_v15 : S16384x1024.Idx → EReal) k := by
  have ei := ffn_idx t
  unfold iblk2
  rw [View.read_apply]
  show V c main_v15 _ = V c main_v15 _
  congr 1
  funext a
  apply Fin.ext
  match a with
  | ⟨0, _⟩ => show win2_0.index t 0 * 1024 + 1 * p.val = (k 0).val; rw [ei.w0.1, hk0]; omega
  | ⟨1, _⟩ => show win2_0.index t 1 * 1024 + 1 * d.val = (k 1).val; rw [ei.w0.2, hk1]; omega

/-- Window 1's block at every point is its whole array. -/
theorem iblk2_1_apply (c : Dev nD) (t : Fin cfg2.N) (a0 : Fin 1024) (a1 : Fin 2048) :
    (iblk2 V c 1 t : Vec Ideal S1024x2048 .bf16) (ix2 a0 a1) = (V c main_v12 : S1024x2048.Idx → EReal) (ix2 a0 a1) := by
  have ei := ffn_idx t
  unfold iblk2
  rw [View.read_apply]
  show V c main_v12 _ = V c main_v12 _
  congr 1
  funext a
  apply Fin.ext
  match a with
  | ⟨0, _⟩ => show win2_1.index t 0 * 1024 + 1 * a0.val = a0.val; rw [ei.w1.1]; omega
  | ⟨1, _⟩ => show win2_1.index t 1 * 2048 + 1 * a1.val = a1.val; rw [ei.w1.2]; omega

/-- Window 2's block at every point is its whole array. -/
theorem iblk2_2_apply (c : Dev nD) (t : Fin cfg2.N) (a0 : Fin 2048) :
    (iblk2 V c 2 t : Vec Ideal S2048 .f32) (ix1 a0) = (V c main_arg5 : S2048.Idx → EReal) (ix1 a0) := by
  have ei := ffn_idx t
  unfold iblk2
  rw [View.read_apply]
  show V c main_arg5 _ = V c main_arg5 _
  congr 1
  funext a
  apply Fin.ext
  match a with
  | ⟨0, _⟩ => show win2_2.index t 0 * 2048 + 1 * a0.val = a0.val; rw [ei.w2]; omega

/-- Window 3's block at every point is its whole array. -/
theorem iblk2_3_apply (c : Dev nD) (t : Fin cfg2.N) (a0 : Fin 2048) (a1 : Fin 1024) :
    (iblk2 V c 3 t : Vec Ideal S2048x1024 .bf16) (ix2 a0 a1) = (V c main_v14 : S2048x1024.Idx → EReal) (ix2 a0 a1) := by
  have ei := ffn_idx t
  unfold iblk2
  rw [View.read_apply]
  show V c main_v14 _ = V c main_v14 _
  congr 1
  funext a
  apply Fin.ext
  match a with
  | ⟨0, _⟩ => show win2_3.index t 0 * 2048 + 1 * a0.val = a0.val; rw [ei.w3.1]; omega
  | ⟨1, _⟩ => show win2_3.index t 1 * 1024 + 1 * a1.val = a1.val; rw [ei.w3.2]; omega

/-- Window 4's block at every point is its whole array. -/
theorem iblk2_4_apply (c : Dev nD) (t : Fin cfg2.N) (a0 : Fin 1024) :
    (iblk2 V c 4 t : Vec Ideal S1024 .f32) (ix1 a0) = (V c main_arg7 : S1024.Idx → EReal) (ix1 a0) := by
  have ei := ffn_idx t
  unfold iblk2
  rw [View.read_apply]
  show V c main_arg7 _ = V c main_arg7 _
  congr 1
  funext a
  apply Fin.ext
  match a with
  | ⟨0, _⟩ => show win2_4.index t 0 * 1024 + 1 * a0.val = a0.val; rw [ei.w4]; omega

/-- Window 5's block at every point is its whole array. -/
theorem iblk2_5_apply (c : Dev nD) (t : Fin cfg2.N) (a0 : Fin 1024) :
    (iblk2 V c 5 t : Vec Ideal S1024 .f32) (ix1 a0) = (V c main_arg10 : S1024.Idx → EReal) (ix1 a0) := by
  have ei := ffn_idx t
  unfold iblk2
  rw [View.read_apply]
  show V c main_arg10 _ = V c main_arg10 _
  congr 1
  funext a
  apply Fin.ext
  match a with
  | ⟨0, _⟩ => show win2_5.index t 0 * 1024 + 1 * a0.val = a0.val; rw [ei.w5]; omega

/-- Window 6's block at every point is its whole array. -/
theorem iblk2_6_apply (c : Dev nD) (t : Fin cfg2.N) (a0 : Fin 1024) :
    (iblk2 V c 6 t : Vec Ideal S1024 .f32) (ix1 a0) = (V c main_arg11 : S1024.Idx → EReal) (ix1 a0) := by
  have ei := ffn_idx t
  unfold iblk2
  rw [View.read_apply]
  show V c main_arg11 _ = V c main_arg11 _
  congr 1
  funext a
  apply Fin.ext
  match a with
  | ⟨0, _⟩ => show win2_6.index t 0 * 1024 + 1 * a0.val = a0.val; rw [ei.w6]; omega

/-- The stored block at a local index is the row function at the global index, once the body's seven loads are rows
    r … r + 1023 of h and the six whole parameter arrays. -/
theorem pay2_7_at (v0 : Vec Ideal S1024x1024 .f32) (v3 : Vec Ideal S1024x2048 .bf16) (v6 : Vec Ideal S2048 .f32)
    (v13 : Vec Ideal S2048x1024 .bf16) (v16 v39 v43 : Vec Ideal S1024 .f32)
    (H : S16384x1024.Idx → EReal) (W1t : S1024x2048.Idx → EReal) (b1 : S2048.Idx → EReal) (W2t : S2048x1024.Idx → EReal)
    (b2 g be : S1024.Idx → EReal) (r : Nat)
    (hx : ∀ (p d : Fin 1024) (k : S16384x1024.Idx), (k 0).val = r + p.val → (k 1).val = d.val → v0 (ix2 p d) = H k)
    (h1 : ∀ (d : Fin 1024) (j : Fin 2048), v3 (ix2 d j) = W1t (ix2 d j))
    (h2 : ∀ j : Fin 2048, v6 (ix1 j) = b1 (ix1 j))
    (h3 : ∀ (j : Fin 2048) (e : Fin 1024), v13 (ix2 j e) = W2t (ix2 j e))
    (h4 : ∀ e : Fin 1024, v16 (ix1 e) = b2 (ix1 e))
    (h5 : ∀ e : Fin 1024, v39 (ix1 e) = g (ix1 e))
    (h6 : ∀ e : Fin 1024, v43 (ix1 e) = be (ix1 e))
    (j : S1024x1024.Idx) (i : S16384x1024.Idx) (hi0 : (i 0).val = r + (j 0).val) (hi1 : (i 1).val = (j 1).val) :
    k2_pay1 (F := Ideal) (k2_pay2 v0 v3 v6 v13 v16) (k2_pay3 v39) v43 j = Gffn H W1t b1 W2t b2 g be i := by
  obtain ⟨p, e, rfl⟩ : ∃ (p e : Fin 1024), j = ix2 p e := ⟨j 0, j 1, eq_ix2 j⟩
  rw [Cert.KernelIdeal.Pay.ffn_store_apply]
  unfold Gffn
  have hv0 : ∀ d : Fin 1024, v0 (ix2 p d) = H (ix2 (⟨(i 0).val, (i 0).isLt⟩ : Fin 16384) d) :=
    fun d => hx p d (ix2 (⟨(i 0).val, (i 0).isLt⟩ : Fin 16384) d) hi0 rfl
  have hrow : (fun e' : Fin 1024 => v0 (ix2 p e') + (∑ j : Fin 2048, Cert.KernelIdeal.Pay.hidRow v0 v3 v6 p j * v13 (ix2 j e') + v16 (ix1 e')))
      = fun e' : Fin 1024 => H (ix2 (⟨(i 0).val, (i 0).isLt⟩ : Fin 16384) e')
        + (∑ j : Fin 2048, max (∑ d : Fin 1024, H (ix2 (⟨(i 0).val, (i 0).isLt⟩ : Fin 16384) d) * W1t (ix2 d j) + b1 (ix1 j)) Cert.Block.w0
              * W2t (ix2 j e') + b2 (ix1 e')) := by
    funext e'
    unfold Cert.KernelIdeal.Pay.hidRow
    simp only [hv0, h1, h2, h3, h4]
  have hg : (fun e' : Fin 1024 => v39 (ix1 e')) = fun e' => g (ix1 e') := funext h5
  have hb : (fun e' : Fin 1024 => v43 (ix1 e')) = fun e' => be (ix1 e') := funext h6
  rw [hrow, hg, hb]
  exact congrArg (Cert.Block.ln _ _ _) (Fin.ext hi1.symm)

/-- What point t writes back is block t of the row function of the arrays the region finds. -/
theorem flushed2_7 (c : Dev nD) (t : Fin cfg2.N) :
    (dat2 V c).flushed 7 t
      = ((cfg2.win 7).blk t).view.read (Elt Ideal)
          (Gffn (V c main_v15) (V c main_v12) (V c main_arg5) (V c main_v14) (V c main_arg7) (V c main_arg10) (V c main_arg11)) := by
  show (cfg2.win 7).cut (grid2.coords t) ((dat2 V c).after 7 t) = _
  rw [after2_7]
  unfold out2_7
  rw [View.canon_unit_zero ffn_zero2]
  simp only [View.ld_unit_zero (S := S1024x1024) ffn_zero2, View.ld_unit_zero (S := S1024x2048) ffn_zero2,
    View.ld_unit_zero (S := S2048x1024) ffn_zero2, View.ld_unit_zero (S := S2048) ffn_zero1,
    View.ld_unit_zero (S := S1024) ffn_zero1]
  have ei := ffn_idx t
  funext j
  refine pay2_7_at (iblk2 V c 0 t) (iblk2 V c 1 t) (iblk2 V c 2 t) (iblk2 V c 3 t) (iblk2 V c 4 t) (iblk2 V c 5 t) (iblk2 V c 6 t)
    (V c main_v15) (V c main_v12) (V c main_arg5) (V c main_v14) (V c main_arg7) (V c main_arg10) (V c main_arg11) (1024 * t.val)
    (fun p d k h0 h1 => iblk2_0_apply V c t p d k h0 h1) (fun d j => iblk2_1_apply V c t d j) (fun j => iblk2_2_apply V c t j)
    (fun j e => iblk2_3_apply V c t j e) (fun e => iblk2_4_apply V c t e) (fun e => iblk2_5_apply V c t e)
    (fun e => iblk2_6_apply V c t e) j _ ?_ ?_
  · show win2_7.index t (0 : Fin 2) * 1024 + 1 * (j 0).val = 1024 * t.val + (j 0).val
    rw [ei.w7.1]; omega
  · show win2_7.index t (1 : Fin 2) * 1024 + 1 * (j 1).val = (j 1).val
    rw [ei.w7.2]; omega

/-- Every index of the output lies in the block of the point its row falls in. -/
theorem cover2_7_all (i : S16384x1024.Idx) :
    ∃ t : Fin cfg2.N, (cfg2.win 7).flush t = true ∧ i ∈ ((cfg2.win 7).blk t).view.set := by
  have h0 : (i 0).val < 16384 := (i 0).isLt
  have h1 : (i 1).val < 1024 := (i 1).isLt
  let t : Fin cfg2.N := ⟨(i 0).val / 1024, by rw [show cfg2.N = 16 from N_2]; omega⟩
  have ei := ffn_idx t
  refine ⟨t, flush2_7 t, ?_⟩
  show i ∈ ((View.whole main_v16).slice (win2_7.rect t)).set
  rw [View.set_slice_whole, Rect.mem_set_unit]
  intro a
  match a with
  | ⟨0, _⟩ =>
    show win2_7.index t (0 : Fin 2) * 1024 ≤ (i 0).val ∧ (i 0).val < win2_7.index t (0 : Fin 2) * 1024 + 1024
    rw [ei.w7.1]
    show (i 0).val / 1024 * 1024 ≤ (i 0).val ∧ (i 0).val < (i 0).val / 1024 * 1024 + 1024
    omega
  | ⟨1, _⟩ =>
    show win2_7.index t (1 : Fin 2) * 1024 ≤ (i 1).val ∧ (i 1).val < win2_7.index t (1 : Fin 2) * 1024 + 1024
    rw [ei.w7.2]
    omega

/-- The output array ends as the row function of the arrays the region finds. -/
theorem final2_7 (c : Dev nD) :
    (dat2 V c).arrAt 7 cfg2.N
      = Gffn (V c main_v15) (V c main_v12) (V c main_arg5) (V c main_v14) (V c main_arg7) (V c main_arg10) (V c main_arg11) :=
  (dat2 V c).arrAt_eq_of_cover 7
    (Gffn (V c main_v15) (V c main_v12) (V c main_arg5) (V c main_v14) (V c main_arg7) (V c main_arg10) (V c main_arg11))
    (fun t _ => flushed2_7 V c t) cover2_7_all

end Cert.KernelIdeal.Val

end
-- ==== Proof.PayAttn.lean ====
/-
  The second kernel's store, read at a coordinate. For row p of a block of 512 query rows (within one batch):
  the scores of row p against all 2048 key rows are inner products scaled by 1/32; they are shifted by their
  maximum and exponentiated; the value rows are summed with those weights and the sum divided by the total
  weight; x's row is added; the result is layer-normalised over its 1024 features.
-/
import proofs.«175621_j3762391351596_2_alg».proof.Proof.Gen.KernelIdeal.Skeleton
import proofs.«175621_j3762391351596_2_alg».proof.Proof.PayDots
import proofs.«175621_j3762391351596_2_alg».proof.Proof.PayNorm

noncomputable section

namespace Cert.KernelIdeal.Pay

open Cert.KernelIdeal Cert.KernelIdeal.Gen Idealize.ShloMosaic Idealize.ShloMosaic.ValueIdx Cert.Block Cert.Block.Lay

/-- One row's attention output at feature `e`, from the row's scaled scores `r` and column `e` of the value rows. -/
def attnRow (r : Fin 2048 → EReal) (vc : Fin 2048 → EReal) : EReal :=
  Ideal.div (∑ j : Fin 2048, pexp r j * vc j) (∑ j : Fin 2048, pexp r j)

/-- The scaled scores of row p of the query block against key row j. -/
def scoreRow (l1 : Vec Ideal S1x512x1024 .bf16) (l2 : Vec Ideal S1x2048x1024 .bf16) (p : Fin 512) : Fin 2048 → EReal :=
  fun j => (∑ d : Fin 1024, l1 (ix3 (0 : Fin 1) p d) * l2 (ix3 (0 : Fin 1) j d)) * wInv32

/-- Scores shifted by the row maximum and exponentiated, as the body computes them from the scaled scores `s`. -/
theorem weights_apply (s : FVec Ideal S512x2048 .f32) (p : Fin 512) (j : Fin 2048) :
    exp (subf s (broadcastTo S512x2048 (shapeCast S512x1
        (multiReduction .maximumf [1] S512 s 0xFF800000#32 reduces_S512x2048_S512 (.inl rfl) rfl) shapeCasts_S512_S512x1)
        broadcasts_S512x1_S512x2048)) (ix2 p j)
      = pexp (fun j' => s (ix2 p j')) j := by
  show Ideal.exp (s (ix2 p j) - _) = Ideal.exp (s (ix2 p j) - rowmax (fun j' => s (ix2 p j')))
  refine congrArg (fun z => Ideal.exp (s (ix2 p j) - z)) ?_
  exact (broadcastTo_a1_ab_apply _ _ p j).trans ((shapeCast_a_a1_apply _ _ p (0 : Fin 1)).trans (rowmax_apply s _ _ _ p))

/-- The residual sum x + attention at (p, e). -/
theorem resid_apply (l0 : Vec Ideal S1x512x1024 .f32) (l1 : Vec Ideal S1x512x1024 .bf16) (l2 l3 : Vec Ideal S1x2048x1024 .bf16)
    (p : Fin 512) (e : Fin 1024) :
    k1_pay2 (F := Ideal) l0 l1 l2 l3 (ix2 p e)
      = l0 (ix3 (0 : Fin 1) p e) + attnRow (scoreRow l1 l2 p) (fun j => l3 (ix3 (0 : Fin 1) j e)) := by
  unfold k1_pay2
  dsimp only
  refine congrArg₂ (· + ·) (shapeCast_1ab_ab_apply l0 _ p e) ?_
  -- the quotient: numerator a weighted sum of value rows, denominator the total weight
  have hs : ∀ j : Fin 2048,
      mulf (matmul dot_S512x1024_S2048x1024_S512x2048_1_1_0_0_n_n none
          (shapeCast S512x1024 l1 shapeCasts_S1x512x1024_S512x1024) (shapeCast S2048x1024 l2 shapeCasts_S1x2048x1024_S2048x1024)
          (constant S512x2048 .f32 0x00000000#32))
        (broadcast S512x2048 (Scalar.ofBits (F := Ideal) .f32 0x3D000000#32)) (ix2 p j) = scoreRow l1 l2 p j := fun j =>
    congrArg (· * wInv32) ((dot_qk_apply _ _ p j).trans (Finset.sum_congr rfl fun d _ =>
      congrArg₂ (· * ·) (shapeCast_1ab_ab_apply l1 _ p d) (shapeCast_1ab_ab_apply l2 _ j d)))
  unfold attnRow
  refine congrArg₂ Ideal.div ?_ ?_
  · refine (dot_pv_apply _ _ p e).trans (Finset.sum_congr rfl fun j _ => ?_)
    refine congrArg₂ (· * ·) ((weights_apply _ p j).trans (congrArg (fun r => pexp r j) (funext hs))) (shapeCast_1ab_ab_apply l3 _ j e)
  · refine (broadcastTo_a1_ab_apply _ _ p e).trans ((shapeCast_a_a1_apply _ _ p (0 : Fin 1)).trans ((rowsum_apply _ _ _ _ p).trans ?_))
    exact Finset.sum_congr rfl fun j _ => (weights_apply _ p j).trans (congrArg (fun r => pexp r j) (funext hs))

/-- The row mean of the residual sum, as a column entry. -/
theorem mean1_apply (l0 : Vec Ideal S1x512x1024 .f32) (l1 : Vec Ideal S1x512x1024 .bf16) (l2 l3 : Vec Ideal S1x2048x1024 .bf16)
    (p : Fin 512) (u : Fin 1) :
    k1_pay3 (F := Ideal) l0 l1 l2 l3 (ix2 p u) = mean (fun e => k1_pay2 (F := Ideal) l0 l1 l2 l3 (ix2 p e)) := by
  unfold k1_pay3
  exact meanCol_apply (k1_pay2 l0 l1 l2 l3) _ _ _ _ p u

/-- The centred residual sum at (p, e). -/
theorem cen1_apply (l0 : Vec Ideal S1x512x1024 .f32) (l1 : Vec Ideal S1x512x1024 .bf16) (l2 l3 : Vec Ideal S1x2048x1024 .bf16)
    (p : Fin 512) (e : Fin 1024) :
    k1_pay5 (F := Ideal) l0 l1 l2 l3 (ix2 p e)
      = k1_pay2 (F := Ideal) l0 l1 l2 l3 (ix2 p e) - mean (fun e' => k1_pay2 (F := Ideal) l0 l1 l2 l3 (ix2 p e')) := by
  unfold k1_pay5
  exact (subCol_apply (k1_pay2 l0 l1 l2 l3) (k1_pay3 l0 l1 l2 l3) _ p e).trans
    (congrArg (fun z => k1_pay2 (F := Ideal) l0 l1 l2 l3 (ix2 p e) - z) (mean1_apply l0 l1 l2 l3 p 0))

/-- The row variance of the residual sum, as a column entry. -/
theorem var1_apply (l0 : Vec Ideal S1x512x1024 .f32) (l1 : Vec Ideal S1x512x1024 .bf16) (l2 l3 : Vec Ideal S1x2048x1024 .bf16)
    (p : Fin 512) (u : Fin 1) :
    k1_pay4 (F := Ideal) l0 l1 l2 l3 (ix2 p u)
      = mean (fun e => (k1_pay2 (F := Ideal) l0 l1 l2 l3 (ix2 p e) - mean (fun e' => k1_pay2 (F := Ideal) l0 l1 l2 l3 (ix2 p e')))
          * (k1_pay2 (F := Ideal) l0 l1 l2 l3 (ix2 p e) - mean (fun e' => k1_pay2 (F := Ideal) l0 l1 l2 l3 (ix2 p e')))) := by
  unfold k1_pay4
  refine (meanCol_apply _ _ _ _ _ p u).trans (congrArg mean (funext fun e => ?_))
  have h := (subCol_apply (k1_pay2 l0 l1 l2 l3) (k1_pay3 l0 l1 l2 l3) broadcasts_S512x1_S512x1024 p e).trans
    (congrArg (fun z => k1_pay2 (F := Ideal) l0 l1 l2 l3 (ix2 p e) - z) (mean1_apply l0 l1 l2 l3 p 0))
  exact congrArg₂ (· * ·) h h

/-- The stored block at (0, p, e): the layer normalisation of row p of the residual sum. -/
theorem attn_store_apply (l0 : Vec Ideal S1x512x1024 .f32) (l1 : Vec Ideal S1x512x1024 .bf16) (l2 l3 : Vec Ideal S1x2048x1024 .bf16)
    (l4 l5 : Vec Ideal S1024 .f32) (u : Fin 1) (p : Fin 512) (e : Fin 1024) :
    k1_pay1 (F := Ideal) (k1_pay4 l0 l1 l2 l3) (k1_pay5 l0 l1 l2 l3) (Scalar.ofBits (F := Ideal) .f32 0x3727C5AC#32) l4 l5 (ix3 u p e)
      = ln (fun e' => l0 (ix3 (0 : Fin 1) p e') + attnRow (scoreRow l1 l2 p) (fun j => l3 (ix3 (0 : Fin 1) j e')))
          (fun e' => l4 (ix1 e')) (fun e' => l5 (ix1 e')) e := by
  unfold k1_pay1
  refine (shapeCast_ab_1ab_apply _ _ u p e).trans ?_
  refine (scaleShift_apply (k1_pay5 l0 l1 l2 l3) (k1_pay4 l0 l1 l2 l3) _ l4 l5 _ _ _ p e).trans ?_
  have hrow : (fun e' => k1_pay2 (F := Ideal) l0 l1 l2 l3 (ix2 p e'))
      = fun e' => l0 (ix3 (0 : Fin 1) p e') + attnRow (scoreRow l1 l2 p) (fun j => l3 (ix3 (0 : Fin 1) j e')) :=
    funext fun e' => resid_apply l0 l1 l2 l3 p e'
  rw [← hrow]
  exact ln_of_pieces (fun e' => k1_pay2 (F := Ideal) l0 l1 l2 l3 (ix2 p e')) (fun e' => l4 (ix1 e')) (fun e' => l5 (ix1 e'))
    (k1_pay5 (F := Ideal) l0 l1 l2 l3 (ix2 p e)) (k1_pay4 (F := Ideal) l0 l1 l2 l3 (ix2 p (0 : Fin 1))) e
    (cen1_apply l0 l1 l2 l3 p e) (var1_apply l0 l1 l2 l3 p 0)

end Cert.KernelIdeal.Pay

end
-- ==== Proof.ValAttn.lean ====
/-
  The second region's output array as one function of the arrays the region finds on entry.

  The region's grid is 8 batches by 4 query tiles; grid point t is batch t / 4, tile t % 4. The windows on x, on the
  queries and on the output cut the 512 rows 512·(t % 4) … of batch t / 4; the windows on the keys and on the values
  cut the whole batch; the gain and offset vectors are whole. So what point t writes back is, at local row p, the
  normalised residual row of global position s = 512·(t % 4) + p of batch b = t / 4: a function of x's row (b, s), the
  query row (b, s), and all key and value rows of batch b. The 32 blocks tile the output array, so after the last
  point the array is that function everywhere.
-/
import proofs.«175621_j3762391351596_2_alg».proof.Proof.FrDefsI
import proofs.«175621_j3762391351596_2_alg».proof.Proof.PayAttn
import Idealize.ShloMosaic.Lib.Pipeline.Value

set_option maxRecDepth 16384

noncomputable section

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)
open Cert.Block

variable (V : (c : Dev nD) → (b : Ref sig .tc) → Buf (Elt Ideal) ((c : Thread nD τ).loc b))

/-- Row (b, s) of the region's result, at feature e. -/
def attnLnRow (X Q K Vv : S8x2048x1024.Idx → EReal) (g be : S1024.Idx → EReal) (b : Fin 8) (s : Fin 2048) (e : Fin 1024) : EReal :=
  ln (fun e' => X (ix3 b s e')
        + attnRow (fun j => (∑ d : Fin 1024, Q (ix3 b s d) * K (ix3 b j d)) * wInv32) (fun j => Vv (ix3 b j e')))
    (fun e' => g (ix1 e')) (fun e' => be (ix1 e')) e

/-- The region's result array. -/
def Gattn (X Q K Vv : S8x2048x1024.Idx → EReal) (g be : S1024.Idx → EReal) : S8x2048x1024.Idx → EReal :=
  fun i => attnLnRow X Q K Vv g be (⟨(i 0).val, (i 0).isLt⟩ : Fin 8) (⟨(i 1).val, (i 1).isLt⟩ : Fin 2048) (⟨(i 2).val, (i 2).isLt⟩ : Fin 1024)

/-- The body's store at local (u, p, e), when its six loaded blocks are the rows named above of the six arrays. -/
theorem attn_point (l0 : Vec Ideal S1x512x1024 .f32) (l1 : Vec Ideal S1x512x1024 .bf16) (l2 l3 : Vec Ideal S1x2048x1024 .bf16)
    (l4 l5 : Vec Ideal S1024 .f32) (X Q K Vv : S8x2048x1024.Idx → EReal) (g be : S1024.Idx → EReal)
    (u : Fin 1) (p : Fin 512) (e : Fin 1024) (b : Fin 8) (s : Fin 2048)
    (h0 : ∀ e' : Fin 1024, l0 (ix3 (0 : Fin 1) p e') = X (ix3 b s e'))
    (h1 : ∀ d : Fin 1024, l1 (ix3 (0 : Fin 1) p d) = Q (ix3 b s d))
    (h2 : ∀ (j : Fin 2048) (d : Fin 1024), l2 (ix3 (0 : Fin 1) j d) = K (ix3 b j d))
    (h3 : ∀ (j : Fin 2048) (e' : Fin 1024), l3 (ix3 (0 : Fin 1) j e') = Vv (ix3 b j e'))
    (h4 : ∀ e' : Fin 1024, l4 (ix1 e') = g (ix1 e')) (h5 : ∀ e' : Fin 1024, l5 (ix1 e') = be (ix1 e')) :
    k1_pay1 (F := Ideal) (k1_pay4 l0 l1 l2 l3) (k1_pay5 l0 l1 l2 l3) (Scalar.ofBits (F := Ideal) .f32 0x3727C5AC#32) l4 l5 (ix3 u p e)
      = attnLnRow X Q K Vv g be b s e := by
  refine (attn_store_apply l0 l1 l2 l3 l4 l5 u p e).trans ?_
  unfold attnLnRow
  have hsc : scoreRow l1 l2 p = fun j => (∑ d : Fin 1024, Q (ix3 b s d) * K (ix3 b j d)) * wInv32 :=
    funext fun j => congrArg (· * wInv32) (Finset.sum_congr rfl fun d _ => congrArg₂ (· * ·) (h1 d) (h2 j d))
  rw [hsc]
  congr 1
  · funext e'
    rw [h0 e']
    congr 2
    funext j
    exact h3 j e'
  · funext e'; exact h4 e'
  · funext e'; exact h5 e'

/-! ## The index maps, decided once over the grid -/

theorem idx1 : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = 0 ∧ win1_3.index t (2 : Fin 3) = 0
    ∧ win1_4.index t (0 : Fin 1) = 0 ∧ win1_5.index t (0 : Fin 1) = 0
    ∧ win1_6.index t (0 : Fin 3) = t.val / 4 ∧ win1_6.index t (1 : Fin 3) = t.val % 4 ∧ win1_6.index t (2 : Fin 3) = 0 :=
  (by decide +kernel : ∀ t : Fin grid1.N, _)

theorem N1 : cfg1.N = 32 := N_1

/-! ## Each input window's block at a local index is its array at the global index -/

theorem iblk1_0_apply (c : Dev nD) (t : Fin cfg1.N) (p : Fin 512) (e : Fin 1024) (b : Fin 8) (s : Fin 2048)
    (hb : b.val = t.val / 4) (hs : s.val = 512 * (t.val % 4) + p.val) :
    (iblk1 V c 0 t : Vec Ideal S1x512x1024 .f32) (ix3 (0 : Fin 1) p e) = (V c main_arg0 : S8x2048x1024.Idx → EReal) (ix3 b s e) := by
  obtain ⟨e0, e1, e2, -⟩ := idx1 t
  unfold iblk1
  rw [View.read_apply]
  show V c main_arg0 _ = V c main_arg0 _
  congr 1
  funext a
  apply Fin.ext
  match a with
  | ⟨0, _⟩ => show win1_0.index t (0 : Fin 3) * 1 + 1 * 0 = b.val; rw [e0, hb]; omega
  | ⟨1, _⟩ => show win1_0.index t (1 : Fin 3) * 512 + 1 * p.val = s.val; rw [e1, hs]; omega
  | ⟨2, _⟩ => show win1_0.index t (2 : Fin 3) * 1024 + 1 * e.val = e.val; rw [e2]; omega

theorem iblk1_1_apply (c : Dev nD) (t : Fin cfg1.N) (p : Fin 512) (e : Fin 1024) (b : Fin 8) (s : Fin 2048)
    (hb : b.val = t.val / 4) (hs : s.val = 512 * (t.val % 4) + p.val) :
    (iblk1 V c 1 t : Vec Ideal S1x512x1024 .bf16) (ix3 (0 : Fin 1) p e) = (V c main_v7 : S8x2048x1024.Idx → EReal) (ix3 b s e) := by
  obtain ⟨-, -, -, e0, e1, e2, -⟩ := idx1 t
  unfold iblk1
  rw [View.read_apply]
  show V c main_v7 _ = V c main_v7 _
  congr 1
  funext a
  apply Fin.ext
  match a with
  | ⟨0, _⟩ => show win1_1.index t (0 : Fin 3) * 1 + 1 * 0 = b.val; rw [e0, hb]; omega
  | ⟨1, _⟩ => show win1_1.index t (1 : Fin 3) * 512 + 1 * p.val = s.val; rw [e1, hs]; omega
  | ⟨2, _⟩ => show win1_1.index t (2 : Fin 3) * 1024 + 1 * e.val = e.val; rw [e2]; omega

theorem iblk1_2_apply (c : Dev nD) (t : Fin cfg1.N) (j : Fin 2048) (d : Fin 1024) (b : Fin 8) (hb : b.val = t.val / 4) :
    (iblk1 V c 2 t : Vec Ideal S1x2048x1024 .bf16) (ix3 (0 : Fin 1) j d) = (V c main_v8 : S8x2048x1024.Idx → EReal) (ix3 b j d) := by
  obtain ⟨-, -, -, -, -, -, e0, e1, e2, -⟩ := idx1 t
  unfold iblk1
  rw [View.read_apply]
  show V c main_v8 _ = V c main_v8 _
  congr 1
  funext a
  apply Fin.ext
  match a with
  | ⟨0, _⟩ => show win1_2.index t (0 : Fin 3) * 1 + 1 * 0 = b.val; rw [e0, hb]; omega
  | ⟨1, _⟩ => show win1_2.index t (1 : Fin 3) * 2048 + 1 * j.val = j.val; rw [e1]; omega
  | ⟨2, _⟩ => show win1_2.index t (2 : Fin 3) * 1024 + 1 * d.val = d.val; rw [e2]; omega

theorem iblk1_3_apply (c : Dev nD) (t : Fin cfg1.N) (j : Fin 2048) (d : Fin 1024) (b : Fin 8) (hb : b.val = t.val / 4) :
    (iblk1 V c 3 t : Vec Ideal S1x2048x1024 .bf16) (ix3 (0 : Fin 1) j d) = (V c main_v9 : S8x2048x1024.Idx → EReal) (ix3 b j d) := by
  obtain ⟨-, -, -, -, -, -, -, -, -, e0, e1, e2, -⟩ := idx1 t
  unfold iblk1
  rw [View.read_apply]
  show V c main_v9 _ = V c main_v9 _
  congr 1
  funext a
  apply Fin.ext
  match a with
  | ⟨0, _⟩ => show win1_3.index t (0 : Fin 3) * 1 + 1 * 0 = b.val; rw [e0, hb]; omega
  | ⟨1, _⟩ => show win1_3.index t (1 : Fin 3) * 2048 + 1 * j.val = j.val; rw [e1]; omega
  | ⟨2, _⟩ => show win1_3.index t (2 : Fin 3) * 1024 + 1 * d.val = d.val; rw [e2]; omega

theorem iblk1_4_apply (c : Dev nD) (t : Fin cfg1.N) (e : Fin 1024) :
    (iblk1 V c 4 t : Vec Ideal S1024 .f32) (ix1 e) = (V c main_arg8 : S1024.Idx → EReal) (ix1 e) := by
  obtain ⟨-, -, -, -, -, -, -, -, -, -, -, -, e0, -⟩ := idx1 t
  unfold iblk1
  rw [View.read_apply]
  show V c main_arg8 _ = V c main_arg8 _
  congr 1
  funext a
  apply Fin.ext
  match a with
  | ⟨0, _⟩ => show win1_4.index t (0 : Fin 1) * 1024 + 1 * e.val = e.val; rw [e0]; omega

theorem iblk1_5_apply (c : Dev nD) (t : Fin cfg1.N) (e : Fin 1024) :
    (iblk1 V c 5 t : Vec Ideal S1024 .f32) (ix1 e) = (V c main_arg9 : S1024.Idx → EReal) (ix1 e) := by
  obtain ⟨-, -, -, -, -, -, -, -, -, -, -, -, -, e0, -⟩ := idx1 t
  unfold iblk1
  rw [View.read_apply]
  show V c main_arg9 _ = V c main_arg9 _
  congr 1
  funext a
  apply Fin.ext
  match a with
  | ⟨0, _⟩ => show win1_5.index t (0 : Fin 1) * 1024 + 1 * e.val = e.val; rw [e0]; omega

/-! ## What a point writes back, the cover, and the array after the region -/

theorem hz3 : (![0, 0, 0] : Fin 3 → Nat) = fun _ => 0 := funext fun a => by fin_cases a <;> rfl
theorem hz1 : (![0] : Fin 1 → Nat) = fun _ => 0 := funext fun a => by fin_cases a <;> rfl

/-- What point t writes back is block t of the result array. -/
theorem flushed1_6_eq (c : Dev nD) (t : Fin cfg1.N) :
    (dat1 V c).flushed 6 t = ((cfg1.win 6).blk t).view.read (Elt Ideal)
      (Gattn (V c main_arg0) (V c main_v7) (V c main_v8) (V c main_v9) (V c main_arg8) (V c main_arg9)) := by
  show (cfg1.win 6).cut (grid1.coords t) ((dat1 V c).after 6 t) = _
  rw [after1_6]
  unfold out1_6
  rw [View.canon_unit_zero hz3]
  simp only [View.ld_unit_zero (S := S1x512x1024) hz3, View.ld_unit_zero (S := S1x2048x1024) hz3, View.ld_unit_zero (S := S1024) hz1]
  obtain ⟨-, -, -, -, -, -, -, -, -, -, -, -, -, -, e0, e1, e2⟩ := idx1 t
  have hN : t.val < 32 := lt_of_lt_of_eq t.isLt N1
  funext y
  obtain ⟨u, p, e, rfl⟩ : ∃ (u : Fin 1) (p : Fin 512) (e : Fin 1024), y = ix3 u p e := ⟨y 0, y 1, y 2, eq_ix3 y⟩
  have hu : u = 0 := Fin.ext (by omega)
  subst hu
  let b : Fin 8 := ⟨t.val / 4, by omega⟩
  let s : Fin 2048 := ⟨512 * (t.val % 4) + p.val, by omega⟩
  show k1_pay1 (F := Ideal) _ _ _ _ _ (ix3 (0 : Fin 1) p e) = Gattn _ _ _ _ _ _ (((cfg1.win 6).blk t).view.emb (ix3 (0 : Fin 1) p e))
  have hemb : ((cfg1.win 6).blk t).view.emb (ix3 (0 : Fin 1) p e) = (ix3 b s e : S8x2048x1024.Idx) := by
    funext a
    apply Fin.ext
    match a with
    | ⟨0, _⟩ => show win1_6.index t (0 : Fin 3) * 1 + 1 * 0 = t.val / 4; rw [e0]; omega
    | ⟨1, _⟩ => show win1_6.index t (1 : Fin 3) * 512 + 1 * p.val = 512 * (t.val % 4) + p.val; rw [e1]; omega
    | ⟨2, _⟩ => show win1_6.index t (2 : Fin 3) * 1024 + 1 * e.val = e.val; rw [e2]; omega
  rw [hemb]
  show _ = attnLnRow _ _ _ _ _ _ b s e
  exact attn_point (iblk1 V c 0 t) (iblk1 V c 1 t) (iblk1 V c 2 t) (iblk1 V c 3 t) (iblk1 V c 4 t) (iblk1 V c 5 t)
    (V c main_arg0) (V c main_v7) (V c main_v8) (V c main_v9) (V c main_arg8) (V c main_arg9) 0 p e b s
    (fun e' => iblk1_0_apply V c t p e' b s rfl rfl) (fun d => iblk1_1_apply V c t p d b s rfl rfl)
    (fun j d => iblk1_2_apply V c t j d b rfl) (fun j e' => iblk1_3_apply V c t j e' b rfl)
    (fun e' => iblk1_4_apply V c t e') (fun e' => iblk1_5_apply V c t e')

/-- An index of the output array lies in point t's block iff each coordinate lies in the block's range. -/
theorem mem_blk1_6 (t : Fin cfg1.N) (i : S8x2048x1024.Idx) :
    i ∈ ((cfg1.win 6).blk t).view.set ↔ ∀ a : Fin 3, win1_6.index t a * S1x512x1024.size a ≤ (i a).val ∧ (i a).val < win1_6.index t a * S1x512x1024.size a + S1x512x1024.size a := by
  show i ∈ ((View.whole main_v10).slice (win1_6.rect t)).set ↔ _
  rw [View.set_slice_whole, Rect.mem_set_unit]
  exact Iff.rfl

/-- Every index of the output array lies in the block of the point (batch, tile) that owns its row. -/
theorem cover1_6' (i : S8x2048x1024.Idx) : ∃ t : Fin cfg1.N, (cfg1.win 6).flush t = true ∧ i ∈ ((cfg1.win 6).blk t).view.set := by
  have h0 : (i 0).val < 8 := (i 0).isLt
  have h1 : (i 1).val < 2048 := (i 1).isLt
  have h2 : (i 2).val < 1024 := (i 2).isLt
  let t : Fin cfg1.N := ⟨(i 0).val * 4 + (i 1).val / 512, by rw [N1]; omega⟩
  obtain ⟨-, -, -, -, -, -, -, -, -, -, -, -, -, -, e0, e1, e2⟩ := idx1 t
  refine ⟨t, flush1_6 t, ?_⟩
  rw [mem_blk1_6]
  have ht : t.val = (i 0).val * 4 + (i 1).val / 512 := rfl
  intro a
  match a with
  | ⟨0, _⟩ => show win1_6.index t (0 : Fin 3) * 1 ≤ (i 0).val ∧ (i 0).val < win1_6.index t (0 : Fin 3) * 1 + 1; rw [e0, ht]; omega
  | ⟨1, _⟩ => show win1_6.index t (1 : Fin 3) * 512 ≤ (i 1).val ∧ (i 1).val < win1_6.index t (1 : Fin 3) * 512 + 512; rw [e1, ht]; omega
  | ⟨2, _⟩ => show win1_6.index t (2 : Fin 3) * 1024 ≤ (i 2).val ∧ (i 2).val < win1_6.index t (2 : Fin 3) * 1024 + 1024; rw [e2]; omega

/-- The output array after the region's last point. -/
theorem final1_6 (c : Dev nD) : (dat1 V c).arrAt 6 cfg1.N
    = Gattn (V c main_arg0) (V c main_v7) (V c main_v8) (V c main_v9) (V c main_arg8) (V c main_arg9) :=
  (dat1 V c).arrAt_eq_of_cover 6 _ (fun t _ => flushed1_6_eq V c t) (cover1_6' )

end Cert.KernelIdeal.Val

end
-- ==== Proof.ValGlue.lean ====
/-
  The host operations around the three regions, read at a coordinate.

  The stacked weight matrix is the three projection matrices transposed and laid side by side along the columns:
  its column e is row e of the first, its column 1024 + e row e of the second, its column 2048 + e row e of the third.
  Flattening batch and position, (b, s) becomes row 2048·b + s; the inverse reading splits a row back. The perceptron's
  two weight matrices are passed transposed. The changes of float format are the identity here.
-/
import proofs.«175621_j3762391351596_2_alg».proof.Proof.Gen.KernelIdeal
import Idealize.ShloMosaic.Lib.ValueIdx
import Idealize.ShloMosaic.Lib.ValueLayout
import Idealize.ShloMosaic.Lib.Pipeline.Value

noncomputable section

namespace Cert.KernelIdeal.Val

open Cert.KernelIdeal Idealize.ShloMosaic Idealize.ShloMosaic.ValueIdx
open Cert.KernelIdeal.Facts₀ Cert.KernelIdeal.Facts

/-- The stacked weights as the host builds them from the three projection matrices. -/
def stacked (Wq Wk Wv : S1024x1024.Idx → EReal) : S1024x3072.Idx → EReal :=
  (truncf .bf16 (concatenate S1024x3072 1
      [⟨S1024x1024, transpose S1024x1024 [1, 0] Wq transposes_S1024x1024_S1024x1024_1_0⟩,
       ⟨S1024x1024, transpose S1024x1024 [1, 0] Wk transposes_S1024x1024_S1024x1024_1_0⟩,
       ⟨S1024x1024, transpose S1024x1024 [1, 0] Wv transposes_S1024x1024_S1024x1024_1_0⟩]
      concatenates_S1024x1024_S1024x1024_S1024x1024_S1024x3072_d1) bitsLt_bf16_f32 : FVec Ideal S1024x3072 .bf16)

/-- Column o + e of the stacked weights, for o the start of piece k, is row e of piece k's matrix. -/
theorem stacked_piece (Wq Wk Wv : S1024x1024.Idx → EReal) (k : Nat) (hk : k < 3) (W : S1024x1024.Idx → EReal)
    (hW : ([Wq, Wk, Wv] : List (S1024x1024.Idx → EReal))[k]'(by simpa using hk) = W) (d e : Fin 1024) (n : Fin 3072)
    (hn : n.val = 1024 * k + e.val) :
    stacked Wq Wk Wv (ix2 d n) = W (ix2 e d) := by
  have hraw : stacked Wq Wk Wv (ix2 d n) = concatenate S1024x3072 1
      [⟨S1024x1024, transpose S1024x1024 [1, 0] Wq transposes_S1024x1024_S1024x1024_1_0⟩,
       ⟨S1024x1024, transpose S1024x1024 [1, 0] Wk transposes_S1024x1024_S1024x1024_1_0⟩,
       ⟨S1024x1024, transpose S1024x1024 [1, 0] Wv transposes_S1024x1024_S1024x1024_1_0⟩]
      concatenates_S1024x1024_S1024x1024_S1024x1024_S1024x3072_d1 (ix2 d n) := rfl
  rw [hraw]
  match k, hk, hW with
  | 0, _, hW =>
    subst hW
    exact (concatenate_apply_piece (1 : Fin S1024x3072.rank) _ _ (ix2 d n) 0 (by simp) S1024x1024 _ rfl rfl 0 rfl (ix2 d e)
      (fun b hb => by match b with | ⟨0, _⟩ => rfl | ⟨1, _⟩ => exact absurd rfl hb)
      (by show 0 + e.val = n.val; omega)).trans (transpose_ix2_apply Wq _ d e)
  | 1, _, hW =>
    subst hW
    exact (concatenate_apply_piece (1 : Fin S1024x3072.rank) _ _ (ix2 d n) 1 (by simp) S1024x1024 _ rfl rfl 1024 rfl (ix2 d e)
      (fun b hb => by match b with | ⟨0, _⟩ => rfl | ⟨1, _⟩ => exact absurd rfl hb)
      (by show 1024 + e.val = n.val; omega)).trans (transpose_ix2_apply Wk _ d e)
  | 2, _, hW =>
    subst hW
    exact (concatenate_apply_piece (1 : Fin S1024x3072.rank) _ _ (ix2 d n) 2 (by simp) S1024x1024 _ rfl rfl 2048 rfl (ix2 d e)
      (fun b hb => by match b with | ⟨0, _⟩ => rfl | ⟨1, _⟩ => exact absurd rfl hb)
      (by show 2048 + e.val = n.val; omega)).trans (transpose_ix2_apply Wv _ d e)

/-- Batch and position flattened: row 2048·b + s of the flat array is row (b, s). -/
theorem flat_apply (x : S8x2048x1024.Idx → EReal) (h : S8x2048x1024.ShapeCasts S16384x1024) (b : Fin 8) (s : Fin 2048) (d : Fin 1024)
    (r : Fin 16384) (hr : r.val = 2048 * b.val + s.val) :
    shapeCast S16384x1024 x h (ix2 r d) = x (ix3 b s d) :=
  shapeCast_apply x h _ _ (by
    rw [Shape.rowMajor_val_three, Shape.rowMajor_val_two]
    show (b.val * 2048 + s.val) * 1024 + d.val = r.val * 1024 + d.val
    rw [hr]; ring)

/-- The inverse reading: entry (b, s, e) of the unflattened array is row 2048·b + s of the flat one. -/
theorem unflat_apply (y : S16384x1024.Idx → EReal) (h : S16384x1024.ShapeCasts S8x2048x1024) (b : Fin 8) (s : Fin 2048) (e : Fin 1024)
    (r : Fin 16384) (hr : r.val = 2048 * b.val + s.val) :
    shapeCast S8x2048x1024 y h (ix3 b s e) = y (ix2 r e) :=
  shapeCast_apply y h _ _ (by
    rw [Shape.rowMajor_val_three, Shape.rowMajor_val_two]
    show r.val * 1024 + e.val = (b.val * 2048 + s.val) * 1024 + e.val
    rw [hr]; ring)

/-- The first perceptron weight matrix as passed: transposed. -/
theorem w1t_apply (W1 : S2048x1024.Idx → EReal) (d : Fin 1024) (j : Fin 2048) :
    (truncf .bf16 (transpose S1024x2048 [1, 0] W1 transposes_S2048x1024_S1024x2048_1_0) bitsLt_bf16_f32 : FVec Ideal S1024x2048 .bf16) (ix2 d j)
      = W1 (ix2 j d) :=
  transpose_ix2_apply W1 _ d j

/-- The second perceptron weight matrix as passed: transposed. -/
theorem w2t_apply (W2 : S1024x2048.Idx → EReal) (j : Fin 2048) (e : Fin 1024) :
    (truncf .bf16 (transpose S2048x1024 [1, 0] W2 transposes_S1024x2048_S2048x1024_1_0) bitsLt_bf16_f32 : FVec Ideal S2048x1024 .bf16) (ix2 j e)
      = W2 (ix2 e j) :=
  transpose_ix2_apply W2 _ j e

end Cert.KernelIdeal.Val

end
-- ==== Proof.ValChain.lean ====
/-
  The stages composed. Feeding each region's result through the host operations into the next region — the
  projections unflattened into queries, keys and values; the attention region; its result flattened; the perceptron
  region; its result unflattened — gives, at every (batch, position, feature), the block's specification in the
  kernel's spelling.
-/
import proofs.«175621_j3762391351596_2_alg».proof.Proof.Spec
import proofs.«175621_j3762391351596_2_alg».proof.Proof.ValSpec
import proofs.«175621_j3762391351596_2_alg».proof.Proof.ValGlue
import proofs.«175621_j3762391351596_2_alg».proof.Proof.ValAttn

noncomputable section

namespace Cert.KernelIdeal.Val

open Cert.KernelIdeal Cert.KernelIdeal.Pay Idealize.ShloMosaic Idealize.ShloMosaic.ValueIdx Cert.Block
open Cert.KernelIdeal.Facts₀ Cert.KernelIdeal.Facts

variable (x : S8x2048x1024.Idx → EReal) (Wq Wk Wv : S1024x1024.Idx → EReal) (W1 : S2048x1024.Idx → EReal) (b1 : S2048.Idx → EReal)
  (W2 : S1024x2048.Idx → EReal) (b2 g1 be1 g2 be2 : S1024.Idx → EReal)

/-- The flattened input. -/
def xFlat : S16384x1024.Idx → EReal := shapeCast S16384x1024 x shapeCasts_S8x2048x1024_S16384x1024

/-- One projection, as the first region leaves it and the host unflattens it. -/
def projArr (o : Nat) (ho : o + 1024 ≤ 3072) : S8x2048x1024.Idx → EReal :=
  shapeCast S8x2048x1024 (Gproj (xFlat x) (stacked Wq Wk Wv) o ho) shapeCasts_S16384x1024_S8x2048x1024

/-- The second region's result on those. -/
def attnArr : S8x2048x1024.Idx → EReal :=
  Gattn x (projArr x Wq Wk Wv 0 (by omega)) (projArr x Wq Wk Wv 1024 (by omega)) (projArr x Wq Wk Wv 2048 (by omega)) g1 be1

/-- The third region's result on the flattened second one, unflattened. -/
def outArr : S8x2048x1024.Idx → EReal :=
  shapeCast S8x2048x1024
    (Gffn (shapeCast S16384x1024 (attnArr x Wq Wk Wv g1 be1) shapeCasts_S8x2048x1024_S16384x1024)
      (truncf .bf16 (transpose S1024x2048 [1, 0] W1 transposes_S2048x1024_S1024x2048_1_0) bitsLt_bf16_f32 : FVec Ideal S1024x2048 .bf16)
      b1
      (truncf .bf16 (transpose S2048x1024 [1, 0] W2 transposes_S1024x2048_S2048x1024_1_0) bitsLt_bf16_f32 : FVec Ideal S2048x1024 .bf16)
      b2 g2 be2)
    shapeCasts_S16384x1024_S8x2048x1024

/-- A projection array at (b, s, e) is the specification's linear image with piece k's matrix. -/
theorem projArr_apply (k : Nat) (hk : k < 3) (W : S1024x1024.Idx → EReal)
    (hW : ([Wq, Wk, Wv] : List (S1024x1024.Idx → EReal))[k]'(by simpa using hk) = W)
    (ho : 1024 * k + 1024 ≤ 3072) (b : Fin 8) (s : Fin 2048) (e : Fin 1024) :
    projArr x Wq Wk Wv (1024 * k) ho (ix3 b s e) = proj (cur3 x) (cur2 W) b s e := by
  unfold projArr
  rw [unflat_apply _ _ b s e (⟨2048 * b.val + s.val, by omega⟩ : Fin 16384) rfl]
  unfold Gproj proj xFlat
  refine Finset.sum_congr rfl fun d _ => ?_
  refine congrArg₂ (· * ·) ?_ ?_
  · exact flat_apply x _ b s d _ rfl
  · exact stacked_piece Wq Wk Wv k hk W hW d e _ rfl

/-- The second region's result at (b, s, e): the first normalised residual of the specification. -/
theorem attnArr_apply (b : Fin 8) (s : Fin 2048) (e : Fin 1024) :
    attnArr x Wq Wk Wv g1 be1 (ix3 b s e)
      = ln (fun e' => cur3 x b s e' + attnK (scaleK (qk (proj (cur3 x) (cur2 Wq)) (proj (cur3 x) (cur2 Wk)))) (proj (cur3 x) (cur2 Wv)) b s e')
          (cur1 g1) (cur1 be1) e := by
  unfold attnArr Gattn attnLnRow
  show ln (fun e' => x (ix3 b s e') + attnRow (fun j => (∑ d : Fin 1024, projArr x Wq Wk Wv 0 _ (ix3 b s d) * projArr x Wq Wk Wv 1024 _ (ix3 b j d)) * wInv32)
      (fun j => projArr x Wq Wk Wv 2048 _ (ix3 b j e'))) _ _ e = _
  have hq : ∀ (s' : Fin 2048) (d : Fin 1024), projArr x Wq Wk Wv 0 (by omega) (ix3 b s' d) = proj (cur3 x) (cur2 Wq) b s' d :=
    fun s' d => projArr_apply x Wq Wk Wv 0 (by omega) Wq rfl (by omega) b s' d
  have hkk : ∀ (s' : Fin 2048) (d : Fin 1024), projArr x Wq Wk Wv 1024 (by omega) (ix3 b s' d) = proj (cur3 x) (cur2 Wk) b s' d :=
    fun s' d => projArr_apply x Wq Wk Wv 1 (by omega) Wk rfl (by omega) b s' d
  have hv : ∀ (s' : Fin 2048) (d : Fin 1024), projArr x Wq Wk Wv 2048 (by omega) (ix3 b s' d) = proj (cur3 x) (cur2 Wv) b s' d :=
    fun s' d => projArr_apply x Wq Wk Wv 2 (by omega) Wv rfl (by omega) b s' d
  simp only [hq, hkk, hv]
  rfl

/-- The third region's stage over any arrays that read as the flattened activations `h` and the two transposed
    weight matrices: unflattened, at (b, s, e) it is the second normalised residual of the specification. -/
theorem ffnStage_apply (h : Act) (Hflat : S16384x1024.Idx → EReal) (W1t : S1024x2048.Idx → EReal) (W2t : S2048x1024.Idx → EReal)
    (hH : ∀ (b : Fin 8) (s : Fin 2048) (d : Fin 1024) (r : Fin 16384), r.val = 2048 * b.val + s.val → Hflat (ix2 r d) = h b s d)
    (hW1 : ∀ (d : Fin 1024) (j : Fin 2048), W1t (ix2 d j) = W1 (ix2 j d))
    (hW2 : ∀ (j : Fin 2048) (e : Fin 1024), W2t (ix2 j e) = W2 (ix2 e j))
    (b : Fin 8) (s : Fin 2048) (e : Fin 1024) :
    shapeCast S8x2048x1024 (Gffn Hflat W1t b1 W2t b2 g2 be2) shapeCasts_S16384x1024_S8x2048x1024 (ix3 b s e)
      = ln (fun e' => h b s e' + ffn (hid h (cur2 W1) (cur1 b1)) (cur2 W2) (cur1 b2) b s e') (cur1 g2) (cur1 be2) e := by
  rw [unflat_apply _ _ b s e (⟨2048 * b.val + s.val, by omega⟩ : Fin 16384) rfl]
  unfold Gffn
  have hH' : ∀ d : Fin 1024, Hflat (ix2 (⟨2048 * b.val + s.val, by omega⟩ : Fin 16384) d) = h b s d := fun d => hH b s d _ rfl
  show ln (fun e' => Hflat (ix2 (⟨2048 * b.val + s.val, by omega⟩ : Fin 16384) e')
      + (∑ j : Fin 2048, max (∑ d : Fin 1024, Hflat (ix2 (⟨2048 * b.val + s.val, by omega⟩ : Fin 16384) d) * W1t (ix2 d j) + b1 (ix1 j)) w0
          * W2t (ix2 j e') + b2 (ix1 e')))
      (fun e' => g2 (ix1 e')) (fun e' => be2 (ix1 e')) e = _
  simp only [hH', hW1, hW2]
  rfl

/-- The whole chain at (b, s, e) is the specification in the kernel's spelling. -/
theorem outArr_eq :
    outArr x Wq Wk Wv W1 b1 W2 b2 g1 be1 g2 be2
      = unc3 (outK (cur3 x) (cur2 Wq) (cur2 Wk) (cur2 Wv) (cur2 W1) (cur1 b1) (cur2 W2) (cur1 b2) (cur1 g1) (cur1 be1) (cur1 g2) (cur1 be2)) := by
  funext i
  obtain ⟨b, s, e, rfl⟩ : ∃ (b : Fin 8) (s : Fin 2048) (e : Fin 1024), i = ix3 b s e := ⟨i 0, i 1, i 2, eq_ix3 i⟩
  unfold outArr
  refine (ffnStage_apply W1 b1 W2 b2 g2 be2
    (fun b s => ln (fun e' => cur3 x b s e' + attnK (scaleK (qk (proj (cur3 x) (cur2 Wq)) (proj (cur3 x) (cur2 Wk)))) (proj (cur3 x) (cur2 Wv)) b s e')
      (cur1 g1) (cur1 be1))
    _ _ _ (fun b s d r hr => (flat_apply _ _ b s d r hr).trans (attnArr_apply x Wq Wk Wv g1 be1 b s d))
    (fun d j => w1t_apply W1 d j) (fun j e => w2t_apply W2 j e) b s e).trans ?_
  rfl

end Cert.KernelIdeal.Val

end
-- ==== Proof.ValRun.lean ====
/-
  The kernel program's result buffer, read through the whole program.

  The program is four stretches of host operations around three pipelined regions. A host stretch maps the buffers'
  contents by its operations (transposes, a concatenation, roundings to bf16 — the identity here —, reshapes); a region
  replaces its output arrays by one function of the arrays it reads (the three column bands of x against the stacked
  weights; attention, residual and normalisation; perceptron, residual and normalisation). Reading each buffer a region
  takes, top down, from the launch contents gives the result as the composition of the three functions through the host
  operations, applied to the twelve arguments.
-/
import proofs.«175621_j3762391351596_2_alg».proof.Proof.FrFoldI
import proofs.«175621_j3762391351596_2_alg».proof.Proof.ValQkv
import proofs.«175621_j3762391351596_2_alg».proof.Proof.ValFfn
import proofs.«175621_j3762391351596_2_alg».proof.Proof.ValAttn
import proofs.«175621_j3762391351596_2_alg».proof.Proof.ValChain
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo
open Idealize.SL Idealize.SL.Sem
open Idealize.ShloMosaic.Pipeline (Dat Cfg Window)

/-- A three-operand operation's result with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

variable (m : (ℓ : Loc nD τ sig) → Buf (Elt Ideal) ℓ) (ρ : Dev nD → PrngReg)

/-- The first host stretch leaves the stacked, rounded weight matrix. -/
theorem V1_v4 (c : Dev nD) :
    (V1 m ρ c main_v4 : S1024x3072.Idx → EReal)
      = stacked (m ((c : Thread nD τ).loc main_arg1)) (m ((c : Thread nD τ).loc main_arg2)) (m ((c : Thread nD τ).loc main_arg3)) := by
  show StableHlo.after hostOps0 (W0 m ρ c) (Proc.devRef .tc main_v4) = _
  simp only [StableHlo.after_cons, StableHlo.after_nil]
  repeat (first
    | rw [nary3_result] | rw [StableHlo.unary_result] | rw [StableHlo.reshape_result]
    | (rw [StableHlo.unary_result_ne]; rotate_left; decide)
    | (rw [StableHlo.reshape_result_ne]; rotate_left; decide)
    | (rw [StableHlo.nary_result_ne]; rotate_left; decide))
  rfl

/-- … and the flattened input. -/
theorem V1_v5 (c : Dev nD) :
    (V1 m ρ c main_v5 : S16384x1024.Idx → EReal) = xFlat (m ((c : Thread nD τ).loc main_arg0)) := by
  show StableHlo.after hostOps0 (W0 m ρ c) (Proc.devRef .tc main_v5) = _
  after_results
  rfl

/-! The arguments the later regions read reach them as launched: no host stretch writes an argument and the regions
    before do not touch these. -/
theorem W3_arg0 (c : Dev nD) : W3 m ρ c (Proc.devRef .tc main_arg0) = m ((c : Thread nD τ).loc main_arg0) :=
  (W3_of m ρ c main_arg0 (by decide)).trans ((W2_of_ne m ρ c main_arg0 (by decide)).trans ((W1_of m ρ c main_arg0 (by decide)).trans (rfl)))

theorem W3_arg8 (c : Dev nD) : W3 m ρ c (Proc.devRef .tc main_arg8) = m ((c : Thread nD τ).loc main_arg8) :=
  (W3_of m ρ c main_arg8 (by decide)).trans ((W2_of_ne m ρ c main_arg8 (by decide)).trans ((W1_of m ρ c main_arg8 (by decide)).trans (rfl)))

theorem W3_arg9 (c : Dev nD) : W3 m ρ c (Proc.devRef .tc main_arg9) = m ((c : Thread nD τ).loc main_arg9) :=
  (W3_of m ρ c main_arg9 (by decide)).trans ((W2_of_ne m ρ c main_arg9 (by decide)).trans ((W1_of m ρ c main_arg9 (by decide)).trans (rfl)))

theorem W4_arg4 (c : Dev nD) : W4 m ρ c (Proc.devRef .tc main_arg4) = m ((c : Thread nD τ).loc main_arg4) :=
  (W4_of_ne m ρ c main_arg4 (by decide)).trans ((W3_of m ρ c main_arg4 (by decide)).trans ((W2_of_ne m ρ c main_arg4 (by decide)).trans ((W1_of m ρ c main_arg4 (by decide)).trans (rfl))))

theorem W4_arg6 (c : Dev nD) : W4 m ρ c (Proc.devRef .tc main_arg6) = m ((c : Thread nD τ).loc main_arg6) :=
  (W4_of_ne m ρ c main_arg6 (by decide)).trans ((W3_of m ρ c main_arg6 (by decide)).trans ((W2_of_ne m ρ c main_arg6 (by decide)).trans ((W1_of m ρ c main_arg6 (by decide)).trans (rfl))))

theorem W5_arg5 (c : Dev nD) : W5 m ρ c (Proc.devRef .tc main_arg5) = m ((c : Thread nD τ).loc main_arg5) :=
  (W5_of m ρ c main_arg5 (by decide)).trans ((W4_of_ne m ρ c main_arg5 (by decide)).trans ((W3_of m ρ c main_arg5 (by decide)).trans ((W2_of_ne m ρ c main_arg5 (by decide)).trans ((W1_of m ρ c main_arg5 (by decide)).trans (rfl)))))

theorem W5_arg7 (c : Dev nD) : W5 m ρ c (Proc.devRef .tc main_arg7) = m ((c : Thread nD τ).loc main_arg7) :=
  (W5_of m ρ c main_arg7 (by decide)).trans ((W4_of_ne m ρ c main_arg7 (by decide)).trans ((W3_of m ρ c main_arg7 (by decide)).trans ((W2_of_ne m ρ c main_arg7 (by decide)).trans ((W1_of m ρ c main_arg7 (by decide)).trans (rfl)))))

theorem W5_arg10 (c : Dev nD) : W5 m ρ c (Proc.devRef .tc main_arg10) = m ((c : Thread nD τ).loc main_arg10) :=
  (W5_of m ρ c main_arg10 (by decide)).trans ((W4_of_ne m ρ c main_arg10 (by decide)).trans ((W3_of m ρ c main_arg10 (by decide)).trans ((W2_of_ne m ρ c main_arg10 (by decide)).trans ((W1_of m ρ c main_arg10 (by decide)).trans (rfl)))))

theorem W5_arg11 (c : Dev nD) : W5 m ρ c (Proc.devRef .tc main_arg11) = m ((c : Thread nD τ).loc main_arg11) :=
  (W5_of m ρ c main_arg11 (by decide)).trans ((W4_of_ne m ρ c main_arg11 (by decide)).trans ((W3_of m ρ c main_arg11 (by decide)).trans ((W2_of_ne m ρ c main_arg11 (by decide)).trans ((W1_of m ρ c main_arg11 (by decide)).trans (rfl)))))

/-! The first region's three outputs. -/

theorem W2_v6_0 (c : Dev nD) :
    (W2 m ρ c (Proc.devRef .tc main_v6_0) : S16384x1024.Idx → EReal)
      = Gproj (xFlat (m ((c : Thread nD τ).loc main_arg0))) (stacked (m ((c : Thread nD τ).loc main_arg1)) (m ((c : Thread nD τ).loc main_arg2)) (m ((c : Thread nD τ).loc main_arg3))) 0 (by omega) := by
  refine ((W2_arr m ρ c 2).trans (final0_2 (V1 m ρ) c)).trans ?_
  rw [V1_v4 m ρ c, V1_v5 m ρ c]

theorem W2_v6_1 (c : Dev nD) :
    (W2 m ρ c (Proc.devRef .tc main_v6_1) : S16384x1024.Idx → EReal)
      = Gproj (xFlat (m ((c : Thread nD τ).loc main_arg0))) (stacked (m ((c : Thread nD τ).loc main_arg1)) (m ((c : Thread nD τ).loc main_arg2)) (m ((c : Thread nD τ).loc main_arg3))) 1024 (by omega) := by
  refine ((W2_arr m ρ c 3).trans (final0_3 (V1 m ρ) c)).trans ?_
  rw [V1_v4 m ρ c, V1_v5 m ρ c]

theorem W2_v6_2 (c : Dev nD) :
    (W2 m ρ c (Proc.devRef .tc main_v6_2) : S16384x1024.Idx → EReal)
      = Gproj (xFlat (m ((c : Thread nD τ).loc main_arg0))) (stacked (m ((c : Thread nD τ).loc main_arg1)) (m ((c : Thread nD τ).loc main_arg2)) (m ((c : Thread nD τ).loc main_arg3))) 2048 (by omega) := by
  refine ((W2_arr m ρ c 4).trans (final0_4 (V1 m ρ) c)).trans ?_
  rw [V1_v4 m ρ c, V1_v5 m ρ c]

/-! The second host stretch unflattens them. -/

theorem V3_v7 (c : Dev nD) :
    (V3 m ρ c main_v7 : S8x2048x1024.Idx → EReal) = projArr (m ((c : Thread nD τ).loc main_arg0)) (m ((c : Thread nD τ).loc main_arg1)) (m ((c : Thread nD τ).loc main_arg2)) (m ((c : Thread nD τ).loc main_arg3)) 0 (by omega) := by
  show StableHlo.after hostOps1 (W2 m ρ c) (Proc.devRef .tc main_v7) = _
  after_results
  rw [W2_v6_0 m ρ c]
  rfl

theorem V3_v8 (c : Dev nD) :
    (V3 m ρ c main_v8 : S8x2048x1024.Idx → EReal) = projArr (m ((c : Thread nD τ).loc main_arg0)) (m ((c : Thread nD τ).loc main_arg1)) (m ((c : Thread nD τ).loc main_arg2)) (m ((c : Thread nD τ).loc main_arg3)) 1024 (by omega) := by
  show StableHlo.after hostOps1 (W2 m ρ c) (Proc.devRef .tc main_v8) = _
  after_results
  rw [W2_v6_1 m ρ c]
  rfl

theorem V3_v9 (c : Dev nD) :
    (V3 m ρ c main_v9 : S8x2048x1024.Idx → EReal) = projArr (m ((c : Thread nD τ).loc main_arg0)) (m ((c : Thread nD τ).loc main_arg1)) (m ((c : Thread nD τ).loc main_arg2)) (m ((c : Thread nD τ).loc main_arg3)) 2048 (by omega) := by
  show StableHlo.after hostOps1 (W2 m ρ c) (Proc.devRef .tc main_v9) = _
  after_results
  rw [W2_v6_2 m ρ c]
  rfl

/-- The second region's output. -/
theorem W4_v10 (c : Dev nD) :
    (W4 m ρ c (Proc.devRef .tc main_v10) : S8x2048x1024.Idx → EReal)
      = attnArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  refine ((W4_arr m ρ c 6).trans (final1_6 (V3 m ρ) c)).trans ?_
  have e0 : V3 m ρ c main_arg0 = (m ((c : Thread nD τ).loc main_arg0)) := W3_arg0 m ρ c
  have e8 : V3 m ρ c main_arg8 = (m ((c : Thread nD τ).loc main_arg8)) := W3_arg8 m ρ c
  have e9 : V3 m ρ c main_arg9 = (m ((c : Thread nD τ).loc main_arg9)) := W3_arg9 m ρ c
  rw [e0, e8, e9, V3_v7 m ρ c, V3_v8 m ρ c, V3_v9 m ρ c]
  rfl

/-! The third host stretch: the two perceptron matrices transposed and rounded, the second region's output flattened. -/

theorem V5_v12 (c : Dev nD) :
    (V5 m ρ c main_v12 : S1024x2048.Idx → EReal)
      = (truncf .bf16 (transpose S1024x2048 [1, 0] (m ((c : Thread nD τ).loc main_arg4)) Gen.transposes_S2048x1024_S1024x2048_1_0) Gen.bitsLt_bf16_f32 : FVec Ideal S1024x2048 .bf16) := by
  show StableHlo.after hostOps2 (W4 m ρ c) (Proc.devRef .tc main_v12) = _
  after_results
  rw [W4_arg4 m ρ c]

theorem V5_v14 (c : Dev nD) :
    (V5 m ρ c main_v14 : S2048x1024.Idx → EReal)
      = (truncf .bf16 (transpose S2048x1024 [1, 0] (m ((c : Thread nD τ).loc main_arg6)) Gen.transposes_S1024x2048_S2048x1024_1_0) Gen.bitsLt_bf16_f32 : FVec Ideal S2048x1024 .bf16) := by
  show StableHlo.after hostOps2 (W4 m ρ c) (Proc.devRef .tc main_v14) = _
  after_results
  rw [W4_arg6 m ρ c]

theorem V5_v15 (c : Dev nD) :
    (V5 m ρ c main_v15 : S16384x1024.Idx → EReal)
      = shapeCast S16384x1024 (attnArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) Gen.shapeCasts_S8x2048x1024_S16384x1024 := by
  show StableHlo.after hostOps2 (W4 m ρ c) (Proc.devRef .tc main_v15) = _
  after_results
  rw [W4_v10 m ρ c]
  rfl

/-- The third region's output. -/
theorem W6_v16 (c : Dev nD) :
    (W6 m ρ c (Proc.devRef .tc main_v16) : S16384x1024.Idx → EReal)
      = Gffn (shapeCast S16384x1024 (attnArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9))) Gen.shapeCasts_S8x2048x1024_S16384x1024)
          (truncf .bf16 (transpose S1024x2048 [1, 0] (m ((c : Thread nD τ).loc main_arg4)) Gen.transposes_S2048x1024_S1024x2048_1_0) Gen.bitsLt_bf16_f32 : FVec Ideal S1024x2048 .bf16)
          (m ((c : Thread nD τ).loc main_arg5))
          (truncf .bf16 (transpose S2048x1024 [1, 0] (m ((c : Thread nD τ).loc main_arg6)) Gen.transposes_S1024x2048_S2048x1024_1_0) Gen.bitsLt_bf16_f32 : FVec Ideal S2048x1024 .bf16)
          (m ((c : Thread nD τ).loc main_arg7)) (m ((c : Thread nD τ).loc main_arg10)) (m ((c : Thread nD τ).loc main_arg11)) := by
  refine ((W6_arr m ρ c 7).trans (final2_7 (V5 m ρ) c)).trans ?_
  have e5 : V5 m ρ c main_arg5 = (m ((c : Thread nD τ).loc main_arg5)) := W5_arg5 m ρ c
  have e7 : V5 m ρ c main_arg7 = (m ((c : Thread nD τ).loc main_arg7)) := W5_arg7 m ρ c
  have e10 : V5 m ρ c main_arg10 = (m ((c : Thread nD τ).loc main_arg10)) := W5_arg10 m ρ c
  have e11 : V5 m ρ c main_arg11 = (m ((c : Thread nD τ).loc main_arg11)) := W5_arg11 m ρ c
  rw [e5, e7, e10, e11, V5_v12 m ρ c, V5_v14 m ρ c, V5_v15 m ρ c]

/-- The program's result buffer after the last host stretch: the three regions composed through the host operations. -/
theorem W7_out (c : Dev nD) :
    (W7 m ρ c (Proc.devRef .tc main_v17) : S8x2048x1024.Idx → EReal)
      = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  show StableHlo.after hostOps3 (W6 m ρ c) (Proc.devRef .tc main_v17) = _
  after_results
  rw [W6_v16 m ρ c]
  rfl

end Cert.KernelIdeal.Val

end
-- ==== Proof.KernelValue.lean ====
/-
  The kernel program's run at the extended reals, read: every weakly fair execution ends with the result array at the
  block's specification (in the kernel's spelling) of the twelve arguments' launch contents, and the arguments unchanged.
  The run itself is the frame run; its last boundary's contents at the result buffer were read back through the host
  stretches and the three regions, stage by stage.
-/
import proofs.«175621_j3762391351596_2_alg».proof.Proof.FrRunI
import proofs.«175621_j3762391351596_2_alg».proof.Proof.ValRun

noncomputable section

namespace Cert.KernelIdeal.Val

open Cert.KernelIdeal Cert.KernelIdeal.Gen Cert.KernelIdeal.Fr
open Idealize.ShloMosaic Idealize.ShloMosaic.TcCoe Idealize.SL.Sem Idealize.ShloMosaic.ValueIdx Cert.Block

variable (m : (ℓ : Loc nD τ sig) → Buf (Elt Ideal) ℓ) (ρ : Dev nD → PrngReg)

/-- The block's specification, in the kernel's spelling, of the arguments' launch contents on core `c`. -/
def specOut (c : Dev nD) : S8x2048x1024.Idx → EReal :=
  unc3 (outK (cur3 (m ((c.tc : Thread nD τ).loc main_arg0))) (cur2 (m ((c.tc : Thread nD τ).loc main_arg1)))
    (cur2 (m ((c.tc : Thread nD τ).loc main_arg2))) (cur2 (m ((c.tc : Thread nD τ).loc main_arg3)))
    (cur2 (m ((c.tc : Thread nD τ).loc main_arg4))) (cur1 (m ((c.tc : Thread nD τ).loc main_arg5)))
    (cur2 (m ((c.tc : Thread nD τ).loc main_arg6))) (cur1 (m ((c.tc : Thread nD τ).loc main_arg7)))
    (cur1 (m ((c.tc : Thread nD τ).loc main_arg8))) (cur1 (m ((c.tc : Thread nD τ).loc main_arg9)))
    (cur1 (m ((c.tc : Thread nD τ).loc main_arg10))) (cur1 (m ((c.tc : Thread nD τ).loc main_arg11))))

/-- The last boundary's contents at the result buffer are the specification. -/
theorem W7_spec (c : Dev nD) : (W7 m ρ c (Proc.devRef .tc main_v17) : S8x2048x1024.Idx → EReal) = specOut m c :=
  (W7_out m ρ c).trans (outArr_eq _ _ _ _ _ _ _ _ _ _ _ _)

/-- The run, read. -/
theorem run_out : θ_run defs (onTc (τ := τ) (main (F := Ideal))) ⟨m, fun _ => 0, ρ⟩ (fun r => ∀ c : Dev nD,
      r.2.mem ((c.tc : Thread nD τ).loc main_v17) = specOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs (onTc (τ := τ) (main (F := Ideal))) ⟨m, fun _ => 0, ρ⟩).mono (fun r h c =>
    ⟨(h c _ (mem_uc main_v17 (by decide))).trans (W7_spec m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c),
     (h c _ (mem_uc main_arg11 (by decide))).trans (W7_main_arg11 m ρ c)⟩)
    (run_full (F := Ideal) m ρ)

end Cert.KernelIdeal.Val

end
-- ==== Proof.Ref.Basic.lean ====
/-
  Small facts shared by the stage-by-stage reading of the reference program.

  * The word 0xFF800000 is the bottom of the extended reals, so taking a maximum with it changes nothing.
  * A reduction with a maximum body over the last axis of an 8 x 2048 x 2048 array, read at (b, i), is the fold of
    `max` over the 2048 entries of row (b, i), starting from the initial value.
-/
import proofs.«175621_j3762391351596_2_alg».proof.Proof.Spec
import Idealize.ShloMosaic.PureOps.Ideal.Laws
import Idealize.ShloMosaic.Lib.ValueIdx

noncomputable section

namespace Cert.Block.Ref

open Idealize.ShloMosaic Idealize.ShloMosaic.ValueIdx

/-- The word for minus infinity is the least extended real: a maximum with it is the other operand. -/
theorem max_negInf (y : EReal) : max wNegInf y = y := by
  show max (Ideal.ofBits .f32 0xFF800000#32) y = y
  simp [Ideal.ofBits, Ideal.ieee]

/-- The zero word is zero. -/
theorem w0_eq : w0 = 0 := Ideal.ofBits_zero_f32

/-- Row (b, i) with the coordinate k of the last axis put back is the index (b, i, k). -/
theorem lift_last (h : (⟨3, ![8, 2048, 2048]⟩ : Shape).Reduces [2] (⟨2, ![8, 2048]⟩ : Shape)) (b : Fin 8) (i : Fin 2048)
    (k : Fin ((⟨3, ![8, 2048, 2048]⟩ : Shape).size 2)) :
    h.lift (ix2 b i) k = ix3 b i (⟨k.val, k.isLt⟩ : Fin 2048) := by
  funext c; apply Fin.ext
  fin_cases c <;> rfl

/-- A maximum-reduction over the last axis, read at (b, i): the fold of `max` over row (b, i) from the initial value. -/
theorem reduceMax_last (x : (⟨3, ![8, 2048, 2048]⟩ : Shape).Idx → EReal) (init : (⟨0, ![]⟩ : Shape).Idx → EReal)
    (h' : (⟨3, ![8, 2048, 2048]⟩ : Shape).ReducesTo [2] (⟨2, ![8, 2048]⟩ : Shape))
    (hu : 0 < (⟨0, ![]⟩ : Shape).numel) (b : Fin 8) (i : Fin 2048) :
    Host.reduce (FloatOps.maximumf (F := Ideal) (φ := .f32)) x init h' hu (ix2 b i)
      = (Finset.univ : Finset (Fin 2048)).fold max (init (Shape.Idx.first hu)) (fun k => x (ix3 b i k)) := by
  have h : (⟨3, ![8, 2048, 2048]⟩ : Shape).Reduces [2] (⟨2, ![8, 2048]⟩ : Shape) := by decide
  rw [Host.reduce_eq_fold_single (FloatOps.maximumf (F := Ideal) (φ := .f32)) x init h' h hu]
  have hf : (x ∘ h.lift (ix2 b i)) = fun k : Fin 2048 => x (ix3 b i k) :=
    funext fun k => congrArg x (lift_last h b i k)
  exact congrArg (fun f => Finset.fold max (init (Shape.Idx.first hu)) f (Finset.univ : Finset (Fin 2048))) hf

end Cert.Block.Ref

end
-- ==== Proof.Ref.Types.lean ====
/-
  The argument arrays' types, and the stages of the block written over the argument arrays (as functions of
  coordinates): the scaled scores, the attention output, the first normalised sum h, the perceptron's output and the
  final normalised sum. The last one is the specification's `outR` by unfolding.
-/
import proofs.«175621_j3762391351596_2_alg».proof.Proof.RefReadP
import proofs.«175621_j3762391351596_2_alg».proof.Proof.Ref.Basic

noncomputable section

namespace Cert.Block.Ref

open Cert.ReferenceIdeal Cert.ReferenceIdeal.Gen Cert.ReferenceIdeal.ReadP Idealize.ShloMosaic Idealize.ShloMosaic.ValueIdx

/-- Arrays of the three activations' shape, of the square weights' shape, and so on. -/
abbrev A3 : Type := (⟨S8x2048x1024, .f32⟩ : BufTy).Contents (Elt Ideal)
abbrev A2 : Type := (⟨S1024x1024, .f32⟩ : BufTy).Contents (Elt Ideal)
abbrev A2h : Type := (⟨S2048x1024, .f32⟩ : BufTy).Contents (Elt Ideal)
abbrev A2o : Type := (⟨S1024x2048, .f32⟩ : BufTy).Contents (Elt Ideal)
abbrev A1 : Type := (⟨S1024, .f32⟩ : BufTy).Contents (Elt Ideal)
abbrev A1h : Type := (⟨S2048, .f32⟩ : BufTy).Contents (Elt Ideal)

/-- The scaled scores. -/
abbrev scS (x0 : A3) (x1 x2 : A2) : Wide := scaleR (qk (proj (cur3 x0) (cur2 x1)) (proj (cur3 x0) (cur2 x2)))
/-- The attention output. -/
abbrev aS (x0 : A3) (x1 x2 x3 : A2) : Act := attnR (scS x0 x1 x2) (proj (cur3 x0) (cur2 x3))
/-- The first residual sum, row by row. -/
abbrev r1S (x0 : A3) (x1 x2 x3 : A2) (b : Fin 8) (s : Fin 2048) : Fin 1024 → EReal :=
  fun e => cur3 x0 b s e + aS x0 x1 x2 x3 b s e
/-- The first normalised sum. -/
abbrev hS (x0 : A3) (x1 x2 x3 : A2) (x8 x9 : A1) : Act :=
  fun b s => ln (r1S x0 x1 x2 x3 b s) (cur1 x8) (cur1 x9)
/-- The perceptron's output. -/
abbrev fS (x0 : A3) (x1 x2 x3 : A2) (x4 : A2h) (x5 : A1h) (x6 : A2o) (x7 x8 x9 : A1) : Act :=
  ffn (hid (hS x0 x1 x2 x3 x8 x9) (cur2 x4) (cur1 x5)) (cur2 x6) (cur1 x7)
/-- The second residual sum, row by row. -/
abbrev r2S (x0 : A3) (x1 x2 x3 : A2) (x4 : A2h) (x5 : A1h) (x6 : A2o) (x7 x8 x9 : A1) (b : Fin 8) (s : Fin 2048) :
    Fin 1024 → EReal :=
  fun e => hS x0 x1 x2 x3 x8 x9 b s e + fS x0 x1 x2 x3 x4 x5 x6 x7 x8 x9 b s e

/-- The block's result is the normalised second residual sum. -/
theorem outR_eq (x0 : A3) (x1 x2 x3 : A2) (x4 : A2h) (x5 : A1h) (x6 : A2o) (x7 x8 x9 x10 x11 : A1) (b : Fin 8) (s : Fin 2048) :
    outR (cur3 x0) (cur2 x1) (cur2 x2) (cur2 x3) (cur2 x4) (cur1 x5) (cur2 x6) (cur1 x7) (cur1 x8) (cur1 x9) (cur1 x10) (cur1 x11) b s
      = ln (r2S x0 x1 x2 x3 x4 x5 x6 x7 x8 x9 b s) (cur1 x10) (cur1 x11) := rfl

end Cert.Block.Ref

end
-- ==== Proof.Ref.QKV.lean ====
/-
  The three projections: the first three contractions of the reference, read at (b, s, e), are the linear images of
  row (b, s) of x against row e of the three square weight matrices.
-/
import proofs.«175621_j3762391351596_2_alg».proof.Proof.Ref.Types

noncomputable section

namespace Cert.Block.Ref

open Cert.ReferenceIdeal Cert.ReferenceIdeal.Gen Cert.ReferenceIdeal.ReadP Idealize.ShloMosaic Idealize.ShloMosaic.ValueIdx

/-- Contraction 0 at (b, s, e) is the sum over d of x (b, s, d) times the weight at (e, d). -/
theorem v0_eq (x0 : A3) (w : A2) (b : Fin 8) (s : Fin 2048) (e : Fin 1024) :
    val_main_v0 (F := Ideal) x0 w (ix3 b s e) = proj (cur3 x0) (cur2 w) b s e := by
  rw [val_main_v0_apply]
  refine Finset.sum_congr rfl fun k _ => ?_
  have hl : lidx_main_v0 (ix3 b s e) k = ix3 b s k := funext fun a => Fin.ext (by match a with | ⟨0, _⟩ => rfl | ⟨1, _⟩ => rfl | ⟨2, _⟩ => rfl)
  have hr : ridx_main_v0 (ix3 b s e) k = ix2 e k := funext fun a => Fin.ext (by match a with | ⟨0, _⟩ => rfl | ⟨1, _⟩ => rfl)
  rw [hl, hr]

/-- Contraction 1 at (b, s, e) is the sum over d of x (b, s, d) times the weight at (e, d). -/
theorem v1_eq (x0 : A3) (w : A2) (b : Fin 8) (s : Fin 2048) (e : Fin 1024) :
    val_main_v1 (F := Ideal) x0 w (ix3 b s e) = proj (cur3 x0) (cur2 w) b s e := by
  rw [val_main_v1_apply]
  refine Finset.sum_congr rfl fun k _ => ?_
  have hl : lidx_main_v1 (ix3 b s e) k = ix3 b s k := funext fun a => Fin.ext (by match a with | ⟨0, _⟩ => rfl | ⟨1, _⟩ => rfl | ⟨2, _⟩ => rfl)
  have hr : ridx_main_v1 (ix3 b s e) k = ix2 e k := funext fun a => Fin.ext (by match a with | ⟨0, _⟩ => rfl | ⟨1, _⟩ => rfl)
  rw [hl, hr]

/-- Contraction 2 at (b, s, e) is the sum over d of x (b, s, d) times the weight at (e, d). -/
theorem v2_eq (x0 : A3) (w : A2) (b : Fin 8) (s : Fin 2048) (e : Fin 1024) :
    val_main_v2 (F := Ideal) x0 w (ix3 b s e) = proj (cur3 x0) (cur2 w) b s e := by
  rw [val_main_v2_apply]
  refine Finset.sum_congr rfl fun k _ => ?_
  have hl : lidx_main_v2 (ix3 b s e) k = ix3 b s k := funext fun a => Fin.ext (by match a with | ⟨0, _⟩ => rfl | ⟨1, _⟩ => rfl | ⟨2, _⟩ => rfl)
  have hr : ridx_main_v2 (ix3 b s e) k = ix2 e k := funext fun a => Fin.ext (by match a with | ⟨0, _⟩ => rfl | ⟨1, _⟩ => rfl)
  rw [hl, hr]

end Cert.Block.Ref

end
-- ==== Proof.Ref.Scores.lean ====
/-
  The scores: the batched contraction of the query rows with the key rows, then the quotient by the square root of
  the word 1024 (a rank-zero constant, its square root, broadcast to the scores' shape).
-/
import proofs.«175621_j3762391351596_2_alg».proof.Proof.Ref.QKV

noncomputable section

namespace Cert.Block.Ref

open Cert.ReferenceIdeal Cert.ReferenceIdeal.Gen Cert.ReferenceIdeal.ReadP Idealize.ShloMosaic Idealize.ShloMosaic.ValueIdx

/-- The batched contraction at (b, i, j) is the inner product of query row (b, i) with key row (b, j). -/
theorem v3_eq (x0 : A3) (x1 x2 : A2) (b : Fin 8) (i j : Fin 2048) :
    val_main_v3 (F := Ideal) x0 x1 x2 (ix3 b i j) = qk (proj (cur3 x0) (cur2 x1)) (proj (cur3 x0) (cur2 x2)) b i j := by
  rw [val_main_v3_apply]
  refine Finset.sum_congr rfl fun k _ => ?_
  have hl : lidx_main_v3 (ix3 b i j) k = ix3 b i k := funext fun a => Fin.ext (by match a with | ⟨0, _⟩ => rfl | ⟨1, _⟩ => rfl | ⟨2, _⟩ => rfl)
  have hr : ridx_main_v3 (ix3 b i j) k = ix3 b j k := funext fun a => Fin.ext (by match a with | ⟨0, _⟩ => rfl | ⟨1, _⟩ => rfl | ⟨2, _⟩ => rfl)
  rw [hl, hr, v0_eq, v1_eq]

/-- The divided scores at (b, i, j). -/
theorem v6_eq (x0 : A3) (x1 x2 : A2) (b : Fin 8) (i j : Fin 2048) :
    val_main_v6 (F := Ideal) x0 x1 x2 (ix3 b i j) = scS x0 x1 x2 b i j := by
  rw [val_main_v6_apply, val_main_v5_apply, val_main_v4_apply, val_main_cst_apply, v3_eq]
  rfl

end Cert.Block.Ref

end
-- ==== Proof.Ref.Softmax.lean ====
/-
  The softmax weights. The maximum-reduction of the scaled scores along the last axis is the row's largest entry;
  the maximum of minus infinity with it changes nothing; the scores shifted by it and exponentiated are the row's
  `pexp`; their sum from zero is the row's total; each weight is divided by the total.
-/
import proofs.«175621_j3762391351596_2_alg».proof.Proof.Ref.Scores

noncomputable section

namespace Cert.Block.Ref

open Cert.ReferenceIdeal Cert.ReferenceIdeal.Gen Cert.ReferenceIdeal.ReadP Idealize.ShloMosaic Idealize.ShloMosaic.ValueIdx

/-- The maximum-reduction at (b, i) is the largest entry of row (b, i) of the scaled scores. -/
theorem v7_eq (x0 : A3) (x1 x2 : A2) (b : Fin 8) (i : Fin 2048) :
    val_main_v7 (F := Ideal) x0 x1 x2 (ix2 b i) = rowmax (scS x0 x1 x2 b i) := by
  unfold val_main_v7
  refine (reduceMax_last (val_main_v6 (F := Ideal) x0 x1 x2) (val_main_cst_0 (F := Ideal)) _ _ b i).trans ?_
  have hf : (fun k : Fin 2048 => val_main_v6 (F := Ideal) x0 x1 x2 (ix3 b i k)) = scS x0 x1 x2 b i :=
    funext fun k => v6_eq x0 x1 x2 b i k
  rw [hf]
  rfl

/-- The maximum of minus infinity with the row's largest entry is the row's largest entry. -/
theorem v9_eq (x0 : A3) (x1 x2 : A2) (b : Fin 8) (i : Fin 2048) :
    val_main_v9 (F := Ideal) x0 x1 x2 (ix2 b i) = rowmax (scS x0 x1 x2 b i) := by
  rw [val_main_v9_apply, val_main_v8_apply, v7_eq]
  exact max_negInf _

/-- The exponential of the shifted scores at (b, i, j). -/
theorem v13_eq (x0 : A3) (x1 x2 : A2) (b : Fin 8) (i j : Fin 2048) :
    val_main_v13 (F := Ideal) x0 x1 x2 (ix3 b i j) = pexp (scS x0 x1 x2 b i) j := by
  rw [val_main_v13_apply, val_main_v12_apply, val_main_v11_apply, val_main_v10_apply]
  have hi : idx_main_v10 (idx_main_v11 (ix3 b i j)) = ix2 b i := funext fun a => Fin.ext (by match a with | ⟨0, _⟩ => rfl | ⟨1, _⟩ => rfl)
  rw [hi, v9_eq, v6_eq]
  rfl

/-- The sum of a row's exponentials, from zero. -/
theorem v14_eq (x0 : A3) (x1 x2 : A2) (b : Fin 8) (i : Fin 2048) :
    val_main_v14 (F := Ideal) x0 x1 x2 (ix2 b i) = ∑ j : Fin 2048, pexp (scS x0 x1 x2 b i) j := by
  rw [val_main_v14_apply]
  have h0 : val_main_cst_2 (F := Ideal) (Shape.Idx.first h_S_) = 0 := Ideal.ofBits_zero_f32
  rw [h0, zero_add]
  refine Finset.sum_congr rfl fun k _ => ?_
  have hi : idx_main_v14 (ix2 b i) k = ix3 b i k := funext fun a => Fin.ext (by match a with | ⟨0, _⟩ => rfl | ⟨1, _⟩ => rfl | ⟨2, _⟩ => rfl)
  rw [hi, v13_eq]

/-- The normalised weight at (b, i, j). -/
theorem v17_eq (x0 : A3) (x1 x2 : A2) (b : Fin 8) (i j : Fin 2048) :
    val_main_v17 (F := Ideal) x0 x1 x2 (ix3 b i j)
      = Ideal.div (pexp (scS x0 x1 x2 b i) j) (∑ j' : Fin 2048, pexp (scS x0 x1 x2 b i) j') := by
  rw [val_main_v17_apply, val_main_v16_apply, val_main_v15_apply]
  have hi : idx_main_v15 (idx_main_v16 (ix3 b i j)) = ix2 b i := funext fun a => Fin.ext (by match a with | ⟨0, _⟩ => rfl | ⟨1, _⟩ => rfl)
  rw [hi, v13_eq, v14_eq]
  rfl

end Cert.Block.Ref

end
-- ==== Proof.Ref.Attn.lean ====
/-
  The attention output: the batched contraction of the normalised weights with the value rows, and the residual sum
  with x.
-/
import proofs.«175621_j3762391351596_2_alg».proof.Proof.Ref.Softmax

noncomputable section

namespace Cert.Block.Ref

open Cert.ReferenceIdeal Cert.ReferenceIdeal.Gen Cert.ReferenceIdeal.ReadP Idealize.ShloMosaic Idealize.ShloMosaic.ValueIdx

/-- The contraction at (b, i, e) is the weighted sum of the value rows. -/
theorem v18_eq (x0 : A3) (x1 x2 x3 : A2) (b : Fin 8) (i : Fin 2048) (e : Fin 1024) :
    val_main_v18 (F := Ideal) x0 x1 x2 x3 (ix3 b i e) = aS x0 x1 x2 x3 b i e := by
  rw [val_main_v18_apply]
  refine Finset.sum_congr rfl fun k _ => ?_
  have hl : lidx_main_v18 (ix3 b i e) k = ix3 b i k := funext fun a => Fin.ext (by match a with | ⟨0, _⟩ => rfl | ⟨1, _⟩ => rfl | ⟨2, _⟩ => rfl)
  have hr : ridx_main_v18 (ix3 b i e) k = ix3 b k e := funext fun a => Fin.ext (by match a with | ⟨0, _⟩ => rfl | ⟨1, _⟩ => rfl | ⟨2, _⟩ => rfl)
  rw [hl, hr, v17_eq, v2_eq]

/-- The first residual sum at (b, s, e). -/
theorem v19_eq (x0 : A3) (x1 x2 x3 : A2) (b : Fin 8) (s : Fin 2048) (e : Fin 1024) :
    val_main_v19 (F := Ideal) x0 x1 x2 x3 (ix3 b s e) = r1S x0 x1 x2 x3 b s e := by
  rw [val_main_v19_apply, v18_eq]
  rfl

end Cert.Block.Ref

end
-- ==== Proof.Ref.Norm1.lean ====
/-
  The first layer normalisation, of the residual sum x + a, with gain g1 and offset be1: the mean and the variance of a
  feature row are sums from zero divided by the word 1024 (held in a trailing axis of extent one and broadcast back),
  the centred row is multiplied by the reciprocal square root of the variance plus the offset word, by the gain, and the
  offset is added.
-/
import proofs.«175621_j3762391351596_2_alg».proof.Proof.Ref.Attn

noncomputable section

namespace Cert.Block.Ref

open Cert.ReferenceIdeal Cert.ReferenceIdeal.Gen Cert.ReferenceIdeal.ReadP Idealize.ShloMosaic Idealize.ShloMosaic.ValueIdx

/-- The row's mean: the sum from zero over the feature axis, divided by the word 1024. -/
theorem v23_eq (x0 : A3) (x1 x2 x3 : A2) (b : Fin 8) (s : Fin 2048) :
    val_main_v23 (F := Ideal) x0 x1 x2 x3 (ix3 b s (0 : Fin 1)) = mean (r1S x0 x1 x2 x3 b s) := by
  rw [val_main_v23_apply, val_main_v21_apply, val_main_v22_apply, val_main_v20_apply]
  have h0 : val_main_cst_3 (F := Ideal) (Shape.Idx.first h_S_) = 0 := Ideal.ofBits_zero_f32
  rw [h0, zero_add]
  refine congrArg (fun t => Ideal.div t w1024) (Finset.sum_congr rfl fun k _ => ?_)
  have hi : idx_main_v20 (idx_main_v21 (ix3 b s (0 : Fin 1))) k = ix3 b s k := funext fun a => Fin.ext (by match a with | ⟨0, _⟩ => rfl | ⟨1, _⟩ => rfl | ⟨2, _⟩ => rfl)
  rw [hi, v19_eq]

/-- The centred row (it is computed twice, once for the variance and once for the result). -/
theorem v25_eq (x0 : A3) (x1 x2 x3 : A2) (b : Fin 8) (s : Fin 2048) (e : Fin 1024) :
    val_main_v25 (F := Ideal) x0 x1 x2 x3 (ix3 b s e) = r1S x0 x1 x2 x3 b s e - mean (r1S x0 x1 x2 x3 b s) := by
  rw [val_main_v25_apply, val_main_v24_apply]
  have hi : idx_main_v24 (ix3 b s e) = ix3 b s (0 : Fin 1) := funext fun a => Fin.ext (by match a with | ⟨0, _⟩ => rfl | ⟨1, _⟩ => rfl | ⟨2, _⟩ => rfl)
  rw [hi, v23_eq, v19_eq]
  rfl

theorem v32_eq (x0 : A3) (x1 x2 x3 : A2) (b : Fin 8) (s : Fin 2048) (e : Fin 1024) :
    val_main_v32 (F := Ideal) x0 x1 x2 x3 (ix3 b s e) = r1S x0 x1 x2 x3 b s e - mean (r1S x0 x1 x2 x3 b s) := by
  rw [val_main_v32_apply, val_main_v31_apply]
  have hi : idx_main_v31 (ix3 b s e) = ix3 b s (0 : Fin 1) := funext fun a => Fin.ext (by match a with | ⟨0, _⟩ => rfl | ⟨1, _⟩ => rfl | ⟨2, _⟩ => rfl)
  rw [hi, v23_eq, v19_eq]
  rfl

/-- The row's variance: the mean of the squares of the centred row. -/
theorem v30_eq (x0 : A3) (x1 x2 x3 : A2) (b : Fin 8) (s : Fin 2048) :
    val_main_v30 (F := Ideal) x0 x1 x2 x3 (ix3 b s (0 : Fin 1))
      = mean (fun e' => (r1S x0 x1 x2 x3 b s e' - mean (r1S x0 x1 x2 x3 b s)) * (r1S x0 x1 x2 x3 b s e' - mean (r1S x0 x1 x2 x3 b s))) := by
  rw [val_main_v30_apply, val_main_v28_apply, val_main_v29_apply, val_main_v27_apply]
  have h0 : val_main_cst_5 (F := Ideal) (Shape.Idx.first h_S_) = 0 := Ideal.ofBits_zero_f32
  rw [h0, zero_add]
  refine congrArg (fun t => Ideal.div t w1024) (Finset.sum_congr rfl fun k _ => ?_)
  have hi : idx_main_v27 (idx_main_v28 (ix3 b s (0 : Fin 1))) k = ix3 b s k := funext fun a => Fin.ext (by match a with | ⟨0, _⟩ => rfl | ⟨1, _⟩ => rfl | ⟨2, _⟩ => rfl)
  rw [hi, val_main_v26_apply, v25_eq]
  rfl

/-- The reciprocal square root of the variance plus the offset. -/
theorem v35_eq (x0 : A3) (x1 x2 x3 : A2) (b : Fin 8) (s : Fin 2048) :
    val_main_v35 (F := Ideal) x0 x1 x2 x3 (ix3 b s (0 : Fin 1))
      = Ideal.rsqrt (mean (fun e' => (r1S x0 x1 x2 x3 b s e' - mean (r1S x0 x1 x2 x3 b s)) * (r1S x0 x1 x2 x3 b s e' - mean (r1S x0 x1 x2 x3 b s))) + wEps) := by
  rw [val_main_v35_apply, val_main_v34_apply, val_main_v33_apply, v30_eq]
  rfl

/-- The normalised row: the centred row times the reciprocal square root, times the gain, plus the offset. -/
theorem v43_eq (x0 : A3) (x1 x2 x3 : A2) (x8 x9 : A1) (b : Fin 8) (s : Fin 2048) (e : Fin 1024) :
    val_main_v43 (F := Ideal) x0 x1 x2 x3 x8 x9 (ix3 b s e) = hS x0 x1 x2 x3 x8 x9 b s e := by
  rw [val_main_v43_apply, val_main_v40_apply, val_main_v37_apply, val_main_v36_apply,
    val_main_v39_apply, val_main_v38_apply, val_main_v42_apply, val_main_v41_apply]
  have hr : idx_main_v36 (ix3 b s e) = ix3 b s (0 : Fin 1) := funext fun a => Fin.ext (by match a with | ⟨0, _⟩ => rfl | ⟨1, _⟩ => rfl | ⟨2, _⟩ => rfl)
  have hg : idx_main_v38 (idx_main_v39 (ix3 b s e)) = ix1 e := funext fun a => Fin.ext (by match a with | ⟨0, _⟩ => rfl)
  have hb : idx_main_v41 (idx_main_v42 (ix3 b s e)) = ix1 e := funext fun a => Fin.ext (by match a with | ⟨0, _⟩ => rfl)
  rw [hr, hg, hb, v32_eq, v35_eq]
  rfl

end Cert.Block.Ref

end
-- ==== Proof.Ref.Hidden.lean ====
/-
  The hidden layer: the contraction of the normalised rows h with W1, plus the offset b1 (broadcast along batch and
  position), then the positive part (the maximum with the zero word).
-/
import proofs.«175621_j3762391351596_2_alg».proof.Proof.Ref.Norm1

noncomputable section

namespace Cert.Block.Ref

open Cert.ReferenceIdeal Cert.ReferenceIdeal.Gen Cert.ReferenceIdeal.ReadP Idealize.ShloMosaic Idealize.ShloMosaic.ValueIdx

/-- The hidden activations at (b, s, j). -/
theorem v48_eq (x0 : A3) (x1 x2 x3 : A2) (x4 : A2h) (x5 : A1h) (x8 x9 : A1) (b : Fin 8) (s j : Fin 2048) :
    val_main_v48 (F := Ideal) x0 x1 x2 x3 x4 x5 x8 x9 (ix3 b s j)
      = hid (hS x0 x1 x2 x3 x8 x9) (cur2 x4) (cur1 x5) b s j := by
  rw [val_main_v48_apply, val_main_v47_apply, val_main_v46_apply, val_main_v45_apply, val_main_v44_apply]
  have hb : idx_main_v45 (idx_main_v46 (ix3 b s j)) = ix1 j := funext fun a => Fin.ext (by match a with | ⟨0, _⟩ => rfl)
  have hs : (∑ k : Fin 1024, val_main_v43 (F := Ideal) x0 x1 x2 x3 x8 x9 (lidx_main_v44 (ix3 b s j) k) * x4 (ridx_main_v44 (ix3 b s j) k))
      = ∑ d : Fin 1024, hS x0 x1 x2 x3 x8 x9 b s d * cur2 x4 j d := by
    refine Finset.sum_congr rfl fun k _ => ?_
    have hl : lidx_main_v44 (ix3 b s j) k = ix3 b s k := funext fun a => Fin.ext (by match a with | ⟨0, _⟩ => rfl | ⟨1, _⟩ => rfl | ⟨2, _⟩ => rfl)
    have hr : ridx_main_v44 (ix3 b s j) k = ix2 j k := funext fun a => Fin.ext (by match a with | ⟨0, _⟩ => rfl | ⟨1, _⟩ => rfl)
    rw [hl, hr, v43_eq]
  rw [hb, hs]
  rfl

end Cert.Block.Ref

end
-- ==== Proof.Ref.Out.lean ====
/-
  The output layer: the contraction of the hidden activations with W2, plus the offset b2, and the second residual sum
  with h.
-/
import proofs.«175621_j3762391351596_2_alg».proof.Proof.Ref.Hidden

noncomputable section

namespace Cert.Block.Ref

open Cert.ReferenceIdeal Cert.ReferenceIdeal.Gen Cert.ReferenceIdeal.ReadP Idealize.ShloMosaic Idealize.ShloMosaic.ValueIdx

/-- The perceptron's output at (b, s, e). -/
theorem v52_eq (x0 : A3) (x1 x2 x3 : A2) (x4 : A2h) (x5 : A1h) (x6 : A2o) (x7 x8 x9 : A1) (b : Fin 8) (s : Fin 2048) (e : Fin 1024) :
    val_main_v52 (F := Ideal) x0 x1 x2 x3 x4 x5 x6 x7 x8 x9 (ix3 b s e) = fS x0 x1 x2 x3 x4 x5 x6 x7 x8 x9 b s e := by
  rw [val_main_v52_apply, val_main_v51_apply, val_main_v50_apply, val_main_v49_apply]
  have hb : idx_main_v50 (idx_main_v51 (ix3 b s e)) = ix1 e := funext fun a => Fin.ext (by match a with | ⟨0, _⟩ => rfl)
  have hs : (∑ k : Fin 2048, val_main_v48 (F := Ideal) x0 x1 x2 x3 x4 x5 x8 x9 (lidx_main_v49 (ix3 b s e) k) * x6 (ridx_main_v49 (ix3 b s e) k))
      = ∑ j : Fin 2048, hid (hS x0 x1 x2 x3 x8 x9) (cur2 x4) (cur1 x5) b s j * cur2 x6 e j := by
    refine Finset.sum_congr rfl fun k _ => ?_
    have hl : lidx_main_v49 (ix3 b s e) k = ix3 b s k := funext fun a => Fin.ext (by match a with | ⟨0, _⟩ => rfl | ⟨1, _⟩ => rfl | ⟨2, _⟩ => rfl)
    have hr : ridx_main_v49 (ix3 b s e) k = ix2 e k := funext fun a => Fin.ext (by match a with | ⟨0, _⟩ => rfl | ⟨1, _⟩ => rfl)
    rw [hl, hr, v48_eq]
  rw [hb, hs]
  rfl

/-- The second residual sum at (b, s, e). -/
theorem v53_eq (x0 : A3) (x1 x2 x3 : A2) (x4 : A2h) (x5 : A1h) (x6 : A2o) (x7 x8 x9 : A1) (b : Fin 8) (s : Fin 2048) (e : Fin 1024) :
    val_main_v53 (F := Ideal) x0 x1 x2 x3 x4 x5 x6 x7 x8 x9 (ix3 b s e) = r2S x0 x1 x2 x3 x4 x5 x6 x7 x8 x9 b s e := by
  rw [val_main_v53_apply, v43_eq, v52_eq]
  rfl

end Cert.Block.Ref

end
-- ==== Proof.Ref.Norm2.lean ====
/-
  The second layer normalisation, of the residual sum h + f, with gain g2 and offset be2; the same steps as the first.
-/
import proofs.«175621_j3762391351596_2_alg».proof.Proof.Ref.Out

noncomputable section

namespace Cert.Block.Ref

open Cert.ReferenceIdeal Cert.ReferenceIdeal.Gen Cert.ReferenceIdeal.ReadP Idealize.ShloMosaic Idealize.ShloMosaic.ValueIdx

/-- The row's mean: the sum from zero over the feature axis, divided by the word 1024. -/
theorem v57_eq (x0 : A3) (x1 x2 x3 : A2) (x4 : A2h) (x5 : A1h) (x6 : A2o) (x7 x8 x9 : A1) (b : Fin 8) (s : Fin 2048) :
    val_main_v57 (F := Ideal) x0 x1 x2 x3 x4 x5 x6 x7 x8 x9 (ix3 b s (0 : Fin 1)) = mean (r2S x0 x1 x2 x3 x4 x5 x6 x7 x8 x9 b s) := by
  rw [val_main_v57_apply, val_main_v55_apply, val_main_v56_apply, val_main_v54_apply]
  have h0 : val_main_cst_8 (F := Ideal) (Shape.Idx.first h_S_) = 0 := Ideal.ofBits_zero_f32
  rw [h0, zero_add]
  refine congrArg (fun t => Ideal.div t w1024) (Finset.sum_congr rfl fun k _ => ?_)
  have hi : idx_main_v54 (idx_main_v55 (ix3 b s (0 : Fin 1))) k = ix3 b s k := funext fun a => Fin.ext (by match a with | ⟨0, _⟩ => rfl | ⟨1, _⟩ => rfl | ⟨2, _⟩ => rfl)
  rw [hi, v53_eq]

/-- The centred row (it is computed twice, once for the variance and once for the result). -/
theorem v59_eq (x0 : A3) (x1 x2 x3 : A2) (x4 : A2h) (x5 : A1h) (x6 : A2o) (x7 x8 x9 : A1) (b : Fin 8) (s : Fin 2048) (e : Fin 1024) :
    val_main_v59 (F := Ideal) x0 x1 x2 x3 x4 x5 x6 x7 x8 x9 (ix3 b s e) = r2S x0 x1 x2 x3 x4 x5 x6 x7 x8 x9 b s e - mean (r2S x0 x1 x2 x3 x4 x5 x6 x7 x8 x9 b s) := by
  rw [val_main_v59_apply, val_main_v58_apply]
  have hi : idx_main_v58 (ix3 b s e) = ix3 b s (0 : Fin 1) := funext fun a => Fin.ext (by match a with | ⟨0, _⟩ => rfl | ⟨1, _⟩ => rfl | ⟨2, _⟩ => rfl)
  rw [hi, v57_eq, v53_eq]
  rfl

theorem v66_eq (x0 : A3) (x1 x2 x3 : A2) (x4 : A2h) (x5 : A1h) (x6 : A2o) (x7 x8 x9 : A1) (b : Fin 8) (s : Fin 2048) (e : Fin 1024) :
    val_main_v66 (F := Ideal) x0 x1 x2 x3 x4 x5 x6 x7 x8 x9 (ix3 b s e) = r2S x0 x1 x2 x3 x4 x5 x6 x7 x8 x9 b s e - mean (r2S x0 x1 x2 x3 x4 x5 x6 x7 x8 x9 b s) := by
  rw [val_main_v66_apply, val_main_v65_apply]
  have hi : idx_main_v65 (ix3 b s e) = ix3 b s (0 : Fin 1) := funext fun a => Fin.ext (by match a with | ⟨0, _⟩ => rfl | ⟨1, _⟩ => rfl | ⟨2, _⟩ => rfl)
  rw [hi, v57_eq, v53_eq]
  rfl

/-- The row's variance: the mean of the squares of the centred row. -/
theorem v64_eq (x0 : A3) (x1 x2 x3 : A2) (x4 : A2h) (x5 : A1h) (x6 : A2o) (x7 x8 x9 : A1) (b : Fin 8) (s : Fin 2048) :
    val_main_v64 (F := Ideal) x0 x1 x2 x3 x4 x5 x6 x7 x8 x9 (ix3 b s (0 : Fin 1))
      = mean (fun e' => (r2S x0 x1 x2 x3 x4 x5 x6 x7 x8 x9 b s e' - mean (r2S x0 x1 x2 x3 x4 x5 x6 x7 x8 x9 b s)) * (r2S x0 x1 x2 x3 x4 x5 x6 x7 x8 x9 b s e' - mean (r2S x0 x1 x2 x3 x4 x5 x6 x7 x8 x9 b s))) := by
  rw [val_main_v64_apply, val_main_v62_apply, val_main_v63_apply, val_main_v61_apply]
  have h0 : val_main_cst_10 (F := Ideal) (Shape.Idx.first h_S_) = 0 := Ideal.ofBits_zero_f32
  rw [h0, zero_add]
  refine congrArg (fun t => Ideal.div t w1024) (Finset.sum_congr rfl fun k _ => ?_)
  have hi : idx_main_v61 (idx_main_v62 (ix3 b s (0 : Fin 1))) k = ix3 b s k := funext fun a => Fin.ext (by match a with | ⟨0, _⟩ => rfl | ⟨1, _⟩ => rfl | ⟨2, _⟩ => rfl)
  rw [hi, val_main_v60_apply, v59_eq]
  rfl

/-- The reciprocal square root of the variance plus the offset. -/
theorem v69_eq (x0 : A3) (x1 x2 x3 : A2) (x4 : A2h) (x5 : A1h) (x6 : A2o) (x7 x8 x9 : A1) (b : Fin 8) (s : Fin 2048) :
    val_main_v69 (F := Ideal) x0 x1 x2 x3 x4 x5 x6 x7 x8 x9 (ix3 b s (0 : Fin 1))
      = Ideal.rsqrt (mean (fun e' => (r2S x0 x1 x2 x3 x4 x5 x6 x7 x8 x9 b s e' - mean (r2S x0 x1 x2 x3 x4 x5 x6 x7 x8 x9 b s)) * (r2S x0 x1 x2 x3 x4 x5 x6 x7 x8 x9 b s e' - mean (r2S x0 x1 x2 x3 x4 x5 x6 x7 x8 x9 b s))) + wEps) := by
  rw [val_main_v69_apply, val_main_v68_apply, val_main_v67_apply, v64_eq]
  rfl

/-- The normalised row: the centred row times the reciprocal square root, times the gain, plus the offset. -/
theorem v77_eq (x0 : A3) (x1 x2 x3 : A2) (x4 : A2h) (x5 : A1h) (x6 : A2o) (x7 x8 x9 x10 x11 : A1) (b : Fin 8) (s : Fin 2048) (e : Fin 1024) :
    val_main_v77 (F := Ideal) x0 x1 x2 x3 x4 x5 x6 x7 x8 x9 x10 x11 (ix3 b s e) = (fun b s => ln (r2S x0 x1 x2 x3 x4 x5 x6 x7 x8 x9 b s) (cur1 x10) (cur1 x11)) b s e := by
  rw [val_main_v77_apply, val_main_v74_apply, val_main_v71_apply, val_main_v70_apply,
    val_main_v73_apply, val_main_v72_apply, val_main_v76_apply, val_main_v75_apply]
  have hr : idx_main_v70 (ix3 b s e) = ix3 b s (0 : Fin 1) := funext fun a => Fin.ext (by match a with | ⟨0, _⟩ => rfl | ⟨1, _⟩ => rfl | ⟨2, _⟩ => rfl)
  have hg : idx_main_v72 (idx_main_v73 (ix3 b s e)) = ix1 e := funext fun a => Fin.ext (by match a with | ⟨0, _⟩ => rfl)
  have hb : idx_main_v75 (idx_main_v76 (ix3 b s e)) = ix1 e := funext fun a => Fin.ext (by match a with | ⟨0, _⟩ => rfl)
  rw [hr, hg, hb, v66_eq, v69_eq]
  rfl

end Cert.Block.Ref

end
-- ==== Proof.Ref.lean ====
/-
  The reference program computes the block: its last operation, read at every index (b, s, e), is the specification's
  `outR` of the twelve argument arrays read as functions of coordinates. Each imported module reads one stage of the
  program (projections, scores, softmax weights, attention output, first normalisation, hidden layer, output layer,
  second normalisation) at an index; this one chains them: an index is its three coordinates, the last stage there is
  the normalised second residual sum, and that is `outR` by unfolding.
-/
import proofs.«175621_j3762391351596_2_alg».proof.Proof.Ref.Norm2

noncomputable section

namespace Cert.Block.Ref

open Cert.ReferenceIdeal Cert.ReferenceIdeal.Gen Cert.ReferenceIdeal.ReadP Idealize.ShloMosaic Idealize.ShloMosaic.ValueIdx Idealize.ShloMosaic.TcCoe Idealize.SL.Sem Idealize.ShloMosaic.StableHlo

/-- The reference's result is the block of its arguments. -/
theorem ref_eq (a0 : A3) (a1 a2 a3 : A2) (a4 : A2h) (a5 : A1h) (a6 : A2o) (a7 a8 a9 a10 a11 : A1) :
    Cert.ReferenceIdeal.ReadP.val_main_v77 (F := Ideal) a0 a1 a2 a3 a4 a5 a6 a7 a8 a9 a10 a11
      = Cert.Block.unc3 (Cert.Block.outR (cur3 a0) (cur2 a1) (cur2 a2) (cur2 a3) (cur2 a4) (cur1 a5) (cur2 a6) (cur1 a7)
          (cur1 a8) (cur1 a9) (cur1 a10) (cur1 a11)) := by
  funext i
  obtain ⟨b, s, e, rfl⟩ : ∃ (b : Fin 8) (s : Fin 2048) (e : Fin 1024), i = ix3 b s e := ⟨i 0, i 1, i 2, eq_ix3 i⟩
  rw [v77_eq]
  rfl

/-- The run's result buffer, as the generated run names it, is the block of the arguments' launch contents. -/
theorem res_eq (m : (ℓ : Loc nD τ sig) → Buf (Elt Ideal) ℓ) (c : Dev nD) :
    Cert.ReferenceIdeal.ValueP.res_main_v77 (F := Ideal) m c
      = Cert.Block.unc3 (Cert.Block.outR
          (cur3 (m ((c.tc : Thread nD τ).loc main_arg0) : A3)) (cur2 (m ((c.tc : Thread nD τ).loc main_arg1) : A2))
          (cur2 (m ((c.tc : Thread nD τ).loc main_arg2) : A2)) (cur2 (m ((c.tc : Thread nD τ).loc main_arg3) : A2))
          (cur2 (m ((c.tc : Thread nD τ).loc main_arg4) : A2h)) (cur1 (m ((c.tc : Thread nD τ).loc main_arg5) : A1h))
          (cur2 (m ((c.tc : Thread nD τ).loc main_arg6) : A2o)) (cur1 (m ((c.tc : Thread nD τ).loc main_arg7) : A1))
          (cur1 (m ((c.tc : Thread nD τ).loc main_arg8) : A1)) (cur1 (m ((c.tc : Thread nD τ).loc main_arg9) : A1))
          (cur1 (m ((c.tc : Thread nD τ).loc main_arg10) : A1)) (cur1 (m ((c.tc : Thread nD τ).loc main_arg11) : A1))) := by
  rw [Cert.ReferenceIdeal.ReadP.val_main_v77_eq, ref_eq]

end Cert.Block.Ref

end
-- ==== Proof.AlgReal.lean ====
/-
  Real-valued facts used to join the two spellings of the block.

  * The coercion of the reals into the extended reals commutes with finite sums.
  * The float words that occur denote the reals 1/32 and 1024, and minus infinity.
  * The two scales agree at every extended real: a quotient by sqrt 1024 = 32 is a product with 1/32.
  * The fold of `max` from minus infinity over a nonempty family of reals is a real.
-/
import proofs.«175621_j3762391351596_2_alg».proof.Proof.Spec

noncomputable section

namespace Cert.Block

open Idealize.ShloMosaic

/-- The coercion of reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals, read in the extended reals, is a real. -/
theorem sum_real {ι : Type*} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih fun i hi => hf i (Finset.mem_insert_of_mem hi)
    exact ⟨ra + rs, by rw [Finset.sum_insert ha, hra, hrs, EReal.coe_add]⟩

/-- The word 0x3D000000 denotes 1/32. -/
theorem wInv32_eq : wInv32 = ((1 / 32 : ℝ) : EReal) := by
  simp [wInv32, Ideal.ofBits, Ideal.ieee]
  rw [← EReal.coe_mul]
  norm_num

/-- The word 0x44800000 denotes 1024. -/
theorem w1024_eq : w1024 = ((1024 : ℝ) : EReal) := by
  simp [w1024, Ideal.ofBits, Ideal.ieee]
  rw [← EReal.coe_mul]
  norm_num

/-- The word 0xFF800000 denotes minus infinity. -/
theorem wNegInf_eq : wNegInf = (⊥ : EReal) := by
  simp [wNegInf, Ideal.ofBits, Ideal.ieee]

/-- The square root of 1024 is 32. -/
theorem sqrt_w1024 : Ideal.sqrt w1024 = ((32 : ℝ) : EReal) := by
  rw [w1024_eq, Ideal.sqrt_coe, if_neg (by norm_num)]
  have h : Real.sqrt 1024 = 32 := by
    rw [show (1024 : ℝ) = 32 ^ 2 by norm_num]
    exact Real.sqrt_sq (by norm_num)
  rw [h]

/-- The two scales are one function, at the infinities too. -/
theorem scaleK_eq_scaleR : scaleK = scaleR := by
  funext a b i j
  show a b i j * wInv32 = Ideal.div (a b i j) (Ideal.sqrt w1024)
  rw [sqrt_w1024, Ideal.div_coe (by norm_num : (32 : ℝ) ≠ 0), wInv32_eq]

/-- The scaled value of a real is a real. -/
theorem scaleR_real (a : Wide) (ha : ∀ b i j, ∃ r : ℝ, a b i j = (r : EReal)) :
    ∀ b i j, ∃ r : ℝ, scaleR a b i j = (r : EReal) := by
  intro b i j
  obtain ⟨r, hr⟩ := ha b i j
  refine ⟨r * (1 / 32), ?_⟩
  show Ideal.div (a b i j) (Ideal.sqrt w1024) = _
  rw [sqrt_w1024, Ideal.div_coe (by norm_num : (32 : ℝ) ≠ 0), hr, ← EReal.coe_mul]

/-- The fold of `max` from minus infinity over a nonempty finite family of reals is a real. -/
theorem fold_max_real {ι : Type*} (s : Finset ι) (hs : s.Nonempty) (f : ι → EReal)
    (hf : ∀ i ∈ s, ∃ r : ℝ, f i = (r : EReal)) :
    ∃ m : ℝ, s.fold max (⊥ : EReal) f = (m : EReal) := by
  have hne_top : s.fold max (⊥ : EReal) f ≠ ⊤ := by
    apply ne_of_lt
    rw [Finset.fold_max_lt]
    refine ⟨bot_lt_top, fun x hx => ?_⟩
    obtain ⟨r, hr⟩ := hf x hx
    rw [hr]; exact EReal.coe_lt_top r
  have hne_bot : s.fold max (⊥ : EReal) f ≠ ⊥ := by
    obtain ⟨j, hj⟩ := hs
    obtain ⟨r, hr⟩ := hf j hj
    apply ne_of_gt
    apply lt_of_lt_of_le (EReal.bot_lt_coe r)
    rw [Finset.le_fold_max]
    exact Or.inr ⟨j, hj, hr.ge⟩
  exact ⟨_, (EReal.coe_toReal hne_top hne_bot).symm⟩

/-- The maximum of a row of reals is a real. -/
theorem rowmax_real (row : Fin 2048 → EReal) (hrow : ∀ j, ∃ r : ℝ, row j = (r : EReal)) :
    ∃ m : ℝ, rowmax row = (m : EReal) := by
  unfold rowmax
  rw [wNegInf_eq]
  exact fold_max_real Finset.univ ⟨0, Finset.mem_univ _⟩ row fun j _ => hrow j

end Cert.Block

end
-- ==== Proof.AlgAttn.lean ====
/-
  The two normalisations of the attention weights agree on real data.

  With real scores the shifted exponentials are positive reals, so their total T is a positive real; then
  (∑ p_j v_j) / T and ∑ (p_j / T) v_j are both the real number (∑ p_j v_j) · (1/T): the quotient is a product
  with the real reciprocal, and a product distributes over a finite sum of reals.
-/
import proofs.«175621_j3762391351596_2_alg».proof.Proof.AlgReal

noncomputable section

namespace Cert.Block

open Idealize.ShloMosaic

/-- One row: positive real weights `exp (row j - m)`, real values `v j`. The weighted sum divided by the total
    weight equals the sum of the values against the weights each divided by the total. -/
theorem attn_row {ι : Type*} [Fintype ι] [Nonempty ι] (row v : ι → ℝ) (m : ℝ) :
    Ideal.div (∑ j, Ideal.exp ((row j : EReal) - (m : EReal)) * (v j : EReal))
        (∑ j, Ideal.exp ((row j : EReal) - (m : EReal)))
      = ∑ j, Ideal.div (Ideal.exp ((row j : EReal) - (m : EReal)))
          (∑ j', Ideal.exp ((row j' : EReal) - (m : EReal))) * (v j : EReal) := by
  have hp : ∀ j, Ideal.exp ((row j : EReal) - (m : EReal)) = ((Real.exp (row j - m) : ℝ) : EReal) := fun j => by
    rw [← EReal.coe_sub, Ideal.exp_coe]
  simp only [hp]
  have hT : (∑ j, ((Real.exp (row j - m) : ℝ) : EReal)) = ((∑ j, Real.exp (row j - m) : ℝ) : EReal) :=
    (coe_sum _ _).symm
  have hTpos : 0 < ∑ j, Real.exp (row j - m) :=
    Finset.sum_pos (fun j _ => Real.exp_pos _) Finset.univ_nonempty
  rw [hT]
  simp only [Ideal.div_coe hTpos.ne', ← EReal.coe_mul, ← coe_sum]
  rw [Finset.sum_mul]
  exact congrArg _ (Finset.sum_congr rfl fun j _ => by ring)

/-- The two attention spellings agree when every score and every value entry is a real. -/
theorem attn_eq_of_real (sc : Wide) (v : Act) (hsc : ∀ b i j, ∃ r : ℝ, sc b i j = (r : EReal))
    (hv : ∀ b j e, ∃ r : ℝ, v b j e = (r : EReal)) : attnK sc v = attnR sc v := by
  funext b i e
  choose scr hscr using hsc
  choose vr hvr using hv
  obtain ⟨m, hm⟩ := rowmax_real (sc b i) fun j => ⟨scr b i j, hscr b i j⟩
  have hpe : ∀ j, pexp (sc b i) j = Ideal.exp (((scr b i j : ℝ) : EReal) - (m : EReal)) := fun j => by
    unfold pexp; rw [hm, hscr b i j]
  show Ideal.div (∑ j : Fin 2048, pexp (sc b i) j * v b j e) (∑ j : Fin 2048, pexp (sc b i) j)
      = ∑ j : Fin 2048, Ideal.div (pexp (sc b i) j) (∑ j' : Fin 2048, pexp (sc b i) j') * v b j e
  simp only [hpe, hvr]
  exact attn_row (fun j => scr b i j) (fun j => vr b j e) m

/-- The attention of the kernel's spelling over the product scale equals the reference's over the quotient scale,
    for real score inputs `a` and real values `v`. -/
theorem attn_eq (a : Wide) (v : Act) (ha : ∀ b i j, ∃ r : ℝ, a b i j = (r : EReal))
    (hv : ∀ b j e, ∃ r : ℝ, v b j e = (r : EReal)) : attnK (scaleK a) v = attnR (scaleR a) v := by
  rw [scaleK_eq_scaleR]
  exact attn_eq_of_real (scaleR a) v (scaleR_real a ha) hv

end Cert.Block

end
-- ==== Proof.AlgBlock.lean ====
/-
  The block in the kernel's spelling equals the block in the reference's spelling when the activations and the
  three projection matrices are real.

  The linear images of real data are real (finite sums of products of reals), hence so are the inner products of
  query rows with key rows; on such data the two attention spellings agree, and the rest of the block is shared.
-/
import proofs.«175621_j3762391351596_2_alg».proof.Proof.AlgAttn

noncomputable section

namespace Cert.Block

open Idealize.ShloMosaic

/-- A linear image of real activations by a real matrix is real. -/
theorem proj_real (x : Act) (W : Fin 1024 → Fin 1024 → EReal) (hx : ∀ b s d, ∃ r : ℝ, x b s d = (r : EReal))
    (hW : ∀ e d, ∃ r : ℝ, W e d = (r : EReal)) : ∀ b s e, ∃ r : ℝ, proj x W b s e = (r : EReal) := by
  intro b s e
  unfold proj
  refine sum_real _ _ fun d _ => ?_
  obtain ⟨r1, h1⟩ := hx b s d
  obtain ⟨r2, h2⟩ := hW e d
  exact ⟨r1 * r2, by rw [h1, h2, EReal.coe_mul]⟩

/-- Inner products of real rows are real. -/
theorem qk_real (q k : Act) (hq : ∀ b s d, ∃ r : ℝ, q b s d = (r : EReal))
    (hk : ∀ b s d, ∃ r : ℝ, k b s d = (r : EReal)) : ∀ b i j, ∃ r : ℝ, qk q k b i j = (r : EReal) := by
  intro b i j
  unfold qk
  refine sum_real _ _ fun d _ => ?_
  obtain ⟨r1, h1⟩ := hq b i d
  obtain ⟨r2, h2⟩ := hk b j d
  exact ⟨r1 * r2, by rw [h1, h2, EReal.coe_mul]⟩

/-- The two spellings of the block agree on real activations and real projection matrices. -/
theorem outK_eq_outR (x : Act) (Wq Wk Wv : Fin 1024 → Fin 1024 → EReal) (W1 : Fin 2048 → Fin 1024 → EReal)
    (b1 : Fin 2048 → EReal) (W2 : Fin 1024 → Fin 2048 → EReal) (b2 g1 be1 g2 be2 : Fin 1024 → EReal)
    (hx : ∀ b s d, ∃ r : ℝ, x b s d = (r : EReal)) (hq : ∀ e d, ∃ r : ℝ, Wq e d = (r : EReal))
    (hk : ∀ e d, ∃ r : ℝ, Wk e d = (r : EReal)) (hv : ∀ e d, ∃ r : ℝ, Wv e d = (r : EReal)) :
    outK x Wq Wk Wv W1 b1 W2 b2 g1 be1 g2 be2 = outR x Wq Wk Wv W1 b1 W2 b2 g1 be1 g2 be2 := by
  unfold outK outR blockOf
  rw [attn_eq (qk (proj x Wq) (proj x Wk)) (proj x Wv)
    (qk_real _ _ (proj_real x Wq hx hq) (proj_real x Wk hx hk)) (proj_real x Wv hx hv)]

end Cert.Block

end
-- ==== Proof.FinitePre.lean ====
/-
  From the precondition to finiteness of the inputs.

  The precondition is the conjunction, over the twelve argument arrays, of "every entry has absolute value below
  plus infinity". On the extended reals the absolute value of x is max x (-x), which is plus infinity at both
  infinities and a real at a real; so an entry that passes the test is a real. A conjunction that is 1 has every
  conjunct 1, and an all-reduction by "and" that is 1 has every element 1.
-/
import proofs.«175621_j3762391351596_2_alg».proof.Pre_finite_inputs
import Idealize.ShloMosaic.PureOps.Ideal
import Idealize.ShloMosaic.Lib.ReduceAll
import Idealize.ShloMosaic.Lib.ValueIdx

noncomputable section

namespace Cert.Block

open Idealize.ShloMosaic

/-- The word 0x7F800000 denotes plus infinity. -/
theorem wPosInf_eq : Ideal.ofBits .f32 0x7F800000#32 = (⊤ : EReal) := by
  simp [Ideal.ofBits, Ideal.ieee]

/-- An extended real whose absolute value is below plus infinity is a real. -/
theorem real_of_abs_lt (x : EReal)
    (h : Ideal.cmp .olt (max x (-x)) (Ideal.ofBits .f32 0x7F800000#32) = 1#1) : ∃ r : ℝ, x = (r : EReal) := by
  rw [wPosInf_eq] at h
  induction x using EReal.rec with
  | bot => simp [Ideal.cmp] at h
  | top => simp [Ideal.cmp] at h
  | coe r => exact ⟨r, rfl⟩

instance subsingleton_scalar_idx : Subsingleton Cert.Pre_finite_inputs.S_.Idx :=
  ⟨fun a b => funext fun d => d.elim0⟩

/-- One array: if the all-reduction of "absolute value below plus infinity" is 1, every entry is a real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu j = 1#1) :
    ∀ i, ∃ r : ℝ, a i = (r : EReal) := by
  intro i
  have hi := Host.reduce_andi_all _ _ hr hu j e i
  exact real_of_abs_lt (a i) hi

open Cert.Pre_finite_inputs in
/-- The precondition gives: the activations and the three projection matrices have only real entries. -/
theorem finite_of_pre [Cert.Pre_finite_inputs.Facts]
    (a0 : FVec Ideal S8x2048x1024 .f32) (a1 a2 a3 : FVec Ideal S1024x1024 .f32) (a4 : FVec Ideal S2048x1024 .f32)
    (a5 : FVec Ideal S2048 .f32) (a6 : FVec Ideal S1024x2048 .f32) (a7 a8 a9 a10 a11 : FVec Ideal S1024 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨e0, e1⟩, e2⟩, e3⟩, _⟩, _⟩, _⟩, _⟩, _⟩, _⟩, _⟩, _⟩ := h0
  exact ⟨real_of_all a0 _ _ _ _ e0, real_of_all a1 _ _ _ _ e1, real_of_all a2 _ _ _ _ e2, real_of_all a3 _ _ _ _ e3⟩

end Cert.Block

end
-- ==== Proof.Alg.lean ====
/-
  The algebraic law under the precondition: when the twelve argument arrays pass the finiteness test, the block
  in its two spellings is one function of them. Only the activations and the three projection matrices need to be
  finite; the remaining eight arrays enter both spellings through the same shared terms.
-/
import proofs.«175621_j3762391351596_2_alg».proof.Proof.AlgBlock
import proofs.«175621_j3762391351596_2_alg».proof.Proof.FinitePre

noncomputable section

namespace Cert.Block

open Idealize.ShloMosaic

open Cert.Pre_finite_inputs in
/-- Under the finiteness precondition the two spellings of the block agree, the first four arrays read by
    coordinates and the other parameters arbitrary. -/
theorem outK_eq_outR_of_pre [Cert.Pre_finite_inputs.Facts]
    (a0 : FVec Ideal S8x2048x1024 .f32) (a1 a2 a3 : FVec Ideal S1024x1024 .f32) (a4 : FVec Ideal S2048x1024 .f32)
    (a5 : FVec Ideal S2048 .f32) (a6 : FVec Ideal S1024x2048 .f32) (a7 a8 a9 a10 a11 : FVec Ideal S1024 .f32)
    (h : Cert.Pre_finite_inputs.fn (F := Ideal) a0 a1 a2 a3 a4 a5 a6 a7 a8 a9 a10 a11 = fun _ => 1#1)
    (W1 : Fin 2048 → Fin 1024 → EReal) (b1 : Fin 2048 → EReal) (W2 : Fin 1024 → Fin 2048 → EReal)
    (b2 g1 be1 g2 be2 : Fin 1024 → EReal) :
    outK (cur3 a0) (cur2 a1) (cur2 a2) (cur2 a3) W1 b1 W2 b2 g1 be1 g2 be2
      = outR (cur3 a0) (cur2 a1) (cur2 a2) (cur2 a3) W1 b1 W2 b2 g1 be1 g2 be2 := by
  obtain ⟨h0, h1, h2, h3⟩ := finite_of_pre a0 a1 a2 a3 a4 a5 a6 a7 a8 a9 a10 a11 h
  exact outK_eq_outR _ _ _ _ W1 b1 W2 b2 g1 be1 g2 be2 (fun b s d => h0 _) (fun e d => h1 _) (fun e d => h2 _)
    (fun e d => h3 _)

end Cert.Block

end
-- ==== Proof.lean ====
/-
  The certificate of the claims about the fused transformer-block kernel.

  The kernel computes, in three pipelined regions joined by host reshapes and transposes, a single-head attention
  block: three linear images of x (queries, keys, values), scores scaled by 1/32, a softmax over each row of scores
  applied to the values, a residual sum and a layer normalisation; then a two-layer perceptron with a positive-part
  nonlinearity, a second residual sum and a second layer normalisation. The reference computes the same block with
  whole-array operations.

  Frames. Each kernel program runs to the end without a fault and leaves its twelve arguments as launched: each
  region's body is run once at a generic grid point, the pipelines' write-backs are folded over the grids, and the host
  stretches only write their own results. The reference is a straight line of host operations.

  Equivalence over the extended reals. Read index by index, the kernel's result array is the block with the scale
  written as a product by 1/32 and the softmax normalised AFTER the weighted sum of value rows; the reference's is the
  block with the scale written as a quotient by the square root of 1024 and each weight normalised BEFORE the sum. The
  first pair agree on every extended real. The second pair agree because every input entry is finite: then queries,
  keys, values and scores are real, every weight is a positive real and so is their total, and dividing a finite sum
  of reals by a positive real is dividing each term. Everything else — sums in another order or grouping, changes of
  float format, tilings — is the same function on both sides.
-/
import proofs.«175621_j3762391351596_2_alg».proof.Defs
import proofs.«175621_j3762391351596_2_alg».proof.Proof.Gen.Kernel
import proofs.«175621_j3762391351596_2_alg».proof.Proof.Gen.KernelIdeal
import proofs.«175621_j3762391351596_2_alg».proof.Proof.Gen.ReferenceIdeal
import proofs.«175621_j3762391351596_2_alg».proof.Proof.Gen.Pre_finite_inputs
import proofs.«175621_j3762391351596_2_alg».proof.Proof.RefRunP
import proofs.«175621_j3762391351596_2_alg».proof.Proof.RefReadP
import proofs.«175621_j3762391351596_2_alg».proof.Proof.FrRunB
import proofs.«175621_j3762391351596_2_alg».proof.Proof.FrRunI
import proofs.«175621_j3762391351596_2_alg».proof.Proof.KernelValue
import proofs.«175621_j3762391351596_2_alg».proof.Proof.Ref
import proofs.«175621_j3762391351596_2_alg».proof.Proof.Alg
import Idealize.ShloMosaic.Adequacy
import Idealize.ShloMosaic.Init

noncomputable section

namespace Cert.Proof

open Idealize.ShloMosaic Idealize.ShloMosaic.TcCoe Idealize.SL.Sem Idealize.ShloMosaic.ValueIdx Cert.Block

/-- The word-level kernel program runs and leaves its arguments as launched. -/
theorem frame_k : @Cert.frame_Kernel Cert.Kernel.Gen.facts Cert.Pre_finite_inputs.Gen.facts :=
  fun m ρ _ => Cert.Kernel.Fr.frame m ρ

/-- So does the program read over the extended reals. -/
theorem frame_ki : @Cert.frame_KernelIdeal Cert.KernelIdeal.Gen.facts Cert.Pre_finite_inputs.Gen.facts :=
  fun m ρ _ => Cert.KernelIdeal.Fr.frame m ρ

/-- The reference is a straight line of host operations: its run, with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.ValueP.run (F := Ideal) m ρ)

/-- No operation of the kernel was rewritten for the reading over the extended reals. -/
theorem preserves : Cert.preserves_Kernel_KernelIdeal := trivial

/-- From memories that agree on the arguments, both programs end with the result array at the block's specification of
    the arguments: the kernel's in its own spelling, the reference's in the other, and under the precondition the two
    spellings are one function. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Val.specOut m c, Cert.KernelIdeal.Val.run_out m ρ, ?_⟩
  refine (θ_run Cert.ReferenceIdeal.defs _ _).mono (fun _ h c => ⟨(h c).1.trans ?_, (h c).2⟩)
    (Cert.ReferenceIdeal.ValueP.run (F := Ideal) m' ρ')
  rw [Cert.Block.Ref.res_eq]
  obtain ⟨h0, h1, h2, h3, h4, h5, h6, h7, h8, h9, h10, h11⟩ := hagree c
  rw [h0, h1, h2, h3, h4, h5, h6, h7, h8, h9, h10, h11]
  unfold Cert.KernelIdeal.Val.specOut
  exact congrArg unc3 (Cert.Block.outK_eq_outR_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (hpre c) _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
